-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg16
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x2 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 82
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x2, .f32⟩
  | .hbm, ⟨17, _⟩ => ⟨S2, .f32⟩
  | .hbm, ⟨18, _⟩ => ⟨S1x600000, .i32⟩
  | .hbm, ⟨19, _⟩ => ⟨S600000, .i32⟩
  | .hbm, ⟨20, _⟩ => ⟨S1x600000, .i32⟩
  | .hbm, ⟨21, _⟩ => ⟨S600000, .i32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S1x128, .f32⟩
  | .hbm, ⟨79, _⟩ => ⟨S1x128, .f32⟩
  | .hbm, ⟨80, _⟩ => ⟨S1x2, .f32⟩
  | .hbm, ⟨81, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x2, .f32⟩
  | .local _ .vmem, ⟨45, _⟩ => ⟨S1x2, .f32⟩
  | .local _ .vmem, ⟨46, _⟩ => ⟨S5000x2, .f32⟩
  | .local _ .vmem, ⟨47, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v15_2 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_v36_2 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .f32 = 32 ∨ (Rect.block (s := S128x2) S128x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x2.size a ≤ S100000x2.size a
  hwx4_7 : ∀ i : grid4.Coords, EltTy.bits .f32 = 32 ∨ (Rect.block (s := S100000x2) S5000x2.size (cc4_transform_7 i) (hinb4_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v36_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48) S1x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v49) S5000x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x2, .f32⟩
  | 17 => ⟨S2, .f32⟩
  | 18 => ⟨S1x600000, .i32⟩
  | 19 => ⟨S600000, .i32⟩
  | 20 => ⟨S1x600000, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S100000x128, .f32⟩
  | 33 => ⟨S600000x1, .i32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S100000x128, .f32⟩
  | 40 => ⟨S100000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S1x600000, .i32⟩
  | 89 => ⟨S600000, .i32⟩
  | 90 => ⟨S1x600000, .i32⟩
  | 91 => ⟨S600000, .i32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S100000x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x2, .f32⟩
  | 45 => ⟨S1x2, .f32⟩
  | 46 => ⟨S100000x2, .f32⟩
  | 47 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_call1_cst : Ref sig .tc := ⟨.hbm, 85, rfl⟩
abbrev main_call1_v0 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_5 : Ref sig .tc := ⟨.hbm, 92, rfl⟩
abbrev main_v44 : Ref sig .tc := ⟨.hbm, 93, rfl⟩
abbrev main_v45 : Ref sig .tc := ⟨.hbm, 94, rfl⟩
abbrev main_c_6 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_7 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_8 : Ref sig .tc := ⟨.hbm, 111, rfl⟩
abbrev main_v60 : Ref sig .tc := ⟨.hbm, 112, rfl⟩
abbrev main_cst_9 : Ref sig .tc := ⟨.hbm, 113, rfl⟩
abbrev main_v61 : Ref sig .tc := ⟨.hbm, 114, rfl⟩
abbrev main_v62 : Ref sig .tc := ⟨.hbm, 115, rfl⟩
abbrev main_c_10 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_11 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_call3_cst : Ref sig .tc := ⟨.hbm, 155, rfl⟩
abbrev main_call3_v0 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_call4_cst : Ref sig .tc := ⟨.hbm, 162, rfl⟩
abbrev main_call4_v0 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_call5_cst : Ref sig .tc := ⟨.hbm, 169, rfl⟩
abbrev main_call5_v0 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Frames.lean ====
/-
  The two kernel programs' frame claims: every weakly fair execution terminates, nothing faults, and the eighteen
  argument arrays end as launched — the frame certificate of each program (its five regions among the host
  stretches), cited at the word-level instance and at the extended reals.
-/
import proofs.«180842_j41832981463453_1_alg».proof.Defs
import proofs.«180842_j41832981463453_1_alg».proof.Proof.KernelFrameP
import proofs.«180842_j41832981463453_1_alg».proof.Proof.KernelIdealFrameP
import proofs.«180842_j41832981463453_1_alg».proof.Proof.Gen.Kernel
import proofs.«180842_j41832981463453_1_alg».proof.Proof.Gen.KernelIdeal
import proofs.«180842_j41832981463453_1_alg».proof.Proof.Gen.Pre_finite_inputs

noncomputable section

namespace Cert.Proof.Frames

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

end Cert.Proof.Frames

end
-- ==== Proof.RefOps.lean ====
/-
  The reference's @main as the list of its host operations, in program order: the body of each function it calls is
  written out at the call over that call's own record of buffers (the variance function twice, each time with the
  selection function it calls; the clamp function four times), its arguments the caller's buffers as typed references.
  The list is cut into thirteen stretches, one per stage of the network, so that each stage can be read back on its own.
-/
import proofs.«180842_j41832981463453_1_alg».proof.ReferenceIdeal
import proofs.«180842_j41832981463453_1_alg».proof.Proof.Gen.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal Cert.ReferenceIdeal.Facts₀

variable {F : FTy → Type} [FloatOps F]

/-- Layer one's aggregation: the edge list's two rows as index columns (a negative source index wrapped by the node count), the gather of the source rows, the zero array, the scatter-add into the destination rows. (17 operations.) -/
abbrev ops_w0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- Layer one's linear combination: the aggregate times the left weights plus the bias row, plus the features times the right weights. (6 operations.) -/
abbrev ops_w1 : List (HloOp τ sig (Elt F)) :=
  [ StableHlo.binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v17 main_v18 main_v19 (addf : (⟨S100000x128, .f32⟩ : BufTy).Contents (Elt F) → (⟨S100000x128, .f32⟩ : BufTy).Contents (Elt F) → (⟨S100000x128, .f32⟩ : BufTy).Contents (Elt F)) ]

/-- Layer one's column means: the column sums divided by the node count; and the zero word of degrees of freedom the variance takes. (6 operations.) -/
abbrev ops_w2 : List (HloOp τ sig (Elt F)) :=
  [ StableHlo.nullary main_cst_1 (constant S_ .f32 0x00000000#32),
    StableHlo.binary main_v19 main_cst_1 main_v20 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v21 (broadcastInDim S128 ![] bcast_S_S128 : (⟨S_, .f32⟩ : BufTy).Contents (Elt F) → (⟨S128, .f32⟩ : BufTy).Contents (Elt F)),
    StableHlo.binary main_v20 main_v21 main_v22 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32) ]

/-- Layer one's column variances, the body of the variance function over its own buffers: the mean on a one-row array, the squared deviations, their column sums divided by the node count less the degrees of freedom, guarded by the comparison (the body of the selection function last). (22 operations.) -/
abbrev ops_w3 : List (HloOp τ sig (Elt F)) :=
  [ StableHlo.TRef.nullary main_call0.cst (constant S_ .f32 0x00000000#32),
    StableHlo.TRef.binary (.of main_v19 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v19 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Layer one's normalisation: subtract the mean row, multiply by the reciprocal square root of variance plus epsilon, scale, shift, and the clamp at zero (the body of the clamp function). (19 operations.) -/
abbrev ops_w4 : List (HloOp τ sig (Elt F)) :=
  [ StableHlo.unary main_v22 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v25 main_v26 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v27 (broadcastInDim S128 ![] bcast_S_S128 : (⟨S_, .f32⟩ : BufTy).Contents (Elt F) → (⟨S128, .f32⟩ : BufTy).Contents (Elt F)),
    StableHlo.binary main_v23 main_v27 main_v28 (addf : (⟨S128, .f32⟩ : BufTy).Contents (Elt F) → (⟨S128, .f32⟩ : BufTy).Contents (Elt F) → (⟨S128, .f32⟩ : BufTy).Contents (Elt F)),
    StableHlo.unary main_v28 main_v29 (Host.rsqrt : (⟨S128, .f32⟩ : BufTy).Contents (Elt F) → (⟨S128, .f32⟩ : BufTy).Contents (Elt F)),
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v31 main_v32 (mulf : (⟨S100000x128, .f32⟩ : BufTy).Contents (Elt F) → (⟨S100000x128, .f32⟩ : BufTy).Contents (Elt F) → (⟨S100000x128, .f32⟩ : BufTy).Contents (Elt F)),
    StableHlo.unary main_arg8 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg9 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v38 : StableHlo.TRef sig ⟨S100000x128, .f32⟩) main_call1.v0 main_call1.v1 maximumf ]

/-- Layer two's aggregation, over layer one's result. (17 operations.) -/
abbrev ops_w5 : List (HloOp τ sig (Elt F)) :=
  [ StableHlo.unary main_arg1 main_v40 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v40 main_v41 rfl shapeCasts_S1x600000_S600000,
    StableHlo.unary main_arg1 main_v42 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v42 main_v43 rfl shapeCasts_S1x600000_S600000,
    StableHlo.nullary main_c_5 (constantI S_ 32 0#32),
    StableHlo.unary main_c_5 main_v44 (broadcastInDim S600000 ![] bcast_S_S600000 : (⟨S_, .i32⟩ : BufTy).Contents (Elt F) → (⟨S600000, .i32⟩ : BufTy).Contents (Elt F)),
    StableHlo.binary main_v41 main_v44 main_v45 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32),
    StableHlo.unary main_c_6 main_v46 (broadcastInDim S600000 ![] bcast_S_S600000 : (⟨S_, .i32⟩ : BufTy).Contents (Elt F) → (⟨S600000, .i32⟩ : BufTy).Contents (Elt F)),
    StableHlo.binary main_v41 main_v46 main_v47 (addi : (⟨S600000, .i32⟩ : BufTy).Contents (Elt F) → (⟨S600000, .i32⟩ : BufTy).Contents (Elt F) → (⟨S600000, .i32⟩ : BufTy).Contents (Elt F)),
    StableHlo.ternary main_v45 main_v47 main_v41 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v48 main_v49 (broadcastInDim S600000x1 ![0] bcast_S600000_S600000x1_0 : (⟨S600000, .i32⟩ : BufTy).Contents (Elt F) → (⟨S600000x1, .i32⟩ : BufTy).Contents (Elt F)),
    StableHlo.binary main_v39 main_v49 main_v50 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v51 (broadcastInDim S100000x128 ![] bcast_S_S100000x128 : (⟨S_, .f32⟩ : BufTy).Contents (Elt F) → (⟨S100000x128, .f32⟩ : BufTy).Contents (Elt F)),
    StableHlo.unary main_v43 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- Layer two's linear combination. (6 operations.) -/
abbrev ops_w6 : List (HloOp τ sig (Elt F)) :=
  [ StableHlo.binary main_v53 main_arg5 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.binary main_v39 main_arg7 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v57 main_v58 main_v59 (addf : (⟨S100000x128, .f32⟩ : BufTy).Contents (Elt F) → (⟨S100000x128, .f32⟩ : BufTy).Contents (Elt F) → (⟨S100000x128, .f32⟩ : BufTy).Contents (Elt F)) ]

/-- Layer two's column means and the zero word of degrees of freedom. (6 operations.) -/
abbrev ops_w7 : List (HloOp τ sig (Elt F)) :=
  [ StableHlo.nullary main_cst_8 (constant S_ .f32 0x00000000#32),
    StableHlo.binary main_v59 main_cst_8 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v61 (broadcastInDim S128 ![] bcast_S_S128 : (⟨S_, .f32⟩ : BufTy).Contents (Elt F) → (⟨S128, .f32⟩ : BufTy).Contents (Elt F)),
    StableHlo.binary main_v60 main_v61 main_v62 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32) ]

/-- Layer two's column variances (the variance function's body, the selection function's last). (22 operations.) -/
abbrev ops_w8 : List (HloOp τ sig (Elt F)) :=
  [ StableHlo.TRef.nullary main_call2.cst (constant S_ .f32 0x00000000#32),
    StableHlo.TRef.binary (.of main_v59 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v59 : StableHlo.TRef sig ⟨S100000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Layer two's normalisation and clamp. (19 operations.) -/
abbrev ops_w9 : List (HloOp τ sig (Elt F)) :=
  [ StableHlo.unary main_v62 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v65 main_v66 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v67 (broadcastInDim S128 ![] bcast_S_S128 : (⟨S_, .f32⟩ : BufTy).Contents (Elt F) → (⟨S128, .f32⟩ : BufTy).Contents (Elt F)),
    StableHlo.binary main_v63 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v71 main_v72 (mulf : (⟨S100000x128, .f32⟩ : BufTy).Contents (Elt F) → (⟨S100000x128, .f32⟩ : BufTy).Contents (Elt F) → (⟨S100000x128, .f32⟩ : BufTy).Contents (Elt F)),
    StableHlo.unary main_arg10 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_arg11 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v78 : StableHlo.TRef sig ⟨S100000x128, .f32⟩) main_call3.v0 main_call3.v1 maximumf ]

/-- The perceptron's first layer: product, bias row, clamp. (7 operations.) -/
abbrev ops_w10 : List (HloOp τ sig (Elt F)) :=
  [ StableHlo.binary main_v79 main_arg12 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v83 : StableHlo.TRef sig ⟨S100000x128, .f32⟩) main_call4.v0 main_call4.v1 maximumf ]

/-- The perceptron's second layer: product, bias row, clamp. (7 operations.) -/
abbrev ops_w11 : List (HloOp τ sig (Elt F)) :=
  [ StableHlo.binary main_v84 main_arg14 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v88 : StableHlo.TRef sig ⟨S100000x128, .f32⟩) main_call5.v0 main_call5.v1 maximumf ]

/-- The perceptron's last layer, onto the two classes: product and bias row. (4 operations.) -/
abbrev ops_w12 : List (HloOp τ sig (Elt F)) :=
  [ StableHlo.binary main_v89 main_arg16 main_v90 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.unary main_arg17 main_v91 (broadcastInDim S1x2 ![1] bcast_S2_S1x2_1 : (⟨S2, .f32⟩ : BufTy).Contents (Elt F) → (⟨S1x2, .f32⟩ : BufTy).Contents (Elt F)),
    StableHlo.unary main_v91 main_v92 (broadcastInDim S100000x2 ![0, 1] bcast_S1x2_S100000x2_0_1 : (⟨S1x2, .f32⟩ : BufTy).Contents (Elt F) → (⟨S100000x2, .f32⟩ : BufTy).Contents (Elt F)),
    StableHlo.binary main_v90 main_v92 main_v93 (addf : (⟨S100000x2, .f32⟩ : BufTy).Contents (Elt F) → (⟨S100000x2, .f32⟩ : BufTy).Contents (Elt F) → (⟨S100000x2, .f32⟩ : BufTy).Contents (Elt F)) ]

/-- @main's 158 operations, in order: the thirteen stretches one after the other. -/
abbrev ops : List (HloOp τ sig (Elt F)) :=
  ops_w0 ++ (ops_w1 ++ (ops_w2 ++ (ops_w3 ++ (ops_w4 ++ (ops_w5 ++ (ops_w6 ++ (ops_w7 ++ (ops_w8 ++ (ops_w9 ++ (ops_w10 ++ (ops_w11 ++ (ops_w12))))))))))))

end Cert.ReferenceIdeal.RefRun

end
-- ==== Proof.RefRun.lean ====
/-
  The reference's run. @main is the straight line of the operation list (the called functions' bodies unfolded at their
  calls, sequencing reassociated); the signature scopes no buffer and no semaphore; every operation touches TensorCore
  references only and determines its result. Hence every weakly fair execution of @main terminates with each buffer at
  the fold of the operations' results over the launch contents.
-/
import proofs.«180842_j41832981463453_1_alg».proof.Proof.RefOps

noncomputable section

namespace Cert.ReferenceIdeal.RefRun

open Idealize.ShloMosaic Idealize.ShloMosaic.TcCoe Idealize.SL.Sem Idealize.ShloMosaic.StableHlo Cert.ReferenceIdeal Cert.ReferenceIdeal.Facts₀

variable {F : FTy → Type} [FloatOps F]

-- one hundred and fifty-eight binds re-associated: the rewrite under the chain recurses once per statement
set_option maxRecDepth 8192 in
set_option maxHeartbeats 4000000 in
/-- @main is the straight line of `ops`: its two halves in order, the functions' definitions unfolded at their calls and
    the stretches' concatenation flattened, both sides are one chain of steps once sequencing is reassociated. -/
theorem main_eq (c : Dev nD) : main (F := F) c = seq ops := by
  simp only [main, main_part0, main_part1, fn_var.body, fn_where.body, fn_relu.body, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, stretch by stretch. -/

theorem ops_w0_sub : (ops_w0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩
theorem ops_w1_sub : (ops_w1 : List (HloOp τ sig (Elt F))).Forall fun op => op.bufs ⊆ tcRefs τ sig :=
  ⟨binary_bufs_sub .., unary_bufs_sub .., unary_bufs_sub .., binary_bufs_sub .., binary_bufs_sub .., binary_bufs_sub ..⟩
theorem ops_w2_sub : (ops_w2 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem ops_w3_sub : (ops_w3 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem ops_w4_sub : (ops_w4 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem ops_w5_sub : (ops_w5 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩
theorem ops_w6_sub : (ops_w6 : List (HloOp τ sig (Elt F))).Forall fun op => op.bufs ⊆ tcRefs τ sig :=
  ⟨binary_bufs_sub .., unary_bufs_sub .., unary_bufs_sub .., binary_bufs_sub .., binary_bufs_sub .., binary_bufs_sub ..⟩
theorem ops_w7_sub : (ops_w7 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem ops_w8_sub : (ops_w8 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem ops_w9_sub : (ops_w9 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem ops_w10_sub : (ops_w10 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub ..⟩
theorem ops_w11_sub : (ops_w11 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub ..⟩
theorem ops_w12_sub : (ops_w12 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_append.mpr ⟨ops_w0_sub, List.forall_append.mpr ⟨ops_w1_sub, List.forall_append.mpr ⟨ops_w2_sub, List.forall_append.mpr ⟨ops_w3_sub, List.forall_append.mpr ⟨ops_w4_sub, List.forall_append.mpr ⟨ops_w5_sub, List.forall_append.mpr ⟨ops_w6_sub, List.forall_append.mpr ⟨ops_w7_sub, List.forall_append.mpr ⟨ops_w8_sub, List.forall_append.mpr ⟨ops_w9_sub, List.forall_append.mpr ⟨ops_w10_sub, List.forall_append.mpr ⟨ops_w11_sub, ops_w12_sub⟩⟩⟩⟩⟩⟩⟩⟩⟩⟩⟩⟩

/-! Every operation determines its result (none leaves a buffer at contents not chosen), stretch by stretch. -/

theorem ops_w0_fresh : (ops_w0 : List (HloOp τ sig (Elt F))).Forall fun op => op.fresh = ∅ :=
  ⟨rfl, rfl, rfl, rfl, rfl, rfl, rfl, rfl, rfl, rfl, rfl, rfl, rfl, rfl, rfl, rfl, rfl⟩
theorem ops_w1_fresh : (ops_w1 : List (HloOp τ sig (Elt F))).Forall fun op => op.fresh = ∅ :=
  ⟨rfl, rfl, rfl, rfl, rfl, rfl⟩
theorem ops_w2_fresh : (ops_w2 : List (HloOp τ sig (Elt F))).Forall fun op => op.fresh = ∅ :=
  ⟨rfl, rfl, rfl, rfl, rfl, rfl⟩
theorem ops_w3_fresh : (ops_w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem ops_w4_fresh : (ops_w4 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_w5_fresh : (ops_w5 : List (HloOp τ sig (Elt F))).Forall fun op => op.fresh = ∅ :=
  ⟨rfl, rfl, rfl, rfl, rfl, rfl, rfl, rfl, rfl, rfl, rfl, rfl, rfl, rfl, rfl, rfl, rfl⟩
theorem ops_w6_fresh : (ops_w6 : List (HloOp τ sig (Elt F))).Forall fun op => op.fresh = ∅ :=
  ⟨rfl, rfl, rfl, rfl, rfl, rfl⟩
theorem ops_w7_fresh : (ops_w7 : List (HloOp τ sig (Elt F))).Forall fun op => op.fresh = ∅ :=
  ⟨rfl, rfl, rfl, rfl, rfl, rfl⟩
theorem ops_w8_fresh : (ops_w8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem ops_w9_fresh : (ops_w9 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_w10_fresh : (ops_w10 : List (HloOp τ sig (Elt F))).Forall fun op => op.fresh = ∅ :=
  ⟨rfl, rfl, rfl, rfl, rfl, rfl, rfl⟩
theorem ops_w11_fresh : (ops_w11 : List (HloOp τ sig (Elt F))).Forall fun op => op.fresh = ∅ :=
  ⟨rfl, rfl, rfl, rfl, rfl, rfl, rfl⟩
theorem ops_w12_fresh : (ops_w12 : List (HloOp τ sig (Elt F))).Forall fun op => op.fresh = ∅ :=
  ⟨rfl, rfl, rfl, rfl⟩

theorem ops_fresh : (ops : List (HloOp τ sig (Elt F))).Forall fun op => op.fresh = ∅ :=
  List.forall_append.mpr ⟨ops_w0_fresh, List.forall_append.mpr ⟨ops_w1_fresh, List.forall_append.mpr ⟨ops_w2_fresh, List.forall_append.mpr ⟨ops_w3_fresh, List.forall_append.mpr ⟨ops_w4_fresh, List.forall_append.mpr ⟨ops_w5_fresh, List.forall_append.mpr ⟨ops_w6_fresh, List.forall_append.mpr ⟨ops_w7_fresh, List.forall_append.mpr ⟨ops_w8_fresh, List.forall_append.mpr ⟨ops_w9_fresh, List.forall_append.mpr ⟨ops_w10_fresh, List.forall_append.mpr ⟨ops_w11_fresh, ops_w12_fresh⟩⟩⟩⟩⟩⟩⟩⟩⟩⟩⟩⟩

/-- For any float values, from any memory with zero counters: every weakly fair execution of @main on the TensorCore
    terminates, and every final state has each buffer at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefKeep.lean ====
/-
  What each stretch of the reference's operation list writes, and hence what it leaves: an operation writes its result
  buffer only, so a reference that is not among a stretch's result buffers holds after the stretch what it held before.
  The eighteen arguments are among no stretch's results: the whole line leaves them.
-/
import proofs.«180842_j41832981463453_1_alg».proof.Proof.RefOps

noncomputable section

namespace Cert.ReferenceIdeal.RefRun

open Idealize.ShloMosaic Idealize.ShloMosaic.TcCoe Idealize.SL.Sem Idealize.ShloMosaic.StableHlo Cert.ReferenceIdeal Cert.ReferenceIdeal.Facts₀

variable {F : FTy → Type} [FloatOps F]

/-- The fold over two lines in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- An operation whose one written buffer is a member of a list of references writes inside the list. -/
theorem writes_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The result buffers of stretch 0. -/
abbrev W0 : List (Ref sig .tc) :=
  [main_v0, main_v1, main_v2, main_v3, main_c, main_v4, main_v5, main_c_0, main_v6, main_v7,
   main_v8, main_v9, main_v10, main_cst, main_v11, main_v12, main_v13]

theorem ops_w0_writes : (ops_w0 : List (HloOp τ sig (Elt F))).Forall fun op => op.writes ⊆ (W0.map (Proc.devRef (τ := τ) .tc)).toFinset :=
  ⟨writes_sub (y := main_v0) rfl (by decide), writes_sub (y := main_v1) rfl (by decide),
    writes_sub (y := main_v2) rfl (by decide), writes_sub (y := main_v3) rfl (by decide),
    writes_sub (y := main_c) rfl (by decide), writes_sub (y := main_v4) rfl (by decide),
    writes_sub (y := main_v5) rfl (by decide), writes_sub (y := main_c_0) rfl (by decide),
    writes_sub (y := main_v6) rfl (by decide), writes_sub (y := main_v7) rfl (by decide),
    writes_sub (y := main_v8) rfl (by decide), writes_sub (y := main_v9) rfl (by decide),
    writes_sub (y := main_v10) rfl (by decide), writes_sub (y := main_cst) rfl (by decide),
    writes_sub (y := main_v11) rfl (by decide), writes_sub (y := main_v12) rfl (by decide),
    writes_sub (y := main_v13) rfl (by decide)⟩

/-- Stretch 0 leaves every reference that is not one of its results. -/
theorem keep_w0 (V : Valuation τ sig (Elt F)) (r : Ref sig .tc) (hr : r ∉ W0) :
    after ops_w0 V (Proc.devRef .tc r) = V (Proc.devRef .tc r) :=
  after_of_writes_sub ops_w0 V ops_w0_writes hr

/-- The result buffers of stretch 1. -/
abbrev W1 : List (Ref sig .tc) :=
  [main_v14, main_v15, main_v16, main_v17, main_v18, main_v19]

theorem ops_w1_writes : (ops_w1 : List (HloOp τ sig (Elt F))).Forall fun op => op.writes ⊆ (W1.map (Proc.devRef (τ := τ) .tc)).toFinset :=
  ⟨writes_sub (y := main_v14) rfl (by decide), writes_sub (y := main_v15) rfl (by decide),
    writes_sub (y := main_v16) rfl (by decide), writes_sub (y := main_v17) rfl (by decide),
    writes_sub (y := main_v18) rfl (by decide), writes_sub (y := main_v19) rfl (by decide)⟩

/-- Stretch 1 leaves every reference that is not one of its results. -/
theorem keep_w1 (V : Valuation τ sig (Elt F)) (r : Ref sig .tc) (hr : r ∉ W1) :
    after ops_w1 V (Proc.devRef .tc r) = V (Proc.devRef .tc r) :=
  after_of_writes_sub ops_w1 V ops_w1_writes hr

/-- The result buffers of stretch 2. -/
abbrev W2 : List (Ref sig .tc) :=
  [main_cst_1, main_v20, main_cst_2, main_v21, main_v22, main_c_3]

theorem ops_w2_writes : (ops_w2 : List (HloOp τ sig (Elt F))).Forall fun op => op.writes ⊆ (W2.map (Proc.devRef (τ := τ) .tc)).toFinset :=
  ⟨writes_sub (y := main_cst_1) rfl (by decide), writes_sub (y := main_v20) rfl (by decide),
    writes_sub (y := main_cst_2) rfl (by decide), writes_sub (y := main_v21) rfl (by decide),
    writes_sub (y := main_v22) rfl (by decide), writes_sub (y := main_c_3) rfl (by decide)⟩

/-- Stretch 2 leaves every reference that is not one of its results. -/
theorem keep_w2 (V : Valuation τ sig (Elt F)) (r : Ref sig .tc) (hr : r ∉ W2) :
    after ops_w2 V (Proc.devRef .tc r) = V (Proc.devRef .tc r) :=
  after_of_writes_sub ops_w2 V ops_w2_writes hr

/-- The result buffers of stretch 3. -/
abbrev W3 : List (Ref sig .tc) :=
  [main_call0_cst, main_call0_v0, main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12, main_call0_cst_4, main_call0_call0_v0,
   main_call0_call0_v1, main_v23]

theorem ops_w3_writes : (ops_w3 : List (HloOp τ sig (Elt F))).Forall fun op => op.writes ⊆ (W3.map (Proc.devRef (τ := τ) .tc)).toFinset :=
  ⟨writes_sub (y := main_call0_cst) rfl (by decide), writes_sub (y := main_call0_v0) rfl (by decide),
    writes_sub (y := main_call0_v1) rfl (by decide), writes_sub (y := main_call0_cst_0) rfl (by decide),
    writes_sub (y := main_call0_v2) rfl (by decide), writes_sub (y := main_call0_v3) rfl (by decide),
    writes_sub (y := main_call0_v4) rfl (by decide), writes_sub (y := main_call0_v5) rfl (by decide),
    writes_sub (y := main_call0_v6) rfl (by decide), writes_sub (y := main_call0_v7) rfl (by decide),
    writes_sub (y := main_call0_cst_1) rfl (by decide), writes_sub (y := main_call0_v8) rfl (by decide),
    writes_sub (y := main_call0_cst_2) rfl (by decide), writes_sub (y := main_call0_v9) rfl (by decide),
    writes_sub (y := main_call0_v10) rfl (by decide), writes_sub (y := main_call0_v11) rfl (by decide),
    writes_sub (y := main_call0_cst_3) rfl (by decide), writes_sub (y := main_call0_v12) rfl (by decide),
    writes_sub (y := main_call0_cst_4) rfl (by decide), writes_sub (y := main_call0_call0_v0) rfl (by decide),
    writes_sub (y := main_call0_call0_v1) rfl (by decide), writes_sub (y := main_v23) rfl (by decide)⟩

/-- Stretch 3 leaves every reference that is not one of its results. -/
theorem keep_w3 (V : Valuation τ sig (Elt F)) (r : Ref sig .tc) (hr : r ∉ W3) :
    after ops_w3 V (Proc.devRef .tc r) = V (Proc.devRef .tc r) :=
  after_of_writes_sub ops_w3 V ops_w3_writes hr

/-- The result buffers of stretch 4. -/
abbrev W4 : List (Ref sig .tc) :=
  [main_v24, main_v25, main_v26, main_cst_4, main_v27, main_v28, main_v29, main_v30, main_v31, main_v32,
   main_v33, main_v34, main_v35, main_v36, main_v37, main_v38, main_call1_cst, main_call1_v0, main_v39]

theorem ops_w4_writes : (ops_w4 : List (HloOp τ sig (Elt F))).Forall fun op => op.writes ⊆ (W4.map (Proc.devRef (τ := τ) .tc)).toFinset :=
  ⟨writes_sub (y := main_v24) rfl (by decide), writes_sub (y := main_v25) rfl (by decide),
    writes_sub (y := main_v26) rfl (by decide), writes_sub (y := main_cst_4) rfl (by decide),
    writes_sub (y := main_v27) rfl (by decide), writes_sub (y := main_v28) rfl (by decide),
    writes_sub (y := main_v29) rfl (by decide), writes_sub (y := main_v30) rfl (by decide),
    writes_sub (y := main_v31) rfl (by decide), writes_sub (y := main_v32) rfl (by decide),
    writes_sub (y := main_v33) rfl (by decide), writes_sub (y := main_v34) rfl (by decide),
    writes_sub (y := main_v35) rfl (by decide), writes_sub (y := main_v36) rfl (by decide),
    writes_sub (y := main_v37) rfl (by decide), writes_sub (y := main_v38) rfl (by decide),
    writes_sub (y := main_call1_cst) rfl (by decide), writes_sub (y := main_call1_v0) rfl (by decide),
    writes_sub (y := main_v39) rfl (by decide)⟩

/-- Stretch 4 leaves every reference that is not one of its results. -/
theorem keep_w4 (V : Valuation τ sig (Elt F)) (r : Ref sig .tc) (hr : r ∉ W4) :
    after ops_w4 V (Proc.devRef .tc r) = V (Proc.devRef .tc r) :=
  after_of_writes_sub ops_w4 V ops_w4_writes hr

/-- The result buffers of stretch 5. -/
abbrev W5 : List (Ref sig .tc) :=
  [main_v40, main_v41, main_v42, main_v43, main_c_5, main_v44, main_v45, main_c_6, main_v46, main_v47,
   main_v48, main_v49, main_v50, main_cst_7, main_v51, main_v52, main_v53]

theorem ops_w5_writes : (ops_w5 : List (HloOp τ sig (Elt F))).Forall fun op => op.writes ⊆ (W5.map (Proc.devRef (τ := τ) .tc)).toFinset :=
  ⟨writes_sub (y := main_v40) rfl (by decide), writes_sub (y := main_v41) rfl (by decide),
    writes_sub (y := main_v42) rfl (by decide), writes_sub (y := main_v43) rfl (by decide),
    writes_sub (y := main_c_5) rfl (by decide), writes_sub (y := main_v44) rfl (by decide),
    writes_sub (y := main_v45) rfl (by decide), writes_sub (y := main_c_6) rfl (by decide),
    writes_sub (y := main_v46) rfl (by decide), writes_sub (y := main_v47) rfl (by decide),
    writes_sub (y := main_v48) rfl (by decide), writes_sub (y := main_v49) rfl (by decide),
    writes_sub (y := main_v50) rfl (by decide), writes_sub (y := main_cst_7) rfl (by decide),
    writes_sub (y := main_v51) rfl (by decide), writes_sub (y := main_v52) rfl (by decide),
    writes_sub (y := main_v53) rfl (by decide)⟩

/-- Stretch 5 leaves every reference that is not one of its results. -/
theorem keep_w5 (V : Valuation τ sig (Elt F)) (r : Ref sig .tc) (hr : r ∉ W5) :
    after ops_w5 V (Proc.devRef .tc r) = V (Proc.devRef .tc r) :=
  after_of_writes_sub ops_w5 V ops_w5_writes hr

/-- The result buffers of stretch 6. -/
abbrev W6 : List (Ref sig .tc) :=
  [main_v54, main_v55, main_v56, main_v57, main_v58, main_v59]

theorem ops_w6_writes : (ops_w6 : List (HloOp τ sig (Elt F))).Forall fun op => op.writes ⊆ (W6.map (Proc.devRef (τ := τ) .tc)).toFinset :=
  ⟨writes_sub (y := main_v54) rfl (by decide), writes_sub (y := main_v55) rfl (by decide),
    writes_sub (y := main_v56) rfl (by decide), writes_sub (y := main_v57) rfl (by decide),
    writes_sub (y := main_v58) rfl (by decide), writes_sub (y := main_v59) rfl (by decide)⟩

/-- Stretch 6 leaves every reference that is not one of its results. -/
theorem keep_w6 (V : Valuation τ sig (Elt F)) (r : Ref sig .tc) (hr : r ∉ W6) :
    after ops_w6 V (Proc.devRef .tc r) = V (Proc.devRef .tc r) :=
  after_of_writes_sub ops_w6 V ops_w6_writes hr

/-- The result buffers of stretch 7. -/
abbrev W7 : List (Ref sig .tc) :=
  [main_cst_8, main_v60, main_cst_9, main_v61, main_v62, main_c_10]

theorem ops_w7_writes : (ops_w7 : List (HloOp τ sig (Elt F))).Forall fun op => op.writes ⊆ (W7.map (Proc.devRef (τ := τ) .tc)).toFinset :=
  ⟨writes_sub (y := main_cst_8) rfl (by decide), writes_sub (y := main_v60) rfl (by decide),
    writes_sub (y := main_cst_9) rfl (by decide), writes_sub (y := main_v61) rfl (by decide),
    writes_sub (y := main_v62) rfl (by decide), writes_sub (y := main_c_10) rfl (by decide)⟩

/-- Stretch 7 leaves every reference that is not one of its results. -/
theorem keep_w7 (V : Valuation τ sig (Elt F)) (r : Ref sig .tc) (hr : r ∉ W7) :
    after ops_w7 V (Proc.devRef .tc r) = V (Proc.devRef .tc r) :=
  after_of_writes_sub ops_w7 V ops_w7_writes hr

/-- The result buffers of stretch 8. -/
abbrev W8 : List (Ref sig .tc) :=
  [main_call2_cst, main_call2_v0, main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12, main_call2_cst_4, main_call2_call0_v0,
   main_call2_call0_v1, main_v63]

theorem ops_w8_writes : (ops_w8 : List (HloOp τ sig (Elt F))).Forall fun op => op.writes ⊆ (W8.map (Proc.devRef (τ := τ) .tc)).toFinset :=
  ⟨writes_sub (y := main_call2_cst) rfl (by decide), writes_sub (y := main_call2_v0) rfl (by decide),
    writes_sub (y := main_call2_v1) rfl (by decide), writes_sub (y := main_call2_cst_0) rfl (by decide),
    writes_sub (y := main_call2_v2) rfl (by decide), writes_sub (y := main_call2_v3) rfl (by decide),
    writes_sub (y := main_call2_v4) rfl (by decide), writes_sub (y := main_call2_v5) rfl (by decide),
    writes_sub (y := main_call2_v6) rfl (by decide), writes_sub (y := main_call2_v7) rfl (by decide),
    writes_sub (y := main_call2_cst_1) rfl (by decide), writes_sub (y := main_call2_v8) rfl (by decide),
    writes_sub (y := main_call2_cst_2) rfl (by decide), writes_sub (y := main_call2_v9) rfl (by decide),
    writes_sub (y := main_call2_v10) rfl (by decide), writes_sub (y := main_call2_v11) rfl (by decide),
    writes_sub (y := main_call2_cst_3) rfl (by decide), writes_sub (y := main_call2_v12) rfl (by decide),
    writes_sub (y := main_call2_cst_4) rfl (by decide), writes_sub (y := main_call2_call0_v0) rfl (by decide),
    writes_sub (y := main_call2_call0_v1) rfl (by decide), writes_sub (y := main_v63) rfl (by decide)⟩

/-- Stretch 8 leaves every reference that is not one of its results. -/
theorem keep_w8 (V : Valuation τ sig (Elt F)) (r : Ref sig .tc) (hr : r ∉ W8) :
    after ops_w8 V (Proc.devRef .tc r) = V (Proc.devRef .tc r) :=
  after_of_writes_sub ops_w8 V ops_w8_writes hr

/-- The result buffers of stretch 9. -/
abbrev W9 : List (Ref sig .tc) :=
  [main_v64, main_v65, main_v66, main_cst_11, main_v67, main_v68, main_v69, main_v70, main_v71, main_v72,
   main_v73, main_v74, main_v75, main_v76, main_v77, main_v78, main_call3_cst, main_call3_v0, main_v79]

theorem ops_w9_writes : (ops_w9 : List (HloOp τ sig (Elt F))).Forall fun op => op.writes ⊆ (W9.map (Proc.devRef (τ := τ) .tc)).toFinset :=
  ⟨writes_sub (y := main_v64) rfl (by decide), writes_sub (y := main_v65) rfl (by decide),
    writes_sub (y := main_v66) rfl (by decide), writes_sub (y := main_cst_11) rfl (by decide),
    writes_sub (y := main_v67) rfl (by decide), writes_sub (y := main_v68) rfl (by decide),
    writes_sub (y := main_v69) rfl (by decide), writes_sub (y := main_v70) rfl (by decide),
    writes_sub (y := main_v71) rfl (by decide), writes_sub (y := main_v72) rfl (by decide),
    writes_sub (y := main_v73) rfl (by decide), writes_sub (y := main_v74) rfl (by decide),
    writes_sub (y := main_v75) rfl (by decide), writes_sub (y := main_v76) rfl (by decide),
    writes_sub (y := main_v77) rfl (by decide), writes_sub (y := main_v78) rfl (by decide),
    writes_sub (y := main_call3_cst) rfl (by decide), writes_sub (y := main_call3_v0) rfl (by decide),
    writes_sub (y := main_v79) rfl (by decide)⟩

/-- Stretch 9 leaves every reference that is not one of its results. -/
theorem keep_w9 (V : Valuation τ sig (Elt F)) (r : Ref sig .tc) (hr : r ∉ W9) :
    after ops_w9 V (Proc.devRef .tc r) = V (Proc.devRef .tc r) :=
  after_of_writes_sub ops_w9 V ops_w9_writes hr

/-- The result buffers of stretch 10. -/
abbrev W10 : List (Ref sig .tc) :=
  [main_v80, main_v81, main_v82, main_v83, main_call4_cst, main_call4_v0, main_v84]

theorem ops_w10_writes : (ops_w10 : List (HloOp τ sig (Elt F))).Forall fun op => op.writes ⊆ (W10.map (Proc.devRef (τ := τ) .tc)).toFinset :=
  ⟨writes_sub (y := main_v80) rfl (by decide), writes_sub (y := main_v81) rfl (by decide),
    writes_sub (y := main_v82) rfl (by decide), writes_sub (y := main_v83) rfl (by decide),
    writes_sub (y := main_call4_cst) rfl (by decide), writes_sub (y := main_call4_v0) rfl (by decide),
    writes_sub (y := main_v84) rfl (by decide)⟩

/-- Stretch 10 leaves every reference that is not one of its results. -/
theorem keep_w10 (V : Valuation τ sig (Elt F)) (r : Ref sig .tc) (hr : r ∉ W10) :
    after ops_w10 V (Proc.devRef .tc r) = V (Proc.devRef .tc r) :=
  after_of_writes_sub ops_w10 V ops_w10_writes hr

/-- The result buffers of stretch 11. -/
abbrev W11 : List (Ref sig .tc) :=
  [main_v85, main_v86, main_v87, main_v88, main_call5_cst, main_call5_v0, main_v89]

theorem ops_w11_writes : (ops_w11 : List (HloOp τ sig (Elt F))).Forall fun op => op.writes ⊆ (W11.map (Proc.devRef (τ := τ) .tc)).toFinset :=
  ⟨writes_sub (y := main_v85) rfl (by decide), writes_sub (y := main_v86) rfl (by decide),
    writes_sub (y := main_v87) rfl (by decide), writes_sub (y := main_v88) rfl (by decide),
    writes_sub (y := main_call5_cst) rfl (by decide), writes_sub (y := main_call5_v0) rfl (by decide),
    writes_sub (y := main_v89) rfl (by decide)⟩

/-- Stretch 11 leaves every reference that is not one of its results. -/
theorem keep_w11 (V : Valuation τ sig (Elt F)) (r : Ref sig .tc) (hr : r ∉ W11) :
    after ops_w11 V (Proc.devRef .tc r) = V (Proc.devRef .tc r) :=
  after_of_writes_sub ops_w11 V ops_w11_writes hr

/-- The result buffers of stretch 12. -/
abbrev W12 : List (Ref sig .tc) :=
  [main_v90, main_v91, main_v92, main_v93]

theorem ops_w12_writes : (ops_w12 : List (HloOp τ sig (Elt F))).Forall fun op => op.writes ⊆ (W12.map (Proc.devRef (τ := τ) .tc)).toFinset :=
  ⟨writes_sub (y := main_v90) rfl (by decide), writes_sub (y := main_v91) rfl (by decide),
    writes_sub (y := main_v92) rfl (by decide), writes_sub (y := main_v93) rfl (by decide)⟩

/-- Stretch 12 leaves every reference that is not one of its results. -/
theorem keep_w12 (V : Valuation τ sig (Elt F)) (r : Ref sig .tc) (hr : r ∉ W12) :
    after ops_w12 V (Proc.devRef .tc r) = V (Proc.devRef .tc r) :=
  after_of_writes_sub ops_w12 V ops_w12_writes hr

/-- A reference that is a result of no stretch is left by the whole line. -/
theorem keep_ops (V : Valuation τ sig (Elt F)) (r : Ref sig .tc)
    (hr : r ∉ W0 ∧ r ∉ W1 ∧ r ∉ W2 ∧ r ∉ W3 ∧ r ∉ W4 ∧ r ∉ W5 ∧ r ∉ W6 ∧ r ∉ W7 ∧ r ∉ W8 ∧ r ∉ W9 ∧ r ∉ W10 ∧ r ∉ W11 ∧ r ∉ W12) :
    after ops V (Proc.devRef .tc r) = V (Proc.devRef .tc r) := by
  obtain ⟨h0, h1, h2, h3, h4, h5, h6, h7, h8, h9, h10, h11, h12⟩ := hr
  simp only [after_append']
  rw [keep_w12 _ r h12, keep_w11 _ r h11, keep_w10 _ r h10, keep_w9 _ r h9, keep_w8 _ r h8, keep_w7 _ r h7, keep_w6 _ r h6,
    keep_w5 _ r h5, keep_w4 _ r h4, keep_w3 _ r h3, keep_w2 _ r h2, keep_w1 _ r h1, keep_w0 _ r h0]

end Cert.ReferenceIdeal.RefRun

end
-- ==== Proof.RefFrame.lean ====
/-
  The reference's frame: no operation of @main writes an argument's buffer, so after the run, which leaves every buffer
  at the fold of the operations' results over the launch contents, each of the eighteen arguments holds what it held at
  launch.
-/
import proofs.«180842_j41832981463453_1_alg».proof.Proof.RefRun
import proofs.«180842_j41832981463453_1_alg».proof.Proof.RefKeep
import Idealize.ShloMosaic.PureOps.Ideal

noncomputable section

namespace Cert.ReferenceIdeal.RefRun

open Idealize.ShloMosaic Idealize.ShloMosaic.TcCoe Idealize.SL.Sem Idealize.ShloMosaic.StableHlo Cert.ReferenceIdeal Cert.ReferenceIdeal.Facts₀

/-- At the ideal instance, from any memory with zero counters: every weakly fair execution of @main terminates with the
    eighteen arguments unchanged (an argument is a result of no stretch of the line, `keep_ops`). -/
theorem frame_post (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨(h c main_arg0).trans (keep_ops (launchContents m c) main_arg0 (by decide)),
      (h c main_arg1).trans (keep_ops (launchContents m c) main_arg1 (by decide)),
      (h c main_arg2).trans (keep_ops (launchContents m c) main_arg2 (by decide)),
      (h c main_arg3).trans (keep_ops (launchContents m c) main_arg3 (by decide)),
      (h c main_arg4).trans (keep_ops (launchContents m c) main_arg4 (by decide)),
      (h c main_arg5).trans (keep_ops (launchContents m c) main_arg5 (by decide)),
      (h c main_arg6).trans (keep_ops (launchContents m c) main_arg6 (by decide)),
      (h c main_arg7).trans (keep_ops (launchContents m c) main_arg7 (by decide)),
      (h c main_arg8).trans (keep_ops (launchContents m c) main_arg8 (by decide)),
      (h c main_arg9).trans (keep_ops (launchContents m c) main_arg9 (by decide)),
      (h c main_arg10).trans (keep_ops (launchContents m c) main_arg10 (by decide)),
      (h c main_arg11).trans (keep_ops (launchContents m c) main_arg11 (by decide)),
      (h c main_arg12).trans (keep_ops (launchContents m c) main_arg12 (by decide)),
      (h c main_arg13).trans (keep_ops (launchContents m c) main_arg13 (by decide)),
      (h c main_arg14).trans (keep_ops (launchContents m c) main_arg14 (by decide)),
      (h c main_arg15).trans (keep_ops (launchContents m c) main_arg15 (by decide)),
      (h c main_arg16).trans (keep_ops (launchContents m c) main_arg16 (by decide)),
      (h c main_arg17).trans (keep_ops (launchContents m c) main_arg17 (by decide))⟩)
    (run_raw m ρ)

end Cert.ReferenceIdeal.RefRun

end
-- ==== Proof.KernelRun.lean ====
import proofs.«180842_j41832981463453_1_alg».proof.Proof.KernelIdealFrameP

set_option maxRecDepth 16384

noncomputable section

namespace Cert.KernelIdeal.KRun
open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with its result named: from any memory with zero counters every weakly fair execution on the
    TensorCores terminates, nothing faulting, and in every final state the result array `main_v49` holds what the
    fold of the buffer contents through the five regions and the host stretches between them leaves there
    (`W10`), every argument array being as launched. The launch is the frame's own, read once more at the
    result's buffer: the last thread state holds every unscoped buffer at `W10`. -/
theorem run_val : θ_run defs (onTc (τ := τ) (main (F := F))) ⟨m, fun _ => 0, ρ⟩ (fun r => ∀ c : Dev nD,
      r.2.mem ((c.tc : Thread nD τ).loc main_v49) = W10 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v49 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

/-- info: 'Cert.KernelIdeal.KRun.run_val' depends on axioms: [propext, Classical.choice, Quot.sound] -/
#guard_msgs in #print axioms run_val

end Cert.KernelIdeal.KRun

end
-- ==== Proof.Spec.lean ====
/-
  The mathematics both programs compute, on the extended reals, with no program imported.

  A two-layer GraphSAGE network with batch normalisation, followed by a three-layer perceptron. A matrix is a function
  of a row and a column. One layer takes the node features `X`, aggregates them over the graph's edges (`A X`: the
  aggregation is a parameter here, the same function of the features on both sides), forms
  `H = (A X)·Wl + bl + X·Wr`, normalises every column of `H` by its mean and variance over the rows, scales and
  shifts it and clamps it at zero. The two programs differ in ONE place: the variance of a column is
  `E[h²] − E[h]²` in one (`varK`) and `E[(h − E[h])²]` in the other (`varR`); `net` takes the variance as a parameter.
  The divisor `cN` (the number of rows as a float), the stabiliser `eps` and the clamp `zero` are parameters: the
  programs' literals are substituted for them, and only the algebra module needs their values.
-/
import Idealize.ShloMosaic.PureOps.Ideal
import Idealize.ShloMosaic.Lib.ValueIdx

noncomputable section

namespace Cert.Sage

open Idealize.ShloMosaic

/-- A matrix of extended reals: a function of the row and the column. -/
abbrev Mat (R C : ℕ) : Type := Fin R → Fin C → EReal

/-- The number of nodes, the feature width, the number of classes. -/
abbrev NN : ℕ := 100000
abbrev DD : ℕ := 128
abbrev OO : ℕ := 2

/-- A matrix product: entry `(n, c)` is the sum over `k` of `A n k · W k c`. -/
def dot {R K C : ℕ} (A : Mat R K) (W : Mat K C) : Mat R C := fun n c => ∑ k : Fin K, A n k * W k c

/-- The SAGE combination `(A·Wl + bl) + X·Wr`, grouped as both programs group it. -/
def lin {R K C : ℕ} (A X : Mat R K) (Wl : Mat K C) (bl : Fin C → EReal) (Wr : Mat K C) : Mat R C :=
  fun n c => (dot A Wl n c + bl c) + dot X Wr n c

/-- The sum of a column over all rows, and the sum of its squares. -/
def colsum {R C : ℕ} (H : Mat R C) : Fin C → EReal := fun c => ∑ n : Fin R, H n c
def colsumsq {R C : ℕ} (H : Mat R C) : Fin C → EReal := fun c => ∑ n : Fin R, H n c * H n c

/-- A column's mean: its sum divided by `cN`. -/
def mean {R C : ℕ} (cN : EReal) (H : Mat R C) : Fin C → EReal := fun c => Ideal.div (colsum H c) cN

/-- A column's variance as the mean of the squares less the square of the mean. -/
def varK {R C : ℕ} (cN : EReal) (H : Mat R C) : Fin C → EReal :=
  fun c => Ideal.div (colsumsq H c) cN - mean cN H c * mean cN H c

/-- A column's variance as the mean of the squared deviations from the mean. -/
def varR {R C : ℕ} (cN : EReal) (H : Mat R C) : Fin C → EReal :=
  fun c => Ideal.div (∑ n : Fin R, (H n c - mean cN H c) * (H n c - mean cN H c)) cN

/-- Normalise, scale, shift, clamp: `max ((((h − μ)·rsqrt(v + eps))·γ) + β) zero`, grouped as both programs group it. -/
def bnrelu {R C : ℕ} (eps zero : EReal) (H : Mat R C) (mu v g b : Fin C → EReal) : Mat R C :=
  fun n c => max ((((H n c - mu c) * Ideal.rsqrt (v c + eps)) * g c) + b c) zero

/-- One layer: combine, then normalise by the column statistics of the combination. -/
def layer {R K : ℕ} (varf : EReal → Mat R K → Fin K → EReal) (cN eps zero : EReal) (A : Mat R K → Mat R K)
    (X : Mat R K) (Wl : Mat K K) (bl : Fin K → EReal) (Wr : Mat K K) (g b : Fin K → EReal) : Mat R K :=
  bnrelu eps zero (lin (A X) X Wl bl Wr) (mean cN (lin (A X) X Wl bl Wr)) (varf cN (lin (A X) X Wl bl Wr)) g b

/-- A dense layer `X·W + b`, and the same clamped at zero. -/
def dense {R K C : ℕ} (X : Mat R K) (W : Mat K C) (b : Fin C → EReal) : Mat R C := fun n c => dot X W n c + b c
def denseRelu {R K C : ℕ} (zero : EReal) (X : Mat R K) (W : Mat K C) (b : Fin C → EReal) : Mat R C :=
  fun n c => max (dense X W b n c) zero

/-- The perceptron head: two clamped dense layers and a plain one. -/
def mlp {R K C : ℕ} (zero : EReal) (X : Mat R K) (W1 : Mat K K) (b1 : Fin K → EReal) (W2 : Mat K K) (b2 : Fin K → EReal)
    (W3 : Mat K C) (b3 : Fin C → EReal) : Mat R C :=
  dense (denseRelu zero (denseRelu zero X W1 b1) W2 b2) W3 b3

/-- The whole network with the variance `varf`. -/
def net {R K C : ℕ} (varf : EReal → Mat R K → Fin K → EReal) (cN eps zero : EReal) (A : Mat R K → Mat R K) (X : Mat R K)
    (Wl0 : Mat K K) (bl0 : Fin K → EReal) (Wr0 : Mat K K) (Wl1 : Mat K K) (bl1 : Fin K → EReal) (Wr1 : Mat K K)
    (g0 be0 g1 be1 : Fin K → EReal) (W1 : Mat K K) (b1 : Fin K → EReal) (W2 : Mat K K) (b2 : Fin K → EReal)
    (W3 : Mat K C) (b3 : Fin C → EReal) : Mat R C :=
  mlp zero (layer varf cN eps zero A (layer varf cN eps zero A X Wl0 bl0 Wr0 g0 be0) Wl1 bl1 Wr1 g1 be1) W1 b1 W2 b2 W3 b3

/-- Every entry of a matrix (of a row) is a real number. -/
def MatFin {R C : ℕ} (H : Mat R C) : Prop := ∀ n c, ∃ r : ℝ, H n c = (r : EReal)
def RowFin {C : ℕ} (b : Fin C → EReal) : Prop := ∀ c, ∃ r : ℝ, b c = (r : EReal)

/-- Reading a two-axis array as a matrix, a one-axis array as a row, and the row of a `[1, C]` array. -/
def ofArr2 {R C : ℕ} (X : (⟨2, ![R, C]⟩ : Shape).Idx → EReal) : Mat R C := fun n c => X (ValueIdx.ix2 n c)
def ofArr1 {C : ℕ} (b : (⟨1, ![C]⟩ : Shape).Idx → EReal) : Fin C → EReal := fun c => b (ValueIdx.ix1 c)
def ofRow {C : ℕ} (b : (⟨2, ![1, C]⟩ : Shape).Idx → EReal) : Fin C → EReal := fun c => b (ValueIdx.ix2 (0 : Fin 1) c)
/-- A matrix as a two-axis array. -/
def toArr2 {R C : ℕ} (H : Mat R C) : (⟨2, ![R, C]⟩ : Shape).Idx → EReal := fun j => H (j 0) (j 1)
/-- A row as a `[1, C]` array. -/
def toRow {C : ℕ} (b : Fin C → EReal) : (⟨2, ![1, C]⟩ : Shape).Idx → EReal := fun j => b (j 1)

end Cert.Sage

end
-- ==== Proof.Glue.lean ====
/-
  Small facts joining the kernel program's host glue to the matrices of the specification: reading an array as a
  matrix and back is the identity; a `[128]` row reshaped to `[1, 128]` is the same row; the host's quotient by a
  splat constant, its difference and its product act entry by entry on a `[1, 128]` row.
-/
import proofs.«180842_j41832981463453_1_alg».proof.KernelIdeal
import proofs.«180842_j41832981463453_1_alg».proof.Proof.Gen.KernelIdeal
import proofs.«180842_j41832981463453_1_alg».proof.Proof.Spec
import Idealize.ShloMosaic.Lib.Pipeline.Value
import Idealize.ShloMosaic.Lib.ValueIdx

noncomputable section

namespace Cert.KernelIdeal.Glue

open Idealize.ShloMosaic Idealize.ShloMosaic.ValueIdx Cert.KernelIdeal Cert.KernelIdeal.Facts₀ Cert.Sage

/-- A matrix written as an array and read back is the matrix. -/
theorem ofArr2_toArr2 {R C : ℕ} (H : Mat R C) : ofArr2 (toArr2 H) = H := by
  funext n c; rfl

/-- An array read as a matrix and written back is the array. -/
theorem toArr2_ofArr2 {R C : ℕ} (X : (⟨2, ![R, C]⟩ : Shape).Idx → EReal) : toArr2 (ofArr2 X) = X := by
  funext j; exact congrArg X (eq_ix2 j).symm

/-- A row written as a `[1, C]` array and read back is the row. -/
theorem ofRow_toRow {C : ℕ} (b : Fin C → EReal) : ofRow (toRow b) = b := by
  funext c; rfl

/-- A `[128]` vector reshaped to `[1, 128]` holds the same row. -/
theorem ofRow_reshape128 (b : FVec Ideal S128 .f32) :
    ofRow (fun i => shapeCast S1x128 b shapeCasts_S128_S1x128 i) = ofArr1 b := by
  funext c
  show shapeCast S1x128 b shapeCasts_S128_S1x128 (ix2 (0 : Fin 1) c) = b (ix1 c)
  refine (shapeCast_addUnit_apply ![128] b shapeCasts_S128_S1x128 (ix2 (0 : Fin 1) c)).trans ?_
  exact congrArg b (funext fun a => by match a with | ⟨0, _⟩ => rfl)

/-- A `[2]` vector reshaped to `[1, 2]` holds the same row. -/
theorem ofRow_reshape2 (b : FVec Ideal S2 .f32) :
    ofRow (fun i => shapeCast S1x2 b shapeCasts_S2_S1x2 i) = ofArr1 b := by
  funext c
  show shapeCast S1x2 b shapeCasts_S2_S1x2 (ix2 (0 : Fin 1) c) = b (ix1 c)
  refine (shapeCast_addUnit_apply ![2] b shapeCasts_S2_S1x2 (ix2 (0 : Fin 1) c)).trans ?_
  exact congrArg b (funext fun a => by match a with | ⟨0, _⟩ => rfl)

/-- The host's quotient of a `[1, 128]` row by a splat constant, entry by entry. -/
theorem ofRow_divf_const (a : FVec Ideal S1x128 .f32) (w : BitVec 32) :
    ofRow (Host.divf (F := Ideal) a (broadcastInDim S1x128 ![] bcast_S_S1x128 (constant (F := Ideal) S_ .f32 w)))
      = fun c => Ideal.div (ofRow a c) (Ideal.ofBits .f32 w) := by
  funext c; rfl

/-- The difference and the product of two `[1, 128]` rows, entry by entry. -/
theorem ofRow_subf (a b : FVec Ideal S1x128 .f32) : ofRow (subf a b) = fun c => ofRow a c - ofRow b c := by
  funext c; rfl
theorem ofRow_mulf (a b : FVec Ideal S1x128 .f32) : ofRow (mulf a b) = fun c => ofRow a c * ofRow b c := by
  funext c; rfl

end Cert.KernelIdeal.Glue

end
-- ==== Proof.Glue2.lean ====
/-
  The host glue between the combining kernel and the normalising kernel, in the specification's words: from the
  column sums `s` and the column sums of squares `q` of a matrix `H` the host forms `s / cN` and `q / cN − (s / cN)²`;
  read as rows these are the mean and the variance (mean of squares less the square of the mean) of `H`'s columns,
  and the scale and the shift reshaped to `[1, 128]` are the rows they were.
-/
import proofs.«180842_j41832981463453_1_alg».proof.Proof.Glue

noncomputable section

namespace Cert.KernelIdeal.Glue

open Idealize.ShloMosaic Idealize.ShloMosaic.ValueIdx Cert.KernelIdeal Cert.KernelIdeal.Facts₀ Cert.Sage

/-- The divisor's word (1.0e5), the stabiliser's (f32 of 1e-5) and the zero word. -/
abbrev wN : BitVec 32 := 0x47C35000#32
abbrev cN : EReal := Ideal.ofBits .f32 0x47C35000#32
abbrev eps : EReal := Ideal.ofBits .f32 0x3727C5AC#32
abbrev zero : EReal := Ideal.ofBits .f32 0x00000000#32

/-- The splat of the divisor over a `[1, 128]` row, as the host stretch spells it. -/
abbrev splatN : FVec Ideal S1x128 .f32 := broadcastInDim S1x128 ![] bcast_S_S1x128 (constant (F := Ideal) S_ .f32 0x47C35000#32)

/-- The mean row the host computes from the column sums. -/
theorem mean_of_sums {R : ℕ} (H : Mat R 128) (s : FVec Ideal S1x128 .f32) (hs : s = toRow (colsum H)) :
    ofRow (Host.divf (F := Ideal) s splatN) = mean cN H := by
  subst hs; funext c; rfl

/-- The variance row the host computes from the two rows of sums. -/
theorem var_of_sums {R : ℕ} (H : Mat R 128) (s q : FVec Ideal S1x128 .f32) (hs : s = toRow (colsum H)) (hq : q = toRow (colsumsq H)) :
    ofRow (subf (Host.divf (F := Ideal) q splatN) (mulf (Host.divf (F := Ideal) s splatN) (Host.divf (F := Ideal) s splatN))) = varK cN H := by
  subst hs; subst hq; funext c; rfl

end Cert.KernelIdeal.Glue

end
-- ==== Proof.RefStages.lean ====
/-
  The reference's host operations composed into a few pure functions of whole arrays, at any float instance.

  `srcIdx` / `dstIdx`: the edge list's two rows as the index columns the gather and the scatter-add take (a negative
  source index is wrapped once by the node count, as the reference's text does). `agg`: the features of every edge's
  source row gathered and added into the edge's destination row, from zero. `lin`: `(a·Wl + bl) + x·Wr`. `colMean`: the
  column sums divided by the node count. `colVar`: the reference's variance, the mean of the squared deviations, divided
  by the node count less the zero degrees of freedom and guarded by the comparison jnp.var makes. `bnrelu`: normalise,
  scale, shift and clamp at zero. `dense` / `denseRelu`: the perceptron's layers. `out`: the whole network.
  Every function is spelt with the operations, records and side conditions of the reference's printed text, in the
  order of its lines, so that the run's term is these functions applied to the argument arrays by unfolding alone.
-/
import proofs.«180842_j41832981463453_1_alg».proof.ReferenceIdeal
import proofs.«180842_j41832981463453_1_alg».proof.Proof.Gen.ReferenceIdeal

noncomputable section

namespace Cert.ReferenceIdeal.Stage

open Idealize.ShloMosaic Cert.ReferenceIdeal Cert.ReferenceIdeal.Facts₀

variable {F : FTy → Type} [FloatOps F]

/-- Row `r` of the edge list as a vector of 600000 words. -/
def edgeRow0 (e : IVec S2x600000 32) : IVec S600000 32 :=
  fun i => shapeCast S600000 (extractStridedSlice S1x600000 ![0, 0] e slices_S2x600000_S1x600000_0_0) shapeCasts_S1x600000_S600000 i
def edgeRow1 (e : IVec S2x600000 32) : IVec S600000 32 :=
  fun i => shapeCast S600000 (extractStridedSlice S1x600000 ![1, 0] e slices_S2x600000_S1x600000_1_0) shapeCasts_S1x600000_S600000 i

/-- The gather's index column: the source row, a negative word wrapped by the node count. -/
def srcIdx (e : IVec S2x600000 32) : IVec S600000x1 32 :=
  broadcastInDim S600000x1 ![0] bcast_S600000_S600000x1_0
    (select (cmpi .slt (edgeRow0 e) (broadcastInDim S600000 ![] bcast_S_S600000 (constantI S_ 32 0#32)))
      (addi (edgeRow0 e) (broadcastInDim S600000 ![] bcast_S_S600000 (constantI S_ 32 100000#32)))
      (edgeRow0 e))

/-- The scatter-add's index column: the destination row. -/
def dstIdx (e : IVec S2x600000 32) : IVec S600000x1 32 :=
  broadcastInDim S600000x1 ![0] bcast_S600000_S600000x1_0 (edgeRow1 e)

/-- The aggregation: gather the source rows, add each into its destination row, from zero. -/
def agg (si di : IVec S600000x1 32) (y : FVec F S100000x128 .f32) : FVec F S100000x128 .f32 :=
  Host.scatterAdd scatter_S100000x128_S600000x1_S600000x128_1_0_0_1
    (broadcastInDim S100000x128 ![] bcast_S_S100000x128 (constant S_ .f32 0x00000000#32)) di
    (Host.gather gather_S100000x128_S600000x1_S600000x128_1_0_n_n_0_1_1128 y si)

/-- A `[128]` row broadcast to every node. -/
def rowB (b : FVec F S128 .f32) : FVec F S100000x128 .f32 :=
  broadcastInDim S100000x128 ![0, 1] bcast_S1x128_S100000x128_0_1 (broadcastInDim S1x128 ![1] bcast_S128_S1x128_1 b)

/-- The SAGE combination. -/
def lin (a x : FVec F S100000x128 .f32) (Wl : FVec F S128x128 .f32) (bl : FVec F S128 .f32) (Wr : FVec F S128x128 .f32) :
    FVec F S100000x128 .f32 :=
  addf (addf (Host.dotGeneral dot_S100000x128_S128x128_S100000x128_1_0_0_1_n_n none a Wl) (rowB bl))
    (Host.dotGeneral dot_S100000x128_S128x128_S100000x128_1_0_0_1_n_n none x Wr)

/-- The column sums. -/
def colSum (h : FVec F S100000x128 .f32) : FVec F S128 .f32 :=
  Host.reduceAdd h (constant S_ .f32 0x00000000#32) reducesTo_S100000x128_S128_d0 h_S_

/-- The column means. -/
def colMean (h : FVec F S100000x128 .f32) : FVec F S128 .f32 :=
  Host.divf (colSum h) (broadcastInDim S128 ![] bcast_S_S128 (constant S_ .f32 0x47C35000#32))

/-- The node count less the degrees of freedom (the word `d`), as the reference computes it. -/
def dofCount (d : IVec S_ 32) : FVec F S_ .f32 := subf (constant S_ .f32 0x47C35000#32) (sitofp .f32 d)

/-- The reference's column variances: the mean inside is computed on a `[1, 128]` row. -/
def colVar (h : FVec F S100000x128 .f32) (d : IVec S_ 32) : FVec F S128 .f32 :=
  select (broadcastInDim S128 ![] bcast_S_S128 (cmpf .ogt (dofCount (F := F) d) (constant S_ .f32 0x00000000#32)))
    (Host.divf
      (colSum (mulf
        (subf h (broadcastInDim S100000x128 ![0, 1] bcast_S1x128_S100000x128_0_1
          (Host.divf (broadcastInDim S1x128 ![1] bcast_S128_S1x128_1 (colSum h))
            (broadcastInDim S1x128 ![] bcast_S_S1x128 (constant S_ .f32 0x47C35000#32)))))
        (subf h (broadcastInDim S100000x128 ![0, 1] bcast_S1x128_S100000x128_0_1
          (Host.divf (broadcastInDim S1x128 ![1] bcast_S128_S1x128_1 (colSum h))
            (broadcastInDim S1x128 ![] bcast_S_S1x128 (constant S_ .f32 0x47C35000#32)))))))
      (broadcastInDim S128 ![] bcast_S_S128 (dofCount (F := F) d)))
    (broadcastInDim S128 ![] bcast_S_S128 (id (constant S_ .f32 0x7FC00000#32)))

/-- Normalise by the column statistics, scale, shift, clamp at zero. -/
def bnrelu (h : FVec F S100000x128 .f32) (mu v g b : FVec F S128 .f32) : FVec F S100000x128 .f32 :=
  maximumf
    (addf (mulf (mulf (subf h (rowB mu))
      (rowB (Host.rsqrt (addf v (broadcastInDim S128 ![] bcast_S_S128 (constant S_ .f32 0x3727C5AC#32))))))
      (rowB g)) (rowB b))
    (broadcastInDim S100000x128 ![] bcast_S_S100000x128 (constant S_ .f32 0x00000000#32))

/-- One layer. -/
def layer (si di : IVec S600000x1 32) (d : IVec S_ 32) (x : FVec F S100000x128 .f32) (Wl : FVec F S128x128 .f32) (bl : FVec F S128 .f32)
    (Wr : FVec F S128x128 .f32) (g b : FVec F S128 .f32) : FVec F S100000x128 .f32 :=
  bnrelu (lin (agg si di x) x Wl bl Wr) (colMean (lin (agg si di x) x Wl bl Wr)) (colVar (lin (agg si di x) x Wl bl Wr) d) g b

/-- A dense layer clamped at zero. -/
def denseRelu (x : FVec F S100000x128 .f32) (W : FVec F S128x128 .f32) (b : FVec F S128 .f32) : FVec F S100000x128 .f32 :=
  maximumf (addf (Host.dotGeneral dot_S100000x128_S128x128_S100000x128_1_0_0_1_n_n none x W) (rowB b))
    (broadcastInDim S100000x128 ![] bcast_S_S100000x128 (constant S_ .f32 0x00000000#32))

/-- The last dense layer, onto the two classes. -/
def denseOut (x : FVec F S100000x128 .f32) (W : FVec F S128x2 .f32) (b : FVec F S2 .f32) : FVec F S100000x2 .f32 :=
  addf (Host.dotGeneral dot_S100000x128_S128x2_S100000x2_1_0_0_1_n_n none x W)
    (broadcastInDim S100000x2 ![0, 1] bcast_S1x2_S100000x2_0_1 (broadcastInDim S1x2 ![1] bcast_S2_S1x2_1 b))

/-- The whole network as the reference computes it from its eighteen argument arrays. -/
def out (x : FVec F S100000x128 .f32) (e : IVec S2x600000 32) (Wl0 : FVec F S128x128 .f32) (bl0 : FVec F S128 .f32)
    (Wr0 : FVec F S128x128 .f32) (Wl1 : FVec F S128x128 .f32) (bl1 : FVec F S128 .f32) (Wr1 : FVec F S128x128 .f32)
    (g0 be0 g1 be1 : FVec F S128 .f32) (W1 : FVec F S128x128 .f32) (b1 : FVec F S128 .f32) (W2 : FVec F S128x128 .f32)
    (b2 : FVec F S128 .f32) (W3 : FVec F S128x2 .f32) (b3 : FVec F S2 .f32) : FVec F S100000x2 .f32 :=
  denseOut
    (denseRelu
      (denseRelu
        (layer (srcIdx e) (dstIdx e) (constantI S_ 32 0#32)
          (layer (srcIdx e) (dstIdx e) (constantI S_ 32 0#32) x Wl0 bl0 Wr0 g0 be0) Wl1 bl1 Wr1 g1 be1)
        W1 b1) W2 b2) W3 b3

end Cert.ReferenceIdeal.Stage

end
-- ==== Proof.KernelSpec.lean ====
/-
  The idealized kernel program's result as ONE function of its launch memory, in the specification's words: the
  aggregation over the launch edge list as a function of a matrix of node features; the first layer's combination
  `H0` and value `X1`; the second layer's `H1` and `X2`; the perceptron head of `X2`. By unfolding, this is the
  specification's network with the variance "mean of squares less the square of the mean".
-/
import proofs.«180842_j41832981463453_1_alg».proof.KernelIdeal
import proofs.«180842_j41832981463453_1_alg».proof.Proof.Gen.KernelIdeal
import proofs.«180842_j41832981463453_1_alg».proof.Proof.Spec
import proofs.«180842_j41832981463453_1_alg».proof.Proof.Glue2
import proofs.«180842_j41832981463453_1_alg».proof.Proof.RefStages

noncomputable section

namespace Cert.KernelIdeal.KValue

open Idealize.ShloMosaic Idealize.ShloMosaic.TcCoe Idealize.SL.Sem
open Cert.KernelIdeal Cert.KernelIdeal.Glue Cert.Sage

variable (m : (ℓ : Loc nD τ sig) → Buf (Elt Ideal) ℓ) (c : Dev nD)

/-- The launch contents of argument `b` on core `c`. -/
abbrev arg (b : Ref sig .tc) : Buf (Elt Ideal) ((c.tc : Thread nD τ).loc b) := m ((c.tc : Thread nD τ).loc b)

/-- The aggregation over the launch edge list, as a function of a matrix of node features. -/
def aggK : Mat 100000 128 → Mat 100000 128 := fun Y =>
  ofArr2 (Cert.ReferenceIdeal.Stage.agg (F := Ideal) (Cert.ReferenceIdeal.Stage.srcIdx (arg m c main_arg1))
    (Cert.ReferenceIdeal.Stage.dstIdx (arg m c main_arg1)) (toArr2 Y))

/-- The first layer's combination and value, the second layer's combination and value. -/
def H0 : Mat 100000 128 := lin (aggK m c (ofArr2 (arg m c main_arg0))) (ofArr2 (arg m c main_arg0)) (ofArr2 (arg m c main_arg2)) (ofArr1 (arg m c main_arg3)) (ofArr2 (arg m c main_arg4))
def X1 : Mat 100000 128 := bnrelu eps zero (H0 m c) (mean cN (H0 m c)) (varK cN (H0 m c)) (ofArr1 (arg m c main_arg8)) (ofArr1 (arg m c main_arg9))
def H1 : Mat 100000 128 := lin (aggK m c (X1 m c)) (X1 m c) (ofArr2 (arg m c main_arg5)) (ofArr1 (arg m c main_arg6)) (ofArr2 (arg m c main_arg7))
def X2 : Mat 100000 128 := bnrelu eps zero (H1 m c) (mean cN (H1 m c)) (varK cN (H1 m c)) (ofArr1 (arg m c main_arg10)) (ofArr1 (arg m c main_arg11))

/-- The result as a function of the launch memory. -/
def G : FVec Ideal S100000x2 .f32 :=
  toArr2 (mlp zero (X2 m c) (ofArr2 (arg m c main_arg12)) (ofArr1 (arg m c main_arg13)) (ofArr2 (arg m c main_arg14)) (ofArr1 (arg m c main_arg15))
    (ofArr2 (arg m c main_arg16)) (ofArr1 (arg m c main_arg17)))

/-- `G` is the specification's network with the kernel's variance. -/
theorem G_eq_net : G m c = toArr2 (net varK cN eps zero (aggK m c) (ofArr2 (arg m c main_arg0))
    (ofArr2 (arg m c main_arg2)) (ofArr1 (arg m c main_arg3)) (ofArr2 (arg m c main_arg4))
    (ofArr2 (arg m c main_arg5)) (ofArr1 (arg m c main_arg6)) (ofArr2 (arg m c main_arg7))
    (ofArr1 (arg m c main_arg8)) (ofArr1 (arg m c main_arg9)) (ofArr1 (arg m c main_arg10)) (ofArr1 (arg m c main_arg11))
    (ofArr2 (arg m c main_arg12)) (ofArr1 (arg m c main_arg13)) (ofArr2 (arg m c main_arg14)) (ofArr1 (arg m c main_arg15))
    (ofArr2 (arg m c main_arg16)) (ofArr1 (arg m c main_arg17))) := rfl

end Cert.KernelIdeal.KValue

end
-- ==== Proof.KernelFoldKeep.lean ====
import proofs.«180842_j41832981463453_1_alg».proof.Proof.KernelIdealFrameP

set_option maxRecDepth 16384

noncomputable section

namespace Cert.KernelIdeal.KFold
open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # Which buffers each segment of @main leaves alone

@main is five stretches of host operations with a region after each. A stretch changes only the result buffers of
its operations; a region changes only the arrays of its output windows. So the contents of any other buffer pass
through the segment unchanged, and the fold of the contents from the launch memory can be read back one segment at
a time. -/

/-- A result buffer among a list of references lies in the list's image as device buffers. -/
theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The result buffers of the operations of stretch 0. -/
abbrev writes0 : List (Ref sig .tc) := [main_v0, main_v1, main_v2, main_v3, main_c, main_v4, main_v5, main_c_0, main_v6, main_v7, main_v8, main_v9, main_v10, main_cst, main_v11, main_v12, main_v13, main_v14]
/-- A buffer that is no operation's result keeps its contents through stretch 0. -/
theorem keep0 (W : Valuation τ sig (Elt F)) {r : Ref sig .tc} (hr : r ∉ writes0) :
    StableHlo.after hostOps0 W (Proc.devRef .tc r) = W (Proc.devRef .tc r) :=
  StableHlo.after_of_writes_sub (W := writes0) hostOps0 W (by
    simp only [hostOps0, List.Forall, StableHlo.nullary_writes, StableHlo.unary_writes, StableHlo.binary_writes, StableHlo.ternary_writes, StableHlo.reshape_writes]
    repeat' apply And.intro
    all_goals exact single_sub (by decide)) hr

/-- The result buffers of the operations of stretch 1. -/
abbrev writes1 : List (Ref sig .tc) := [main_cst_1, main_v16, main_v17, main_cst_2, main_v18, main_v19, main_v20, main_v21, main_v22, main_v23]
/-- A buffer that is no operation's result keeps its contents through stretch 1. -/
theorem keep1 (W : Valuation τ sig (Elt F)) {r : Ref sig .tc} (hr : r ∉ writes1) :
    StableHlo.after hostOps1 W (Proc.devRef .tc r) = W (Proc.devRef .tc r) :=
  StableHlo.after_of_writes_sub (W := writes1) hostOps1 W (by
    simp only [hostOps1, List.Forall, StableHlo.nullary_writes, StableHlo.unary_writes, StableHlo.binary_writes, StableHlo.ternary_writes, StableHlo.reshape_writes]
    repeat' apply And.intro
    all_goals exact single_sub (by decide)) hr

/-- The result buffers of the operations of stretch 2. -/
abbrev writes2 : List (Ref sig .tc) := [main_c_3, main_v25, main_v26, main_c_4, main_v27, main_v28, main_v29, main_v30, main_v31, main_cst_5, main_v32, main_v33, main_v34, main_v35]
/-- A buffer that is no operation's result keeps its contents through stretch 2. -/
theorem keep2 (W : Valuation τ sig (Elt F)) {r : Ref sig .tc} (hr : r ∉ writes2) :
    StableHlo.after hostOps2 W (Proc.devRef .tc r) = W (Proc.devRef .tc r) :=
  StableHlo.after_of_writes_sub (W := writes2) hostOps2 W (by
    simp only [hostOps2, List.Forall, StableHlo.nullary_writes, StableHlo.unary_writes, StableHlo.binary_writes, StableHlo.ternary_writes, StableHlo.reshape_writes]
    repeat' apply And.intro
    all_goals exact single_sub (by decide)) hr

/-- The result buffers of the operations of stretch 3. -/
abbrev writes3 : List (Ref sig .tc) := [main_cst_6, main_v37, main_v38, main_cst_7, main_v39, main_v40, main_v41, main_v42, main_v43, main_v44]
/-- A buffer that is no operation's result keeps its contents through stretch 3. -/
theorem keep3 (W : Valuation τ sig (Elt F)) {r : Ref sig .tc} (hr : r ∉ writes3) :
    StableHlo.after hostOps3 W (Proc.devRef .tc r) = W (Proc.devRef .tc r) :=
  StableHlo.after_of_writes_sub (W := writes3) hostOps3 W (by
    simp only [hostOps3, List.Forall, StableHlo.nullary_writes, StableHlo.unary_writes, StableHlo.binary_writes, StableHlo.ternary_writes, StableHlo.reshape_writes]
    repeat' apply And.intro
    all_goals exact single_sub (by decide)) hr

/-- The result buffers of the operations of stretch 4. -/
abbrev writes4 : List (Ref sig .tc) := [main_v46, main_v47, main_v48]
/-- A buffer that is no operation's result keeps its contents through stretch 4. -/
theorem keep4 (W : Valuation τ sig (Elt F)) {r : Ref sig .tc} (hr : r ∉ writes4) :
    StableHlo.after hostOps4 W (Proc.devRef .tc r) = W (Proc.devRef .tc r) :=
  StableHlo.after_of_writes_sub (W := writes4) hostOps4 W (by
    simp only [hostOps4, List.Forall, StableHlo.nullary_writes, StableHlo.unary_writes, StableHlo.binary_writes, StableHlo.ternary_writes, StableHlo.reshape_writes]
    repeat' apply And.intro
    all_goals exact single_sub (by decide)) hr

/-- The arrays of region 0's output windows. -/
abbrev outs0 : List (Ref sig .tc) := [main_v15_0, main_v15_1, main_v15_2]
/-- A window of region 0 whose array is none of those is an input window. -/
theorem isIn0 : ∀ w : Fin cfg0.W, Pipeline.arrRef spec0 w ∉ outs0 → (cfg0.win w).isOut = false := by decide
/-- A buffer that is no output window's array keeps its contents through region 0: an input window's array is never
    written back, and a buffer that is no window's array is not touched. -/
theorem reg0_keep (c : Dev nD) {b : Ref sig .tc} (hb : b ∉ outs0) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (isIn0 w hb) _).trans (A_eq0 (V1 m ρ) c w))
  · exact W2_of_ne m ρ c b fun w e => h ⟨w, e⟩

/-- The arrays of region 1's output windows. -/
abbrev outs1 : List (Ref sig .tc) := [main_v24]
/-- A window of region 1 whose array is none of those is an input window. -/
theorem isIn1 : ∀ w : Fin cfg1.W, Pipeline.arrRef spec1 w ∉ outs1 → (cfg1.win w).isOut = false := by decide
/-- A buffer that is no output window's array keeps its contents through region 1: an input window's array is never
    written back, and a buffer that is no window's array is not touched. -/
theorem reg1_keep (c : Dev nD) {b : Ref sig .tc} (hb : b ∉ outs1) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (isIn1 w hb) _).trans (A_eq1 (V3 m ρ) c w))
  · exact W4_of_ne m ρ c b fun w e => h ⟨w, e⟩

/-- The arrays of region 2's output windows. -/
abbrev outs2 : List (Ref sig .tc) := [main_v36_0, main_v36_1, main_v36_2]
/-- A window of region 2 whose array is none of those is an input window. -/
theorem isIn2 : ∀ w : Fin cfg2.W, Pipeline.arrRef spec2 w ∉ outs2 → (cfg2.win w).isOut = false := by decide
/-- A buffer that is no output window's array keeps its contents through region 2: an input window's array is never
    written back, and a buffer that is no window's array is not touched. -/
theorem reg2_keep (c : Dev nD) {b : Ref sig .tc} (hb : b ∉ outs2) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (isIn2 w hb) _).trans (A_eq2 (V5 m ρ) c w))
  · exact W6_of_ne m ρ c b fun w e => h ⟨w, e⟩

/-- The arrays of region 3's output windows. -/
abbrev outs3 : List (Ref sig .tc) := [main_v45]
/-- A window of region 3 whose array is none of those is an input window. -/
theorem isIn3 : ∀ w : Fin cfg3.W, Pipeline.arrRef spec3 w ∉ outs3 → (cfg3.win w).isOut = false := by decide
/-- A buffer that is no output window's array keeps its contents through region 3: an input window's array is never
    written back, and a buffer that is no window's array is not touched. -/
theorem reg3_keep (c : Dev nD) {b : Ref sig .tc} (hb : b ∉ outs3) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (isIn3 w hb) _).trans (A_eq3 (V7 m ρ) c w))
  · exact W8_of_ne m ρ c b fun w e => h ⟨w, e⟩

/-- The arrays of region 4's output windows. -/
abbrev outs4 : List (Ref sig .tc) := [main_v49]
/-- A window of region 4 whose array is none of those is an input window. -/
theorem isIn4 : ∀ w : Fin cfg4.W, Pipeline.arrRef spec4 w ∉ outs4 → (cfg4.win w).isOut = false := by decide
/-- A buffer that is no output window's array keeps its contents through region 4: an input window's array is never
    written back, and a buffer that is no window's array is not touched. -/
theorem reg4_keep (c : Dev nD) {b : Ref sig .tc} (hb : b ∉ outs4) :
    W10 m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (isIn4 w hb) _).trans (A_eq4 (V9 m ρ) c w))
  · exact W10_of_ne m ρ c b fun w e => h ⟨w, e⟩

/-! ## A buffer nothing writes holds its launch contents at every boundary -/

/-- No operation's result and no output window's array, up to region 4's entry: such a buffer (an argument of @main)
    is never written before the last region. -/
abbrev Untouched (r : Ref sig .tc) : Prop :=
  r ∉ writes0 ∧ r ∉ outs0 ∧ r ∉ writes1 ∧ r ∉ outs1 ∧ r ∉ writes2 ∧ r ∉ outs2 ∧ r ∉ writes3 ∧ r ∉ outs3 ∧ r ∉ writes4

variable (c : Dev nD) {r : Ref sig .tc}

theorem W1_of (hr : Untouched r) : W1 m ρ c (Proc.devRef .tc r) = m ((c.tc : Thread nD τ).loc r) :=
  keep0 (W0 m ρ c) hr.1
theorem W2_of (hr : Untouched r) : W2 m ρ c (Proc.devRef .tc r) = m ((c.tc : Thread nD τ).loc r) :=
  (reg0_keep m ρ c hr.2.1).trans (W1_of m ρ c hr)
theorem W3_of (hr : Untouched r) : W3 m ρ c (Proc.devRef .tc r) = m ((c.tc : Thread nD τ).loc r) :=
  (keep1 (W2 m ρ c) hr.2.2.1).trans (W2_of m ρ c hr)
theorem W4_of (hr : Untouched r) : W4 m ρ c (Proc.devRef .tc r) = m ((c.tc : Thread nD τ).loc r) :=
  (reg1_keep m ρ c hr.2.2.2.1).trans (W3_of m ρ c hr)
theorem W5_of (hr : Untouched r) : W5 m ρ c (Proc.devRef .tc r) = m ((c.tc : Thread nD τ).loc r) :=
  (keep2 (W4 m ρ c) hr.2.2.2.2.1).trans (W4_of m ρ c hr)
theorem W6_of (hr : Untouched r) : W6 m ρ c (Proc.devRef .tc r) = m ((c.tc : Thread nD τ).loc r) :=
  (reg2_keep m ρ c hr.2.2.2.2.2.1).trans (W5_of m ρ c hr)
theorem W7_of (hr : Untouched r) : W7 m ρ c (Proc.devRef .tc r) = m ((c.tc : Thread nD τ).loc r) :=
  (keep3 (W6 m ρ c) hr.2.2.2.2.2.2.1).trans (W6_of m ρ c hr)
theorem W8_of (hr : Untouched r) : W8 m ρ c (Proc.devRef .tc r) = m ((c.tc : Thread nD τ).loc r) :=
  (reg3_keep m ρ c hr.2.2.2.2.2.2.2.1).trans (W7_of m ρ c hr)
theorem W9_of (hr : Untouched r) : W9 m ρ c (Proc.devRef .tc r) = m ((c.tc : Thread nD τ).loc r) :=
  (keep4 (W8 m ρ c) hr.2.2.2.2.2.2.2.2).trans (W8_of m ρ c hr)

end Cert.KernelIdeal.KFold

end
-- ==== Proof.KernelFold.lean ====
import proofs.«180842_j41832981463453_1_alg».proof.Proof.KernelIdealFrameP
import proofs.«180842_j41832981463453_1_alg».proof.Proof.KernelFoldKeep
set_option maxRecDepth 16384

noncomputable section

namespace Cert.KernelIdeal.KFold
open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The fold of buffer contents, read back

For each of the five regions: what every input array of the region holds when the region is entered, in terms of
the launch memory at @main's arguments, the arrays the earlier regions' output windows leave, and the host
operations between them. Everything is stated at any float model. -/

/-! ## What the host operations between the regions compute, from any contents `W` -/

section Host
variable (W : Valuation τ sig (Elt F))

/-- Stretch 0 leaves in `main_v14` the reshape of `main_arg3`. -/
theorem hostOps0_v14 :
    StableHlo.after hostOps0 W (Proc.devRef .tc main_v14) = fun i => shapeCast S1x128 (W (Proc.devRef .tc main_arg3)) shapeCasts_S128_S1x128 i := by
  after_results_simp
  rfl

/-- Stretch 1 leaves in `main_v22` the reshape of `main_arg8`. -/
theorem hostOps1_v22 :
    StableHlo.after hostOps1 W (Proc.devRef .tc main_v22) = fun i => shapeCast S1x128 (W (Proc.devRef .tc main_arg8)) shapeCasts_S128_S1x128 i := by
  after_results_simp
  rfl

/-- Stretch 1 leaves in `main_v23` the reshape of `main_arg9`. -/
theorem hostOps1_v23 :
    StableHlo.after hostOps1 W (Proc.devRef .tc main_v23) = fun i => shapeCast S1x128 (W (Proc.devRef .tc main_arg9)) shapeCasts_S128_S1x128 i := by
  after_results_simp
  rfl

/-- Stretch 2 leaves in `main_v35` the reshape of `main_arg6`. -/
theorem hostOps2_v35 :
    StableHlo.after hostOps2 W (Proc.devRef .tc main_v35) = fun i => shapeCast S1x128 (W (Proc.devRef .tc main_arg6)) shapeCasts_S128_S1x128 i := by
  after_results_simp
  rfl

/-- Stretch 3 leaves in `main_v43` the reshape of `main_arg10`. -/
theorem hostOps3_v43 :
    StableHlo.after hostOps3 W (Proc.devRef .tc main_v43) = fun i => shapeCast S1x128 (W (Proc.devRef .tc main_arg10)) shapeCasts_S128_S1x128 i := by
  after_results_simp
  rfl

/-- Stretch 3 leaves in `main_v44` the reshape of `main_arg11`. -/
theorem hostOps3_v44 :
    StableHlo.after hostOps3 W (Proc.devRef .tc main_v44) = fun i => shapeCast S1x128 (W (Proc.devRef .tc main_arg11)) shapeCasts_S128_S1x128 i := by
  after_results_simp
  rfl

/-- Stretch 4 leaves in `main_v46` the reshape of `main_arg13`. -/
theorem hostOps4_v46 :
    StableHlo.after hostOps4 W (Proc.devRef .tc main_v46) = fun i => shapeCast S1x128 (W (Proc.devRef .tc main_arg13)) shapeCasts_S128_S1x128 i := by
  after_results_simp
  rfl

/-- Stretch 4 leaves in `main_v47` the reshape of `main_arg15`. -/
theorem hostOps4_v47 :
    StableHlo.after hostOps4 W (Proc.devRef .tc main_v47) = fun i => shapeCast S1x128 (W (Proc.devRef .tc main_arg15)) shapeCasts_S128_S1x128 i := by
  after_results_simp
  rfl

/-- Stretch 4 leaves in `main_v48` the reshape of `main_arg17`. -/
theorem hostOps4_v48 :
    StableHlo.after hostOps4 W (Proc.devRef .tc main_v48) = fun i => shapeCast S1x2 (W (Proc.devRef .tc main_arg17)) shapeCasts_S2_S1x2 i := by
  after_results_simp
  rfl

/-- Stretch 1 leaves in `main_v17` the column sums divided by the row count. -/
theorem hostOps1_v17 :
    StableHlo.after hostOps1 W (Proc.devRef .tc main_v17)
      = Host.divf (W (Proc.devRef .tc main_v15_1) : (⟨S1x128, .f32⟩ : BufTy).Contents (Elt F)) (broadcastInDim S1x128 ![] bcast_S_S1x128 (constant S_ .f32 0x47C35000#32)) := by
  after_results_simp

/-- Stretch 1 leaves in `main_v21` the column sums of squares divided by the row count, less the square of the above. -/
theorem hostOps1_v21 :
    StableHlo.after hostOps1 W (Proc.devRef .tc main_v21)
      = subf (Host.divf (W (Proc.devRef .tc main_v15_2) : (⟨S1x128, .f32⟩ : BufTy).Contents (Elt F)) (broadcastInDim S1x128 ![] bcast_S_S1x128 (constant S_ .f32 0x47C35000#32)))
          (mulf (Host.divf (W (Proc.devRef .tc main_v15_1) : (⟨S1x128, .f32⟩ : BufTy).Contents (Elt F)) (broadcastInDim S1x128 ![] bcast_S_S1x128 (constant S_ .f32 0x47C35000#32)))
                (Host.divf (W (Proc.devRef .tc main_v15_1) : (⟨S1x128, .f32⟩ : BufTy).Contents (Elt F)) (broadcastInDim S1x128 ![] bcast_S_S1x128 (constant S_ .f32 0x47C35000#32)))) := by
  after_results_simp

/-- Stretch 3 leaves in `main_v38` the column sums divided by the row count. -/
theorem hostOps3_v38 :
    StableHlo.after hostOps3 W (Proc.devRef .tc main_v38)
      = Host.divf (W (Proc.devRef .tc main_v36_1) : (⟨S1x128, .f32⟩ : BufTy).Contents (Elt F)) (broadcastInDim S1x128 ![] bcast_S_S1x128 (constant S_ .f32 0x47C35000#32)) := by
  after_results_simp

/-- Stretch 3 leaves in `main_v42` the column sums of squares divided by the row count, less the square of the above. -/
theorem hostOps3_v42 :
    StableHlo.after hostOps3 W (Proc.devRef .tc main_v42)
      = subf (Host.divf (W (Proc.devRef .tc main_v36_2) : (⟨S1x128, .f32⟩ : BufTy).Contents (Elt F)) (broadcastInDim S1x128 ![] bcast_S_S1x128 (constant S_ .f32 0x47C35000#32)))
          (mulf (Host.divf (W (Proc.devRef .tc main_v36_1) : (⟨S1x128, .f32⟩ : BufTy).Contents (Elt F)) (broadcastInDim S1x128 ![] bcast_S_S1x128 (constant S_ .f32 0x47C35000#32)))
                (Host.divf (W (Proc.devRef .tc main_v36_1) : (⟨S1x128, .f32⟩ : BufTy).Contents (Elt F)) (broadcastInDim S1x128 ![] bcast_S_S1x128 (constant S_ .f32 0x47C35000#32)))) := by
  after_results_simp

end Host

variable (c : Dev nD)

/-! ## Region 4 (the three dense layers): the result, and the inputs at entry -/

/-- The result array at the end of the run is what region 4's output window leaves. -/
theorem out_v49 : W10 m ρ c (Proc.devRef .tc main_v49) = (dat4 (V9 m ρ) c).arrAt 7 cfg4.N := W10_arr m ρ c 7

/-- The rows entering the dense layers are region 3's output. -/
theorem in4_0 : V9 m ρ c main_v45 = (dat3 (V7 m ρ) c).arrAt 5 cfg3.N :=
  (keep4 (W8 m ρ c) (r := main_v45) (by decide)).trans (W8_arr m ρ c 5)
theorem in4_1 : V9 m ρ c main_arg12 = m ((c.tc : Thread nD τ).loc main_arg12) := W9_of m ρ c (by decide)
theorem in4_2 : V9 m ρ c main_v46 = fun i => shapeCast S1x128 (m ((c.tc : Thread nD τ).loc main_arg13)) shapeCasts_S128_S1x128 i :=
  (hostOps4_v46 (W8 m ρ c)).trans (by rw [W8_of m ρ c (r := main_arg13) (by decide)])
theorem in4_3 : V9 m ρ c main_arg14 = m ((c.tc : Thread nD τ).loc main_arg14) := W9_of m ρ c (by decide)
theorem in4_4 : V9 m ρ c main_v47 = fun i => shapeCast S1x128 (m ((c.tc : Thread nD τ).loc main_arg15)) shapeCasts_S128_S1x128 i :=
  (hostOps4_v47 (W8 m ρ c)).trans (by rw [W8_of m ρ c (r := main_arg15) (by decide)])
theorem in4_5 : V9 m ρ c main_arg16 = m ((c.tc : Thread nD τ).loc main_arg16) := W9_of m ρ c (by decide)
theorem in4_6 : V9 m ρ c main_v48 = fun i => shapeCast S1x2 (m ((c.tc : Thread nD τ).loc main_arg17)) shapeCasts_S2_S1x2 i :=
  (hostOps4_v48 (W8 m ρ c)).trans (by rw [W8_of m ρ c (r := main_arg17) (by decide)])

/-! ## Region 3 (the second normalisation): the inputs at entry -/

/-- The rows to normalise are region 2's first output. -/
theorem in3_0 : V7 m ρ c main_v36_0 = (dat2 (V5 m ρ) c).arrAt 5 cfg2.N :=
  (keep3 (W6 m ρ c) (r := main_v36_0) (by decide)).trans (W6_arr m ρ c 5)
/-- The column means: region 2's column sums over the row count. -/
theorem in3_1 : V7 m ρ c main_v38
    = Host.divf ((dat2 (V5 m ρ) c).arrAt 6 cfg2.N : (⟨S1x128, .f32⟩ : BufTy).Contents (Elt F)) (broadcastInDim S1x128 ![] bcast_S_S1x128 (constant S_ .f32 0x47C35000#32)) :=
  (hostOps3_v38 (W6 m ρ c)).trans (by rw [W6_arr m ρ c 6])
/-- The column variances: region 2's column sums of squares over the row count, less the squared means. -/
theorem in3_2 : V7 m ρ c main_v42
    = subf (Host.divf ((dat2 (V5 m ρ) c).arrAt 7 cfg2.N : (⟨S1x128, .f32⟩ : BufTy).Contents (Elt F)) (broadcastInDim S1x128 ![] bcast_S_S1x128 (constant S_ .f32 0x47C35000#32)))
        (mulf (Host.divf ((dat2 (V5 m ρ) c).arrAt 6 cfg2.N : (⟨S1x128, .f32⟩ : BufTy).Contents (Elt F)) (broadcastInDim S1x128 ![] bcast_S_S1x128 (constant S_ .f32 0x47C35000#32)))
              (Host.divf ((dat2 (V5 m ρ) c).arrAt 6 cfg2.N : (⟨S1x128, .f32⟩ : BufTy).Contents (Elt F)) (broadcastInDim S1x128 ![] bcast_S_S1x128 (constant S_ .f32 0x47C35000#32)))) :=
  (hostOps3_v42 (W6 m ρ c)).trans (by rw [W6_arr m ρ c 6, W6_arr m ρ c 7])
theorem in3_3 : V7 m ρ c main_v43 = fun i => shapeCast S1x128 (m ((c.tc : Thread nD τ).loc main_arg10)) shapeCasts_S128_S1x128 i :=
  (hostOps3_v43 (W6 m ρ c)).trans (by rw [W6_of m ρ c (r := main_arg10) (by decide)])
theorem in3_4 : V7 m ρ c main_v44 = fun i => shapeCast S1x128 (m ((c.tc : Thread nD τ).loc main_arg11)) shapeCasts_S128_S1x128 i :=
  (hostOps3_v44 (W6 m ρ c)).trans (by rw [W6_of m ρ c (r := main_arg11) (by decide)])

/-! ## Region 2 (the second linear layer): the inputs at entry -/

/-- The aggregated rows are what stretch 2 computes (its scatter-add), from region 1's exit contents. -/
theorem in2_0 : V5 m ρ c main_v34 = StableHlo.after hostOps2 (W4 m ρ c) (Proc.devRef .tc main_v34) := rfl
/-- The edge sources, computed in stretch 0, are still there at region 1's exit. -/
theorem W4_v1 : W4 m ρ c (Proc.devRef .tc main_v1) = W1 m ρ c (Proc.devRef .tc main_v1) :=
  (reg1_keep m ρ c (b := main_v1) (by decide)).trans ((keep1 (W2 m ρ c) (r := main_v1) (by decide)).trans (reg0_keep m ρ c (b := main_v1) (by decide)))
/-- And so are the edge targets. -/
theorem W4_v3 : W4 m ρ c (Proc.devRef .tc main_v3) = W1 m ρ c (Proc.devRef .tc main_v3) :=
  (reg1_keep m ρ c (b := main_v3) (by decide)).trans ((keep1 (W2 m ρ c) (r := main_v3) (by decide)).trans (reg0_keep m ρ c (b := main_v3) (by decide)))
/-- The rows the second aggregation gathers from are region 1's output. -/
theorem W4_v24 : W4 m ρ c (Proc.devRef .tc main_v24) = (dat1 (V3 m ρ) c).arrAt 5 cfg1.N := W4_arr m ρ c 5
theorem in2_1 : V5 m ρ c main_v24 = (dat1 (V3 m ρ) c).arrAt 5 cfg1.N :=
  (keep2 (W4 m ρ c) (r := main_v24) (by decide)).trans (W4_arr m ρ c 5)
theorem in2_2 : V5 m ρ c main_arg5 = m ((c.tc : Thread nD τ).loc main_arg5) := W5_of m ρ c (by decide)
theorem in2_3 : V5 m ρ c main_v35 = fun i => shapeCast S1x128 (m ((c.tc : Thread nD τ).loc main_arg6)) shapeCasts_S128_S1x128 i :=
  (hostOps2_v35 (W4 m ρ c)).trans (by rw [W4_of m ρ c (r := main_arg6) (by decide)])
theorem in2_4 : V5 m ρ c main_arg7 = m ((c.tc : Thread nD τ).loc main_arg7) := W5_of m ρ c (by decide)

/-! ## Region 1 (the first normalisation): the inputs at entry -/

theorem in1_0 : V3 m ρ c main_v15_0 = (dat0 (V1 m ρ) c).arrAt 5 cfg0.N :=
  (keep1 (W2 m ρ c) (r := main_v15_0) (by decide)).trans (W2_arr m ρ c 5)
theorem in1_1 : V3 m ρ c main_v17
    = Host.divf ((dat0 (V1 m ρ) c).arrAt 6 cfg0.N : (⟨S1x128, .f32⟩ : BufTy).Contents (Elt F)) (broadcastInDim S1x128 ![] bcast_S_S1x128 (constant S_ .f32 0x47C35000#32)) :=
  (hostOps1_v17 (W2 m ρ c)).trans (by rw [W2_arr m ρ c 6])
theorem in1_2 : V3 m ρ c main_v21
    = subf (Host.divf ((dat0 (V1 m ρ) c).arrAt 7 cfg0.N : (⟨S1x128, .f32⟩ : BufTy).Contents (Elt F)) (broadcastInDim S1x128 ![] bcast_S_S1x128 (constant S_ .f32 0x47C35000#32)))
        (mulf (Host.divf ((dat0 (V1 m ρ) c).arrAt 6 cfg0.N : (⟨S1x128, .f32⟩ : BufTy).Contents (Elt F)) (broadcastInDim S1x128 ![] bcast_S_S1x128 (constant S_ .f32 0x47C35000#32)))
              (Host.divf ((dat0 (V1 m ρ) c).arrAt 6 cfg0.N : (⟨S1x128, .f32⟩ : BufTy).Contents (Elt F)) (broadcastInDim S1x128 ![] bcast_S_S1x128 (constant S_ .f32 0x47C35000#32)))) :=
  (hostOps1_v21 (W2 m ρ c)).trans (by rw [W2_arr m ρ c 6, W2_arr m ρ c 7])
theorem in1_3 : V3 m ρ c main_v22 = fun i => shapeCast S1x128 (m ((c.tc : Thread nD τ).loc main_arg8)) shapeCasts_S128_S1x128 i :=
  (hostOps1_v22 (W2 m ρ c)).trans (by rw [W2_of m ρ c (r := main_arg8) (by decide)])
theorem in1_4 : V3 m ρ c main_v23 = fun i => shapeCast S1x128 (m ((c.tc : Thread nD τ).loc main_arg9)) shapeCasts_S128_S1x128 i :=
  (hostOps1_v23 (W2 m ρ c)).trans (by rw [W2_of m ρ c (r := main_arg9) (by decide)])

/-! ## Region 0 (the first linear layer): the inputs at entry -/

theorem in0_1 : V1 m ρ c main_arg0 = m ((c.tc : Thread nD τ).loc main_arg0) := W1_of m ρ c (by decide)
theorem in0_2 : V1 m ρ c main_arg2 = m ((c.tc : Thread nD τ).loc main_arg2) := W1_of m ρ c (by decide)
theorem in0_3 : V1 m ρ c main_v14 = fun i => shapeCast S1x128 (m ((c.tc : Thread nD τ).loc main_arg3)) shapeCasts_S128_S1x128 i :=
  hostOps0_v14 (W0 m ρ c)
theorem in0_4 : V1 m ρ c main_arg4 = m ((c.tc : Thread nD τ).loc main_arg4) := W1_of m ρ c (by decide)

end Cert.KernelIdeal.KFold

end
-- ==== Proof.AggKernel.lean ====
/-
  The kernel program's two host stretches that aggregate over the graph, read as the reference's aggregation.

  Both programs compute `segment_sum(y[src], dst)` on the host by the same operations in the same order: the edge
  list's two rows sliced and flattened, a negative source index wrapped once by the node count, each row broadcast to
  an index column, the source rows of the features gathered, and the gathered rows added into a zero array at the
  destination rows. The reference's stages name this composition once; the shape records of the two programs are
  the same literals, so the kernel program's stretch IS that composition, at any float instance, by unfolding.
  The second stretch does not slice the edge list again: it reads the two flattened rows the first stretch left.
-/
import proofs.«180842_j41832981463453_1_alg».proof.Proof.KernelIdealLaunchP
import proofs.«180842_j41832981463453_1_alg».proof.Proof.RefStages

set_option maxRecDepth 4096

noncomputable section

namespace Cert.KernelIdeal.AggK

open Idealize.ShloMosaic Cert.KernelIdeal Cert.KernelIdeal.Gen Cert.KernelIdeal.GenP

variable {F : FTy → Type} [FloatOps F]

/-- After the first stretch the flattened source row of the edge list. -/
theorem hostOps0_v1 (W : Valuation τ sig (Elt F)) :
    StableHlo.after hostOps0 W (Proc.devRef .tc main_v1)
      = Cert.ReferenceIdeal.Stage.edgeRow0 (W (Proc.devRef .tc main_arg1)) := by
  after_results_simp
  rfl

/-- After the first stretch the flattened destination row of the edge list. -/
theorem hostOps0_v3 (W : Valuation τ sig (Elt F)) :
    StableHlo.after hostOps0 W (Proc.devRef .tc main_v3)
      = Cert.ReferenceIdeal.Stage.edgeRow1 (W (Proc.devRef .tc main_arg1)) := by
  after_results_simp
  rfl

/-- After the first stretch the aggregation of the input features over the edge list. -/
theorem hostOps0_v13 (W : Valuation τ sig (Elt F)) :
    StableHlo.after hostOps0 W (Proc.devRef .tc main_v13)
      = Cert.ReferenceIdeal.Stage.agg (Cert.ReferenceIdeal.Stage.srcIdx (W (Proc.devRef .tc main_arg1)))
          (Cert.ReferenceIdeal.Stage.dstIdx (W (Proc.devRef .tc main_arg1))) (W (Proc.devRef .tc main_arg0)) := by
  after_results_simp
  rfl

/-- After the third stretch the aggregation of the first layer's output over the edge list, the two flattened rows
    being those of the edge list `e`. -/
theorem hostOps2_v34 (W : Valuation τ sig (Elt F)) (e : IVec S2x600000 32)
    (h1 : W (Proc.devRef .tc main_v1) = Cert.ReferenceIdeal.Stage.edgeRow0 e)
    (h3 : W (Proc.devRef .tc main_v3) = Cert.ReferenceIdeal.Stage.edgeRow1 e) :
    StableHlo.after hostOps2 W (Proc.devRef .tc main_v34)
      = Cert.ReferenceIdeal.Stage.agg (Cert.ReferenceIdeal.Stage.srcIdx e) (Cert.ReferenceIdeal.Stage.dstIdx e)
          (W (Proc.devRef .tc main_v24)) := by
  after_results_simp
  rw [h1, h3]
  rfl

end Cert.KernelIdeal.AggK

end
-- ==== Proof.AggKernelRun.lean ====
/-
  The two aggregations of the kernel program's run, read at the launch memory.

  The run's buffer contents before the first kernel are the first host stretch applied to the launch memory, so the
  first aggregation is the reference's aggregation of the input features over the edge list, both read from the
  launch memory. Before the third kernel they are the third host stretch applied to what the second kernel left:
  the flattened rows of the edge list are still those the first stretch wrote (nothing in between writes them), and
  the features aggregated are the second kernel's output array.
-/
import proofs.«180842_j41832981463453_1_alg».proof.Proof.KernelIdealFrameP
import proofs.«180842_j41832981463453_1_alg».proof.Proof.AggKernel
import proofs.«180842_j41832981463453_1_alg».proof.Proof.KernelFold

set_option maxRecDepth 16384

noncomputable section

namespace Cert.KernelIdeal.AggK

open Idealize.ShloMosaic Idealize.ShloMosaic.TcCoe Cert.KernelIdeal Cert.KernelIdeal.Gen Cert.KernelIdeal.GenP

variable {F : FTy → Type} [FloatOps F]
variable (m : (ℓ : Loc nD τ sig) → Buf (Elt F) ℓ) (ρ : Dev nD → PrngReg)

/-- The first kernel's aggregated input: the aggregation of the launched features over the launched edge list. -/
theorem in0_0 (c : Dev nD) :
    V1 m ρ c main_v13
      = Cert.ReferenceIdeal.Stage.agg (Cert.ReferenceIdeal.Stage.srcIdx (m ((c : Thread nD τ).loc main_arg1)))
          (Cert.ReferenceIdeal.Stage.dstIdx (m ((c : Thread nD τ).loc main_arg1))) (m ((c : Thread nD τ).loc main_arg0)) :=
  hostOps0_v13 (W0 m ρ c)

/-- The third kernel's aggregated input, given that the two flattened rows of the edge list are still those the
    first stretch wrote: the aggregation of the second kernel's output over the launched edge list. -/
theorem in2_0_of (c : Dev nD)
    (h1 : W4 m ρ c (Proc.devRef .tc main_v1) = W1 m ρ c (Proc.devRef .tc main_v1))
    (h3 : W4 m ρ c (Proc.devRef .tc main_v3) = W1 m ρ c (Proc.devRef .tc main_v3)) :
    V5 m ρ c main_v34
      = Cert.ReferenceIdeal.Stage.agg (Cert.ReferenceIdeal.Stage.srcIdx (m ((c : Thread nD τ).loc main_arg1)))
          (Cert.ReferenceIdeal.Stage.dstIdx (m ((c : Thread nD τ).loc main_arg1))) ((dat1 (V3 m ρ) c).arrAt 5 cfg1.N) := by
  rw [← W4_arr m ρ c 5]
  exact hostOps2_v34 (W4 m ρ c) (m ((c : Thread nD τ).loc main_arg1))
    (h1.trans (hostOps0_v1 (W0 m ρ c))) (h3.trans (hostOps0_v3 (W0 m ρ c)))

/-- The third kernel's aggregated input: the aggregation of the second kernel's output over the launched edge list. -/
theorem in2_0 (c : Dev nD) :
    V5 m ρ c main_v34
      = Cert.ReferenceIdeal.Stage.agg (Cert.ReferenceIdeal.Stage.srcIdx (m ((c : Thread nD τ).loc main_arg1)))
          (Cert.ReferenceIdeal.Stage.dstIdx (m ((c : Thread nD τ).loc main_arg1))) ((dat1 (V3 m ρ) c).arrAt 5 cfg1.N) :=
  in2_0_of m ρ c (Cert.KernelIdeal.KFold.W4_v1 m ρ c) (Cert.KernelIdeal.KFold.W4_v3 m ρ c)

end Cert.KernelIdeal.AggK

end
-- ==== Proof.LinPure.lean ====
/-
  Pure facts about the SAGE combination `H = (A·Wl + bl) + X·Wr` cut into row tiles.

  The 100000 rows are cut into 20 tiles of 5000 rows: row `r` of tile `s` is row `5000·s + r`. The combination of
  a tile of `A` and the same tile of `X` is that tile of the combination, because an entry of `H` depends on one row
  of `A` and `X` only. A sum over all rows is the sum over the tiles of the sums over each tile's rows; addition on
  the extended reals is commutative and associative, so no finiteness is needed. Then the few vector operations of
  the tile's arithmetic, read at an index on the literal shapes, and the running sum of the per-tile column sums.
-/
import proofs.«180842_j41832981463453_1_alg».proof.Proof.Spec
import Idealize.ShloMosaic.Lib.Pipeline.Value
import Idealize.ShloMosaic.PureOps.Ideal.Laws
import Idealize.ShloMosaic.Lib.ValueIdx

noncomputable section

namespace Cert.KernelIdeal.LinPure

open Idealize.ShloMosaic Idealize.ShloMosaic.ValueIdx Cert.Sage

/-- The zero offsets of a whole block, as the constant function. -/
theorem hz : (![0, 0] : Fin 2 → Nat) = fun _ => 0 := funext fun a => by fin_cases a <;> rfl

/-! ## Row tiles -/

/-- Row `r` of row tile `s` (tiles of 5000 rows) as a row of the whole array; total in `s` (reduced modulo the
    number of rows), and equal to `5000·s + r` for the 20 tiles there are. -/
def rowN (s : ℕ) (r : Fin 5000) : Fin 100000 := ⟨(5000 * s + r.val) % 100000, Nat.mod_lt _ (by norm_num)⟩

theorem rowN_val (s : ℕ) (hs : s < 20) (r : Fin 5000) : (rowN s r).val = 5000 * s + r.val := by
  have := r.isLt
  show (5000 * s + r.val) % 100000 = _
  exact Nat.mod_eq_of_lt (by omega)

/-- Row tile `s` of a matrix of 100000 rows. -/
def tile {C : ℕ} (s : ℕ) (A : Mat 100000 C) : Mat 5000 C := fun r k => A (rowN s r) k

/-- The combination of a tile is the tile of the combination: an entry reads one row of `A` and of `X`. -/
theorem lin_tile (s : ℕ) (A X : Mat 100000 128) (Wl : Mat 128 128) (bl : Fin 128 → EReal) (Wr : Mat 128 128) :
    lin (tile s A) (tile s X) Wl bl Wr = tile s (lin A X Wl bl Wr) := rfl

/-- A sum over the 100000 rows is the sum over the 20 tiles of the sums over each tile's 5000 rows. -/
theorem sum_tiles (f : Fin 100000 → EReal) :
    ∑ n : Fin 100000, f n = ∑ s ∈ Finset.range 20, ∑ r : Fin 5000, f (rowN s r) := by
  rw [Finset.sum_range (fun s => ∑ r : Fin 5000, f (rowN s r))]
  rw [← Equiv.sum_comp (finProdFinEquiv (m := 20) (n := 5000)) f, Fintype.sum_prod_type]
  refine Finset.sum_congr rfl fun t _ => Finset.sum_congr rfl fun r _ => congrArg f (Fin.ext ?_)
  rw [rowN_val t.val t.isLt r]
  show r.val + 5000 * t.val = _
  omega

/-- The column sums of the tiles add up to the column sums of the whole matrix; -/
theorem colsum_tiles (H : Mat 100000 128) (c : Fin 128) :
    ∑ s ∈ Finset.range 20, colsum (tile s H) c = colsum H c :=
  (sum_tiles fun n => H n c).symm

/-- and so do the column sums of the squares. -/
theorem colsumsq_tiles (H : Mat 100000 128) (c : Fin 128) :
    ∑ s ∈ Finset.range 20, colsumsq (tile s H) c = colsumsq H c :=
  (sum_tiles fun n => H n c * H n c).symm

/-! ## The running sum carried in a `[1,128]` row -/

/-- A `[1,128]` array is the row it holds. -/
theorem toRow_ofRow (v : (⟨2, ![1, 128]⟩ : Shape).Idx → EReal) : toRow (ofRow v) = v := by
  funext j
  refine congrArg v (funext fun a => Fin.ext ?_)
  match a with
  | ⟨0, _⟩ => have h0 : (j 0).val < 1 := (j 0).isLt; show 0 = (j 0).val; omega
  | ⟨1, _⟩ => rfl

/-- Starting from the zero row, the first tile's sums are the running sum over one tile; -/
theorem acc_init (g : ℕ → Fin 128 → EReal) :
    toRow (fun col => ofRow (toRow fun _ : Fin 128 => (0 : EReal)) col + g 0 col)
      = toRow (fun col => ∑ s ∈ Finset.range (0 + 1), g s col) := by
  refine congrArg toRow (funext fun col => ?_)
  show (0 : EReal) + g 0 col = _
  rw [zero_add, Finset.sum_range_one]

/-- and adding the next tile's sums to the running sum over `n + 1` tiles gives the running sum over `n + 2`. -/
theorem acc_step (g : ℕ → Fin 128 → EReal) (n : ℕ) :
    toRow (fun col => ofRow (toRow fun col => ∑ s ∈ Finset.range (n + 1), g s col) col + g (n + 1) col)
      = toRow (fun col => ∑ s ∈ Finset.range (n + 1 + 1), g s col) := by
  refine congrArg toRow (funext fun col => ?_)
  exact (Finset.sum_range_succ (fun s => g s col) (n + 1)).symm

/-! ## Vector operations at an index, on the literal shapes -/

/-- The sum over the rows of a `[5000,128]` tile, at column `c`. -/
theorem reduce_rows (src : FVec Ideal (⟨2, ![5000, 128]⟩ : Shape) .f32)
    (h : (⟨2, ![5000, 128]⟩ : Shape).Reduces [0] (⟨1, ![128]⟩ : Shape))
    (hacc : (0x00000000#32 : BitVec 32) = 0x00000000#32) (c : Fin 128) :
    multiReduction .add [0] (⟨1, ![128]⟩ : Shape) src 0x00000000#32 h (.inl rfl) hacc (ix1 c) = ∑ r : Fin 5000, src (ix2 r c) := by
  refine (Ideal.multiReduction_add_single src 0x00000000#32 h (.inl rfl) hacc (ix1 c)).trans ?_
  refine Finset.sum_congr rfl fun r _ => congrArg src (funext fun a => Fin.ext ?_)
  match a with
  | ⟨0, _⟩ => rfl
  | ⟨1, _⟩ => rfl

/-- A `[128]` vector viewed as a `[1,128]` row. -/
theorem cast_row (v : (⟨1, ![128]⟩ : Shape).Idx → EReal) (h : (⟨1, ![128]⟩ : Shape).ShapeCasts (⟨2, ![1, 128]⟩ : Shape))
    (c : Fin 128) : shapeCast (⟨2, ![1, 128]⟩ : Shape) v h (ix2 (0 : Fin 1) c) = v (ix1 c) := by
  refine shapeCast_apply v h _ _ ?_
  rw [Shape.rowMajor_val_one, Shape.rowMajor_val_two]
  show c.val = 0 * 128 + c.val
  omega

/-- A `[1,128]` row broadcast over 5000 rows. -/
theorem bcast_row (b : (⟨2, ![1, 128]⟩ : Shape).Idx → EReal)
    (h : (⟨2, ![1, 128]⟩ : Shape).Broadcasts (⟨2, ![5000, 128]⟩ : Shape)) (r : Fin 5000) (c : Fin 128) :
    broadcastTo (⟨2, ![5000, 128]⟩ : Shape) b h (ix2 r c) = b (ix2 (0 : Fin 1) c) := by
  refine broadcastTo_apply b h _ _ fun a => ?_
  match a with
  | ⟨0, _⟩ => rfl
  | ⟨1, _⟩ => rfl

end Cert.KernelIdeal.LinPure

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LinTile0.lean ====
/-
  Region 0 of the kernel program (the pallas kernel `sage_linear` of layer 1), one grid point at a time.

  The kernel's grid has 20 points; point `t` reads row tile `t` (5000 rows) of the aggregate and of the features and
  the whole weights, stores the tile `h = (agg·Wl + bl) + x·Wr`, and adds the tile's column sums of `h` and of `h·h`
  into two `[1,128]` rows carried across the grid, which the first point zeroes. This module reads what the body's
  stores leave in each output buffer (case by case: the first point, the later points), the stored values at an index on
  the extended reals, and each window's block as a piece of its array.
-/
import proofs.«180842_j41832981463453_1_alg».proof.Proof.KernelIdealFrameP
import proofs.«180842_j41832981463453_1_alg».proof.Proof.LinPure
import proofs.«180842_j41832981463453_1_alg».proof.Proof.LibPlainDot
import Idealize.ShloMosaic.Lib.Pipeline.Value
import Idealize.ShloMosaic.Lib.ValueIdx
import Idealize.ShloMosaic.Lib.Tactic

noncomputable section

namespace Cert.KernelIdeal.LinValue0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Sage Cert.KernelIdeal.LinPure

/-! ## What the body's stores leave, case by case

Each output buffer's contents after the body are the payload of its last covering store, whose loads read the whole
input buffers; at the first point the carried rows are first zeroed and read back. Generic in the float instance. -/

section Pieces
variable {F : FTy → Type} [FloatOps F]

theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_5 c i a1 h1 a2 h2 a3 h3 a4 h4 a5 h5 a6 h6 a7 h7 a8 h8 hc x0 x1 x2 x3 x4 = k0_pay3 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_5 c i a1 h1 a2 h2 a3 h3 a4 h4 a5 h5 a6 h6 a7 h7 a8 h8 hc x0 x1 x2 x3 x4 xo6 xo7 = k0_pay3 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_6 c i a1 h1 a2 h2 a3 h3 a4 h4 a5 h5 a6 h6 a7 h7 a8 h8 hc x0 x1 x2 x3 x4 = k0_pay4 x0 x1 x2 x4 x3 k0_pay1 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_6 c i a1 h1 a2 h2 a3 h3 a4 h4 a5 h5 a6 h6 a7 h7 a8 h8 hc x0 x1 x2 x3 x4 xo6 xo7 = k0_pay4 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_7 c i a1 h1 a2 h2 a3 h3 a4 h4 a5 h5 a6 h6 a7 h7 a8 h8 hc x0 x1 x2 x3 x4 = k0_pay5 x0 x1 x2 x4 x3 k0_pay2 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_7 c i a1 h1 a2 h2 a3 h3 a4 h4 a5 h5 a6 h6 a7 h7 a8 h8 hc x0 x1 x2 x3 x4 xo6 xo7 = k0_pay5 x0 x1 x2 x4 x3 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

end Pieces

/-! ## The tile's arithmetic at an index -/

/-- The stored tile of `h`: entry `(r, c)` is the combination of the tile's blocks of `agg` and `x`. The two
    matrix products run into zero accumulators and the format changes are the identity on the extended reals. -/
theorem pay3_apply (a x : Vec Ideal S5000x128 .f32) (wl wr : Vec Ideal S128x128 .f32) (b : Vec Ideal S1x128 .f32) (r : Fin 5000) (c : Fin 128) :
    k0_pay3 (F := Ideal) a x wl wr b (ix2 r c)
      = lin (ofArr2 a) (ofArr2 x) (ofArr2 wl) (ofRow b) (ofArr2 wr) r c := by
  unfold k0_pay3
  show _ = (dot (ofArr2 a) (ofArr2 wl) r c + ofRow b c) + dot (ofArr2 x) (ofArr2 wr) r c
  refine congrArg₂ (· + ·) (congrArg₂ (· + ·) ?_ ?_) ?_
  · refine (Cert.PlainDot.matmul_zero_apply 5000 128 128 none _ _ (ix2 r c)).trans ?_
    refine Finset.sum_congr rfl fun k _ => congrArg₂ (· * ·) ?_ rfl
    exact congrFun (shapeCast_self a shapeCasts_S5000x128_S5000x128) (ix2 r k)
  · refine (bcast_row _ broadcasts_S1x128_S5000x128 r c).trans ?_
    exact congrFun (shapeCast_self b shapeCasts_S1x128_S1x128) (ix2 (0 : Fin 1) c)
  · exact Cert.PlainDot.matmul_zero_apply 5000 128 128 none _ _ (ix2 r c)

theorem pay3_eq (a x : Vec Ideal S5000x128 .f32) (wl wr : Vec Ideal S128x128 .f32) (b : Vec Ideal S1x128 .f32) :
    k0_pay3 (F := Ideal) a x wl wr b = toArr2 (lin (ofArr2 a) (ofArr2 x) (ofArr2 wl) (ofRow b) (ofArr2 wr)) := by
  funext j
  obtain ⟨r, c, rfl⟩ : ∃ (r : Fin 5000) (c : Fin 128), j = ix2 r c := ⟨j 0, j 1, eq_ix2 j⟩
  exact pay3_apply a x wl wr b r c

/-- The zero rows the first grid point stores. -/
theorem pay1_eq : k0_pay1 (F := Ideal) = toRow fun _ : Fin 128 => (0 : EReal) := by
  funext j
  exact Ideal.ofBits_zero_f32
theorem pay2_eq : k0_pay2 (F := Ideal) = toRow fun _ : Fin 128 => (0 : EReal) := by
  funext j
  exact Ideal.ofBits_zero_f32

/-- The carried row of sums after a point: the row before plus the tile's column sums. -/
theorem pay4_eq (a x : Vec Ideal S5000x128 .f32) (wl wr : Vec Ideal S128x128 .f32) (b : Vec Ideal S1x128 .f32) (acc : Vec Ideal S1x128 .f32) :
    k0_pay4 (F := Ideal) a x wl wr b acc
      = toRow fun col => ofRow acc col + colsum (lin (ofArr2 a) (ofArr2 x) (ofArr2 wl) (ofRow b) (ofArr2 wr)) col := by
  funext j
  obtain ⟨p, q, rfl⟩ : ∃ (p : Fin 1) (q : Fin 128), j = ix2 p q := ⟨j 0, j 1, eq_ix2 j⟩
  obtain rfl : p = 0 := Subsingleton.elim _ _
  unfold k0_pay4
  show _ = acc (ix2 (0 : Fin 1) q) + ∑ r : Fin 5000, lin (ofArr2 a) (ofArr2 x) (ofArr2 wl) (ofRow b) (ofArr2 wr) r q
  refine congrArg₂ (· + ·) ?_ ?_
  · exact congrFun (shapeCast_self acc shapeCasts_S1x128_S1x128) (ix2 (0 : Fin 1) q)
  · refine (cast_row _ shapeCasts_S128_S1x128 q).trans ?_
    refine (reduce_rows _ reduces_S5000x128_S128 rfl q).trans ?_
    exact Finset.sum_congr rfl fun r _ => pay3_apply a x wl wr b r q

/-- The carried row of sums of squares after a point: the row before plus the tile's column sums of squares. -/
theorem pay5_eq (a x : Vec Ideal S5000x128 .f32) (wl wr : Vec Ideal S128x128 .f32) (b : Vec Ideal S1x128 .f32) (acc : Vec Ideal S1x128 .f32) :
    k0_pay5 (F := Ideal) a x wl wr b acc
      = toRow fun col => ofRow acc col + colsumsq (lin (ofArr2 a) (ofArr2 x) (ofArr2 wl) (ofRow b) (ofArr2 wr)) col := by
  funext j
  obtain ⟨p, q, rfl⟩ : ∃ (p : Fin 1) (q : Fin 128), j = ix2 p q := ⟨j 0, j 1, eq_ix2 j⟩
  obtain rfl : p = 0 := Subsingleton.elim _ _
  unfold k0_pay5
  show _ = acc (ix2 (0 : Fin 1) q) + ∑ r : Fin 5000, lin (ofArr2 a) (ofArr2 x) (ofArr2 wl) (ofRow b) (ofArr2 wr) r q
      * lin (ofArr2 a) (ofArr2 x) (ofArr2 wl) (ofRow b) (ofArr2 wr) r q
  refine congrArg₂ (· + ·) ?_ ?_
  · exact congrFun (shapeCast_self acc shapeCasts_S1x128_S1x128) (ix2 (0 : Fin 1) q)
  · refine (cast_row _ shapeCasts_S128_S1x128 q).trans ?_
    refine (reduce_rows _ reduces_S5000x128_S128 rfl q).trans ?_
    exact Finset.sum_congr rfl fun r _ => congrArg₂ (· * ·) (pay3_apply a x wl wr b r q) (pay3_apply a x wl wr b r q)

/-! ## A point's values over the blocks of row tile `s`

Stated over any vectors that ARE tile `s` of `A` and `X` and the whole `Wl`, `Wr`, `bl`: the stored tile is tile `s` of the
combination, and the carried rows gain tile `s`'s column sums. -/

theorem tile_h (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) :
    k0_pay3 (F := Ideal) a x wl wr b = toArr2 (tile s (lin A X Wl bl Wr)) := by
  rw [pay3_eq, ha, hx, hwl, hwr, hb, lin_tile]

theorem tile_s (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) (acc : Vec Ideal S1x128 .f32) :
    k0_pay4 (F := Ideal) a x wl wr b acc = toRow fun col => ofRow acc col + colsum (tile s (lin A X Wl bl Wr)) col := by
  rw [pay4_eq, ha, hx, hwl, hwr, hb, lin_tile]

theorem tile_s0 (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) :
    k0_pay4 (F := Ideal) a x wl wr b (k0_pay1 (F := Ideal))
      = toRow fun col => ofRow (toRow fun _ : Fin 128 => (0 : EReal)) col + colsum (tile s (lin A X Wl bl Wr)) col := by
  rw [pay4_eq, pay1_eq, ha, hx, hwl, hwr, hb, lin_tile]

theorem tile_q (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) (acc : Vec Ideal S1x128 .f32) :
    k0_pay5 (F := Ideal) a x wl wr b acc = toRow fun col => ofRow acc col + colsumsq (tile s (lin A X Wl bl Wr)) col := by
  rw [pay5_eq, ha, hx, hwl, hwr, hb, lin_tile]

theorem tile_q0 (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) :
    k0_pay5 (F := Ideal) a x wl wr b (k0_pay2 (F := Ideal))
      = toRow fun col => ofRow (toRow fun _ : Fin 128 => (0 : EReal)) col + colsumsq (tile s (lin A X Wl bl Wr)) col := by
  rw [pay5_eq, pay2_eq, ha, hx, hwl, hwr, hb, lin_tile]

/-! ## The windows' blocks as pieces of the arrays -/

/-- The printed index maps, decided over the 20 grid points: the row-tiled windows sit at block `(t, 0)`, the others at `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

section AtV
variable (V : (c : Dev nD) → (b : Ref sig .tc) → Buf (Elt Ideal) ((c : Thread nD τ).loc b))

/-- Window 0's block at point `t` is row tile `t` of its array: block row `r` is array row `5000·t + r`. -/
theorem blk0 (c : Dev nD) (t : Fin cfg0.N) :
    ofArr2 (iblk0 V c 0 t : S5000x128.Idx → EReal) = tile t.val (ofArr2 (V c main_v13 : S100000x128.Idx → EReal)) := by
  have hN : t.val < 20 := lt_of_lt_of_eq t.isLt (show cfg0.N = 20 from N_0)
  obtain ⟨e00, e01, e10, e11, e20, e21, e30, e31, e40, e41, e50, e51, e60, e61, e70, e71⟩ := idx_facts t
  funext r k
  show iblk0 V c 0 t (ix2 r k) = V c main_v13 (ix2 (rowN t.val r) k)
  unfold iblk0
  rw [View.read_apply, cast_eq]
  show V c main_v13 (((cfg0.win 0).blk t).view.emb (ix2 r k)) = V c main_v13 (ix2 (rowN t.val r) k)
  refine congrArg (V c main_v13) (funext fun a => Fin.ext ?_)
  match a with
  | ⟨0, _⟩ => show win0_0.index t (0 : Fin 2) * 5000 + 1 * r.val = (rowN t.val r).val; rw [rowN_val _ hN, e00]; omega
  | ⟨1, _⟩ => show win0_0.index t (1 : Fin 2) * 128 + 1 * k.val = k.val; rw [e01]; omega

/-- Window 1's block at point `t` is row tile `t` of its array: block row `r` is array row `5000·t + r`. -/
theorem blk1 (c : Dev nD) (t : Fin cfg0.N) :
    ofArr2 (iblk0 V c 1 t : S5000x128.Idx → EReal) = tile t.val (ofArr2 (V c main_arg0 : S100000x128.Idx → EReal)) := by
  have hN : t.val < 20 := lt_of_lt_of_eq t.isLt (show cfg0.N = 20 from N_0)
  obtain ⟨e00, e01, e10, e11, e20, e21, e30, e31, e40, e41, e50, e51, e60, e61, e70, e71⟩ := idx_facts t
  funext r k
  show iblk0 V c 1 t (ix2 r k) = V c main_arg0 (ix2 (rowN t.val r) k)
  unfold iblk0
  rw [View.read_apply, cast_eq]
  show V c main_arg0 (((cfg0.win 1).blk t).view.emb (ix2 r k)) = V c main_arg0 (ix2 (rowN t.val r) k)
  refine congrArg (V c main_arg0) (funext fun a => Fin.ext ?_)
  match a with
  | ⟨0, _⟩ => show win0_1.index t (0 : Fin 2) * 5000 + 1 * r.val = (rowN t.val r).val; rw [rowN_val _ hN, e10]; omega
  | ⟨1, _⟩ => show win0_1.index t (1 : Fin 2) * 128 + 1 * k.val = k.val; rw [e11]; omega

/-- Window 2's block is its whole array at every point: the block index is `(0, 0)`. -/
theorem blk2 (c : Dev nD) (t : Fin cfg0.N) : (iblk0 V c 2 t : S128x128.Idx → EReal) = V c main_arg2 := by
  obtain ⟨e00, e01, e10, e11, e20, e21, e30, e31, e40, e41, e50, e51, e60, e61, e70, e71⟩ := idx_facts t
  have hz' : (fun a => win0_2.index t a * main_arg2.ty.shape.size a) = fun _ => 0 := funext fun a => by
    match a with
    | ⟨0, _⟩ => show win0_2.index t (0 : Fin 2) * 128 = 0; rw [e20]
    | ⟨1, _⟩ => show win0_2.index t (1 : Fin 2) * 128 = 0; rw [e21]
  exact Memref.read_access_unit_zero (Elt Ideal) main_arg2 hz' (fun a => by rw [congrFun hz' a]; simp) (V c main_arg2)

/-- Window 3's block is its whole array at every point: the block index is `(0, 0)`. -/
theorem blk3 (c : Dev nD) (t : Fin cfg0.N) : (iblk0 V c 3 t : S1x128.Idx → EReal) = V c main_v14 := by
  obtain ⟨e00, e01, e10, e11, e20, e21, e30, e31, e40, e41, e50, e51, e60, e61, e70, e71⟩ := idx_facts t
  have hz' : (fun a => win0_3.index t a * main_v14.ty.shape.size a) = fun _ => 0 := funext fun a => by
    match a with
    | ⟨0, _⟩ => show win0_3.index t (0 : Fin 2) * 1 = 0; rw [e30]
    | ⟨1, _⟩ => show win0_3.index t (1 : Fin 2) * 128 = 0; rw [e31]
  exact Memref.read_access_unit_zero (Elt Ideal) main_v14 hz' (fun a => by rw [congrFun hz' a]; simp) (V c main_v14)

/-- Window 4's block is its whole array at every point: the block index is `(0, 0)`. -/
theorem blk4 (c : Dev nD) (t : Fin cfg0.N) : (iblk0 V c 4 t : S128x128.Idx → EReal) = V c main_arg4 := by
  obtain ⟨e00, e01, e10, e11, e20, e21, e30, e31, e40, e41, e50, e51, e60, e61, e70, e71⟩ := idx_facts t
  have hz' : (fun a => win0_4.index t a * main_arg4.ty.shape.size a) = fun _ => 0 := funext fun a => by
    match a with
    | ⟨0, _⟩ => show win0_4.index t (0 : Fin 2) * 128 = 0; rw [e40]
    | ⟨1, _⟩ => show win0_4.index t (1 : Fin 2) * 128 = 0; rw [e41]
  exact Memref.read_access_unit_zero (Elt Ideal) main_arg4 hz' (fun a => by rw [congrFun hz' a]; simp) (V c main_arg4)

end AtV

end Cert.KernelIdeal.LinValue0

end
-- ==== Proof.LinValue0.lean ====
/-
  Region 0 of the kernel program (the pallas kernel `sage_linear` of layer 1): the three arrays after the run.

  With `H = (A·Wl + bl) + X·Wr` of the five operand arrays as the region finds them: every grid point writes back tile
  `t` of `H` (so the array of `h` ends as `H`: row `n` is covered by point `n / 5000`), and the two carried `[1,128]`
  rows hold, after point `n`, the column sums of `H` and of `H·H` over the tiles `0 … n` — by induction on the point,
  the first point starting from zero. They are written back once, after the last point, when they hold the sums over
  all 20 tiles, which are the sums over all 100000 rows.
-/
import proofs.«180842_j41832981463453_1_alg».proof.Proof.KernelIdealFrameP
import proofs.«180842_j41832981463453_1_alg».proof.Proof.LinTile0
import Idealize.ShloMosaic.Lib.Pipeline.Value
import Idealize.ShloMosaic.Lib.ValueIdx
import Idealize.ShloMosaic.Lib.Tactic

noncomputable section

namespace Cert.KernelIdeal.LinValue0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Sage Cert.KernelIdeal.LinPure

/-! ## What each point leaves -/

section AtV
variable (V : (c : Dev nD) → (b : Ref sig .tc) → Buf (Elt Ideal) ((c : Thread nD τ).loc b))

/-- The combination `H` of the region's five operands as it finds them. -/
abbrev Hm (c : Dev nD) : Mat 100000 128 :=
  lin (ofArr2 (V c main_v13 : S100000x128.Idx → EReal)) (ofArr2 (V c main_arg0 : S100000x128.Idx → EReal)) (ofArr2 (V c main_arg2 : S128x128.Idx → EReal)) (ofRow (V c main_v14 : S1x128.Idx → EReal)) (ofArr2 (V c main_arg4 : S128x128.Idx → EReal))

/-- Every point leaves tile `t` of `H` in window 5's buffer. -/
theorem out5_eq (c : Dev nD) (t : Fin cfg0.N) :
    (outsAt0 V c t.val t.isLt).1 = toArr2 (tile t.val (Hm V c)) := by
  by_cases h0 : t.val % 20 = 0
  · rw [outsAt0_A V c t h0]
    dsimp only
    refine (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)).trans ?_
    exact tile_h t.val (ofArr2 (V c main_v13 : S100000x128.Idx → EReal)) (ofArr2 (V c main_arg0 : S100000x128.Idx → EReal)) (ofArr2 (V c main_arg2 : S128x128.Idx → EReal)) (ofArr2 (V c main_arg4 : S128x128.Idx → EReal)) (ofRow (V c main_v14 : S1x128.Idx → EReal)) (iblk0 V c 0 t) (iblk0 V c 1 t) (iblk0 V c 2 t) (iblk0 V c 4 t) (iblk0 V c 3 t) (blk0 V c t) (blk1 V c t) (congrArg ofArr2 (blk2 V c t)) (congrArg ofArr2 (blk4 V c t)) (congrArg ofRow (blk3 V c t))
  · rw [outsAt0_B V c t h0]
    dsimp only
    refine (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).trans ?_
    exact tile_h t.val (ofArr2 (V c main_v13 : S100000x128.Idx → EReal)) (ofArr2 (V c main_arg0 : S100000x128.Idx → EReal)) (ofArr2 (V c main_arg2 : S128x128.Idx → EReal)) (ofArr2 (V c main_arg4 : S128x128.Idx → EReal)) (ofRow (V c main_v14 : S1x128.Idx → EReal)) (iblk0 V c 0 t) (iblk0 V c 1 t) (iblk0 V c 2 t) (iblk0 V c 4 t) (iblk0 V c 3 t) (blk0 V c t) (blk1 V c t) (congrArg ofArr2 (blk2 V c t)) (congrArg ofArr2 (blk4 V c t)) (congrArg ofRow (blk3 V c t))

/-- The first point zeroes the carried rows and adds its tile's sums; -/
theorem out6_A (c : Dev nD) (t : Fin cfg0.N) (h0 : t.val % 20 = 0) :
    (outsAt0 V c t.val t.isLt).2.1
      = toRow fun col => ofRow (toRow fun _ : Fin 128 => (0 : EReal)) col + colsum (tile t.val (Hm V c)) col := by
  rw [outsAt0_A V c t h0]
  dsimp only
  refine (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)).trans ?_
  exact tile_s0 t.val (ofArr2 (V c main_v13 : S100000x128.Idx → EReal)) (ofArr2 (V c main_arg0 : S100000x128.Idx → EReal)) (ofArr2 (V c main_arg2 : S128x128.Idx → EReal)) (ofArr2 (V c main_arg4 : S128x128.Idx → EReal)) (ofRow (V c main_v14 : S1x128.Idx → EReal)) (iblk0 V c 0 t) (iblk0 V c 1 t) (iblk0 V c 2 t) (iblk0 V c 4 t) (iblk0 V c 3 t) (blk0 V c t) (blk1 V c t) (congrArg ofArr2 (blk2 V c t)) (congrArg ofArr2 (blk4 V c t)) (congrArg ofRow (blk3 V c t))
theorem out7_A (c : Dev nD) (t : Fin cfg0.N) (h0 : t.val % 20 = 0) :
    (outsAt0 V c t.val t.isLt).2.2
      = toRow fun col => ofRow (toRow fun _ : Fin 128 => (0 : EReal)) col + colsumsq (tile t.val (Hm V c)) col := by
  rw [outsAt0_A V c t h0]
  dsimp only
  refine (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)).trans ?_
  exact tile_q0 t.val (ofArr2 (V c main_v13 : S100000x128.Idx → EReal)) (ofArr2 (V c main_arg0 : S100000x128.Idx → EReal)) (ofArr2 (V c main_arg2 : S128x128.Idx → EReal)) (ofArr2 (V c main_arg4 : S128x128.Idx → EReal)) (ofRow (V c main_v14 : S1x128.Idx → EReal)) (iblk0 V c 0 t) (iblk0 V c 1 t) (iblk0 V c 2 t) (iblk0 V c 4 t) (iblk0 V c 3 t) (blk0 V c t) (blk1 V c t) (congrArg ofArr2 (blk2 V c t)) (congrArg ofArr2 (blk4 V c t)) (congrArg ofRow (blk3 V c t))

/-- every later point adds its tile's sums to what the point before left. -/
theorem out6_B (c : Dev nD) (t : Fin cfg0.N) (h0 : ¬t.val % 20 = 0) :
    (outsAt0 V c t.val t.isLt).2.1
      = toRow fun col => ofRow (outsAt0 V c (t.val - 1) (Nat.lt_of_le_of_lt (Nat.sub_le _ _) t.isLt)).2.1 col + colsum (tile t.val (Hm V c)) col := by
  rw [outsAt0_B V c t h0]
  dsimp only
  refine (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).trans ?_
  exact tile_s t.val (ofArr2 (V c main_v13 : S100000x128.Idx → EReal)) (ofArr2 (V c main_arg0 : S100000x128.Idx → EReal)) (ofArr2 (V c main_arg2 : S128x128.Idx → EReal)) (ofArr2 (V c main_arg4 : S128x128.Idx → EReal)) (ofRow (V c main_v14 : S1x128.Idx → EReal)) (iblk0 V c 0 t) (iblk0 V c 1 t) (iblk0 V c 2 t) (iblk0 V c 4 t) (iblk0 V c 3 t) (blk0 V c t) (blk1 V c t) (congrArg ofArr2 (blk2 V c t)) (congrArg ofArr2 (blk4 V c t)) (congrArg ofRow (blk3 V c t)) (outsAt0 V c (t.val - 1) (Nat.lt_of_le_of_lt (Nat.sub_le _ _) t.isLt)).2.1
theorem out7_B (c : Dev nD) (t : Fin cfg0.N) (h0 : ¬t.val % 20 = 0) :
    (outsAt0 V c t.val t.isLt).2.2
      = toRow fun col => ofRow (outsAt0 V c (t.val - 1) (Nat.lt_of_le_of_lt (Nat.sub_le _ _) t.isLt)).2.2 col + colsumsq (tile t.val (Hm V c)) col := by
  rw [outsAt0_B V c t h0]
  dsimp only
  refine (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).trans ?_
  exact tile_q t.val (ofArr2 (V c main_v13 : S100000x128.Idx → EReal)) (ofArr2 (V c main_arg0 : S100000x128.Idx → EReal)) (ofArr2 (V c main_arg2 : S128x128.Idx → EReal)) (ofArr2 (V c main_arg4 : S128x128.Idx → EReal)) (ofRow (V c main_v14 : S1x128.Idx → EReal)) (iblk0 V c 0 t) (iblk0 V c 1 t) (iblk0 V c 2 t) (iblk0 V c 4 t) (iblk0 V c 3 t) (blk0 V c t) (blk1 V c t) (congrArg ofArr2 (blk2 V c t)) (congrArg ofArr2 (blk4 V c t)) (congrArg ofRow (blk3 V c t)) (outsAt0 V c (t.val - 1) (Nat.lt_of_le_of_lt (Nat.sub_le _ _) t.isLt)).2.2

/-- So after point `n` the carried rows hold the sums over tiles `0 … n` — by induction on the point. -/
theorem acc6 (c : Dev nD) : ∀ (n : ℕ) (h : n < cfg0.N),
    (outsAt0 V c n h).2.1 = toRow fun col => ∑ s ∈ Finset.range (n + 1), colsum (tile s (Hm V c)) col
  | 0, h => (out6_A V c ⟨0, h⟩ rfl).trans (acc_init fun s col => colsum (tile s (Hm V c)) col)
  | n + 1, h => by
    have hN : cfg0.N = 20 := N_0
    have hB : ¬(⟨n + 1, h⟩ : Fin cfg0.N).val % 20 = 0 := by dsimp only; omega
    refine (out6_B V c ⟨n + 1, h⟩ hB).trans ?_
    show (toRow fun col => ofRow (outsAt0 V c n _).2.1 col + colsum (tile (n + 1) (Hm V c)) col) = _
    rw [acc6 c n]
    exact acc_step (fun s col => colsum (tile s (Hm V c)) col) n
theorem acc7 (c : Dev nD) : ∀ (n : ℕ) (h : n < cfg0.N),
    (outsAt0 V c n h).2.2 = toRow fun col => ∑ s ∈ Finset.range (n + 1), colsumsq (tile s (Hm V c)) col
  | 0, h => (out7_A V c ⟨0, h⟩ rfl).trans (acc_init fun s col => colsumsq (tile s (Hm V c)) col)
  | n + 1, h => by
    have hN : cfg0.N = 20 := N_0
    have hB : ¬(⟨n + 1, h⟩ : Fin cfg0.N).val % 20 = 0 := by dsimp only; omega
    refine (out7_B V c ⟨n + 1, h⟩ hB).trans ?_
    show (toRow fun col => ofRow (outsAt0 V c n _).2.2 col + colsumsq (tile (n + 1) (Hm V c)) col) = _
    rw [acc7 c n]
    exact acc_step (fun s col => colsumsq (tile s (Hm V c)) col) n

/-! ## The write-backs and the arrays after the run -/

/-- Every point writes back block `t` of `H`. -/
theorem flushed5_eq (c : Dev nD) (t : Fin cfg0.N) :
    (dat0 V c).flushed 5 t = ((cfg0.win 5).blk t).view.read (Elt Ideal) (toArr2 (Hm V c)) := by
  have hN : t.val < 20 := lt_of_lt_of_eq t.isLt (show cfg0.N = 20 from N_0)
  obtain ⟨e00, e01, e10, e11, e20, e21, e30, e31, e40, e41, e50, e51, e60, e61, e70, e71⟩ := idx_facts t
  show (cfg0.win 5).cut (grid0.coords t) ((dat0 V c).after 5 t) = _
  rw [after0_5, out5_eq V c t]
  funext y
  rw [View.read_apply, cast_eq]
  show Hm V c (rowN t.val (y 0)) (y 1) = Hm V c ((((cfg0.win 5).blk t).view.emb y) 0) ((((cfg0.win 5).blk t).view.emb y) 1)
  refine congrArg₂ (Hm V c) (Fin.ext ?_) (Fin.ext ?_)
  · show (rowN t.val (y 0)).val = win0_5.index t (0 : Fin 2) * 5000 + 1 * (y 0).val
    have hr := rowN_val t.val hN (y 0)
    rw [e50]; omega
  · show (y 1).val = win0_5.index t (1 : Fin 2) * 128 + 1 * (y 1).val
    rw [e51]; omega

/-- An index of the array is in point `t`'s block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15_0).slice (win0_5.rect t)).set ↔ _
  rw [View.set_slice_whole, Rect.mem_set_unit]
  exact Iff.rfl

/-- THE ARRAY OF `h` after the run: row `n` lies in the block of point `n / 5000`. -/
theorem h_arr (c : Dev nD) : (dat0 V c).arrAt 5 cfg0.N
    = toArr2 (lin (ofArr2 (V c main_v13 : S100000x128.Idx → EReal)) (ofArr2 (V c main_arg0 : S100000x128.Idx → EReal)) (ofArr2 (V c main_arg2 : S128x128.Idx → EReal)) (ofRow (V c main_v14 : S1x128.Idx → EReal)) (ofArr2 (V c main_arg4 : S128x128.Idx → EReal))) :=
  (dat0 V c).arrAt_eq_of_cover 5 (toArr2 (Hm V c)) (fun t _ => flushed5_eq V c t) fun i => by
    have hi0 : (i 0).val < 100000 := (i 0).isLt
    have hi1 : (i 1).val < 128 := (i 1).isLt
    have hN : cfg0.N = 20 := N_0
    refine ⟨⟨(i 0).val / 5000, by omega⟩, flush0_5 _, ?_⟩
    obtain ⟨e00, e01, e10, e11, e20, e21, e30, e31, e40, e41, e50, e51, e60, e61, e70, e71⟩ := idx_facts ⟨(i 0).val / 5000, by omega⟩
    rw [mem_blk5]
    intro a
    match a with
    | ⟨0, _⟩ =>
      show win0_5.index ⟨(i 0).val / 5000, _⟩ (0 : Fin 2) * 5000 ≤ (i 0).val ∧ (i 0).val < win0_5.index ⟨(i 0).val / 5000, _⟩ (0 : Fin 2) * 5000 + 5000
      rw [e50]; dsimp only; omega
    | ⟨1, _⟩ =>
      show win0_5.index ⟨(i 0).val / 5000, _⟩ (1 : Fin 2) * 128 ≤ (i 1).val ∧ (i 1).val < win0_5.index ⟨(i 0).val / 5000, _⟩ (1 : Fin 2) * 128 + 128
      rw [e51]; omega

/-- The one write-back of window 6, after the last point, writes the whole `[1,128]` array: the column sums of all 20 tiles. -/
theorem flushed6_eq (c : Dev nD) (t : Fin cfg0.N) (hf : (cfg0.win 6).flush t = true) :
    (dat0 V c).flushed 6 t = ((cfg0.win 6).blk t).view.read (Elt Ideal) (toRow (colsum (Hm V c))) := by
  have hN : cfg0.N = 20 := N_0
  have h19 : t.val = 19 := by have := (flush0_6 t).mp hf; have := t.isLt; omega
  obtain ⟨e00, e01, e10, e11, e20, e21, e30, e31, e40, e41, e50, e51, e60, e61, e70, e71⟩ := idx_facts t
  have hz' : (fun a => win0_6.index t a * main_v15_1.ty.shape.size a) = fun _ => 0 := funext fun a => by
    match a with
    | ⟨0, _⟩ => show win0_6.index t (0 : Fin 2) * 1 = 0; rw [e60]
    | ⟨1, _⟩ => show win0_6.index t (1 : Fin 2) * 128 = 0; rw [e61]
  show (cfg0.win 6).cut (grid0.coords t) ((dat0 V c).after 6 t) = _
  rw [after0_6, acc6 V c t.val t.isLt]
  refine Eq.trans ?_ (Memref.read_access_unit_zero (Elt Ideal) main_v15_1 hz' (fun a => by rw [congrFun hz' a]; simp) (toRow (colsum (Hm V c)))).symm
  refine congrArg toRow (funext fun col => ?_)
  rw [h19]
  exact colsum_tiles (Hm V c) col

/-- The one write-back of window 7, after the last point, writes the whole `[1,128]` array: the column sums of squares of all 20 tiles. -/
theorem flushed7_eq (c : Dev nD) (t : Fin cfg0.N) (hf : (cfg0.win 7).flush t = true) :
    (dat0 V c).flushed 7 t = ((cfg0.win 7).blk t).view.read (Elt Ideal) (toRow (colsumsq (Hm V c))) := by
  have hN : cfg0.N = 20 := N_0
  have h19 : t.val = 19 := by have := (flush0_7 t).mp hf; have := t.isLt; omega
  obtain ⟨e00, e01, e10, e11, e20, e21, e30, e31, e40, e41, e50, e51, e60, e61, e70, e71⟩ := idx_facts t
  have hz' : (fun a => win0_7.index t a * main_v15_2.ty.shape.size a) = fun _ => 0 := funext fun a => by
    match a with
    | ⟨0, _⟩ => show win0_7.index t (0 : Fin 2) * 1 = 0; rw [e70]
    | ⟨1, _⟩ => show win0_7.index t (1 : Fin 2) * 128 = 0; rw [e71]
  show (cfg0.win 7).cut (grid0.coords t) ((dat0 V c).after 7 t) = _
  rw [after0_7, acc7 V c t.val t.isLt]
  refine Eq.trans ?_ (Memref.read_access_unit_zero (Elt Ideal) main_v15_2 hz' (fun a => by rw [congrFun hz' a]; simp) (toRow (colsumsq (Hm V c)))).symm
  refine congrArg toRow (funext fun col => ?_)
  rw [h19]
  exact colsumsq_tiles (Hm V c) col

/-- An index of a `[1,128]` output array is in the last point's block. -/
theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v15_1).slice (win0_6.rect t)).set ↔ _
  rw [View.set_slice_whole, Rect.mem_set_unit]
  exact Iff.rfl
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v15_2).slice (win0_7.rect t)).set ↔ _
  rw [View.set_slice_whole, Rect.mem_set_unit]
  exact Iff.rfl

/-- THE ARRAY OF `Σh` after the run. -/
theorem s_arr (c : Dev nD) : (dat0 V c).arrAt 6 cfg0.N
    = toRow (colsum (lin (ofArr2 (V c main_v13 : S100000x128.Idx → EReal)) (ofArr2 (V c main_arg0 : S100000x128.Idx → EReal)) (ofArr2 (V c main_arg2 : S128x128.Idx → EReal)) (ofRow (V c main_v14 : S1x128.Idx → EReal)) (ofArr2 (V c main_arg4 : S128x128.Idx → EReal)))) :=
  (dat0 V c).arrAt_eq_of_cover 6 (toRow (colsum (Hm V c))) (flushed6_eq V c) fun i => by
    have hi0 : (i 0).val < 1 := (i 0).isLt
    have hi1 : (i 1).val < 128 := (i 1).isLt
    have hN : cfg0.N = 20 := N_0
    refine ⟨⟨19, by omega⟩, (flush0_6 _).mpr rfl, ?_⟩
    obtain ⟨e00, e01, e10, e11, e20, e21, e30, e31, e40, e41, e50, e51, e60, e61, e70, e71⟩ := idx_facts ⟨19, by omega⟩
    rw [mem_blk6]
    intro a
    match a with
    | ⟨0, _⟩ =>
      show win0_6.index ⟨19, _⟩ (0 : Fin 2) * 1 ≤ (i 0).val ∧ (i 0).val < win0_6.index ⟨19, _⟩ (0 : Fin 2) * 1 + 1
      rw [e60]; omega
    | ⟨1, _⟩ =>
      show win0_6.index ⟨19, _⟩ (1 : Fin 2) * 128 ≤ (i 1).val ∧ (i 1).val < win0_6.index ⟨19, _⟩ (1 : Fin 2) * 128 + 128
      rw [e61]; omega

/-- THE ARRAY OF `Σh²` after the run. -/
theorem q_arr (c : Dev nD) : (dat0 V c).arrAt 7 cfg0.N
    = toRow (colsumsq (lin (ofArr2 (V c main_v13 : S100000x128.Idx → EReal)) (ofArr2 (V c main_arg0 : S100000x128.Idx → EReal)) (ofArr2 (V c main_arg2 : S128x128.Idx → EReal)) (ofRow (V c main_v14 : S1x128.Idx → EReal)) (ofArr2 (V c main_arg4 : S128x128.Idx → EReal)))) :=
  (dat0 V c).arrAt_eq_of_cover 7 (toRow (colsumsq (Hm V c))) (flushed7_eq V c) fun i => by
    have hi0 : (i 0).val < 1 := (i 0).isLt
    have hi1 : (i 1).val < 128 := (i 1).isLt
    have hN : cfg0.N = 20 := N_0
    refine ⟨⟨19, by omega⟩, (flush0_7 _).mpr rfl, ?_⟩
    obtain ⟨e00, e01, e10, e11, e20, e21, e30, e31, e40, e41, e50, e51, e60, e61, e70, e71⟩ := idx_facts ⟨19, by omega⟩
    rw [mem_blk7]
    intro a
    match a with
    | ⟨0, _⟩ =>
      show win0_7.index ⟨19, _⟩ (0 : Fin 2) * 1 ≤ (i 0).val ∧ (i 0).val < win0_7.index ⟨19, _⟩ (0 : Fin 2) * 1 + 1
      rw [e70]; omega
    | ⟨1, _⟩ =>
      show win0_7.index ⟨19, _⟩ (1 : Fin 2) * 128 ≤ (i 1).val ∧ (i 1).val < win0_7.index ⟨19, _⟩ (1 : Fin 2) * 128 + 128
      rw [e71]; omega

end AtV

end Cert.KernelIdeal.LinValue0

end
-- ==== Proof.LinTile2.lean ====
/-
  Region 2 of the kernel program (the pallas kernel `sage_linear` of layer 2), one grid point at a time.

  The kernel's grid has 20 points; point `t` reads row tile `t` (5000 rows) of the aggregate and of the features and
  the whole weights, stores the tile `h = (agg·Wl + bl) + x·Wr`, and adds the tile's column sums of `h` and of `h·h`
  into two `[1,128]` rows carried across the grid, which the first point zeroes. This module reads what the body's
  stores leave in each output buffer (case by case: the first point, the later points), the stored values at an index on
  the extended reals, and each window's block as a piece of its array.
-/
import proofs.«180842_j41832981463453_1_alg».proof.Proof.KernelIdealFrameP
import proofs.«180842_j41832981463453_1_alg».proof.Proof.LinPure
import proofs.«180842_j41832981463453_1_alg».proof.Proof.LibPlainDot
import Idealize.ShloMosaic.Lib.Pipeline.Value
import Idealize.ShloMosaic.Lib.ValueIdx
import Idealize.ShloMosaic.Lib.Tactic

noncomputable section

namespace Cert.KernelIdeal.LinValue2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Sage Cert.KernelIdeal.LinPure

/-! ## What the body's stores leave, case by case

Each output buffer's contents after the body are the payload of its last covering store, whose loads read the whole
input buffers; at the first point the carried rows are first zeroed and read back. Generic in the float instance. -/

section Pieces
variable {F : FTy → Type} [FloatOps F]

theorem out_A_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_5 c i a1 h1 a2 h2 a3 h3 a4 h4 a5 h5 a6 h6 a7 h7 a8 h8 hc x0 x1 x2 x3 x4 = k2_pay4 x0 x1 x2 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_B_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_5 c i a1 h1 a2 h2 a3 h3 a4 h4 a5 h5 a6 h6 a7 h7 a8 h8 hc x0 x1 x2 x3 x4 xo6 xo7 = k2_pay4 x0 x1 x2 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_6 c i a1 h1 a2 h2 a3 h3 a4 h4 a5 h5 a6 h6 a7 h7 a8 h8 hc x0 x1 x2 x3 x4 = k2_pay5 x0 x1 x2 x4 x3 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_6 c i a1 h1 a2 h2 a3 h3 a4 h4 a5 h5 a6 h6 a7 h7 a8 h8 hc x0 x1 x2 x3 x4 xo6 xo7 = k2_pay5 x0 x1 x2 x4 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_A_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_7 c i a1 h1 a2 h2 a3 h3 a4 h4 a5 h5 a6 h6 a7 h7 a8 h8 hc x0 x1 x2 x3 x4 = k2_pay1 (k2_pay6 k2_pay3) (k2_pay7 x0 x1 x2 x4 x3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

theorem out_B_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x4 x3) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

end Pieces

/-! ## The tile's arithmetic at an index -/

/-- The stored tile of `h`: entry `(r, c)` is the combination of the tile's blocks of the aggregate and of the features.
    The two matrix products run into zero accumulators and the format changes are the identity on the extended reals. -/
theorem pay3_apply (a x : Vec Ideal S5000x128 .f32) (wl wr : Vec Ideal S128x128 .f32) (b : Vec Ideal S1x128 .f32) (r : Fin 5000) (c : Fin 128) :
    k2_pay4 (F := Ideal) a x wl wr b (ix2 r c)
      = lin (ofArr2 a) (ofArr2 x) (ofArr2 wl) (ofRow b) (ofArr2 wr) r c := by
  unfold k2_pay4
  show _ = (dot (ofArr2 a) (ofArr2 wl) r c + ofRow b c) + dot (ofArr2 x) (ofArr2 wr) r c
  refine congrArg₂ (· + ·) (congrArg₂ (· + ·) ?_ ?_) ?_
  · refine (Cert.PlainDot.matmul_zero_apply 5000 128 128 none _ _ (ix2 r c)).trans ?_
    refine Finset.sum_congr rfl fun k _ => congrArg₂ (· * ·) ?_ rfl
    exact congrFun (shapeCast_self a shapeCasts_S5000x128_S5000x128) (ix2 r k)
  · refine (bcast_row _ broadcasts_S1x128_S5000x128 r c).trans ?_
    exact congrFun (shapeCast_self b shapeCasts_S1x128_S1x128) (ix2 (0 : Fin 1) c)
  · refine (Cert.PlainDot.matmul_zero_apply 5000 128 128 none _ _ (ix2 r c)).trans ?_
    refine Finset.sum_congr rfl fun k _ => congrArg₂ (· * ·) ?_ rfl
    exact congrFun (shapeCast_self x shapeCasts_S5000x128_S5000x128) (ix2 r k)

theorem pay3_eq (a x : Vec Ideal S5000x128 .f32) (wl wr : Vec Ideal S128x128 .f32) (b : Vec Ideal S1x128 .f32) :
    k2_pay4 (F := Ideal) a x wl wr b = toArr2 (lin (ofArr2 a) (ofArr2 x) (ofArr2 wl) (ofRow b) (ofArr2 wr)) := by
  funext j
  obtain ⟨r, c, rfl⟩ : ∃ (r : Fin 5000) (c : Fin 128), j = ix2 r c := ⟨j 0, j 1, eq_ix2 j⟩
  exact pay3_apply a x wl wr b r c

/-- The zero rows the first grid point stores. -/
theorem pay1_eq : k2_pay2 (F := Ideal) = toRow fun _ : Fin 128 => (0 : EReal) := by
  funext j
  exact Ideal.ofBits_zero_f32
theorem pay2_eq : k2_pay3 (F := Ideal) = toRow fun _ : Fin 128 => (0 : EReal) := by
  funext j
  exact Ideal.ofBits_zero_f32

/-- The carried row of sums after a point: the row before plus the tile's column sums. -/
theorem pay4_eq (a x : Vec Ideal S5000x128 .f32) (wl wr : Vec Ideal S128x128 .f32) (b : Vec Ideal S1x128 .f32) (acc : Vec Ideal S1x128 .f32) :
    k2_pay5 (F := Ideal) a x wl wr b acc
      = toRow fun col => ofRow acc col + colsum (lin (ofArr2 a) (ofArr2 x) (ofArr2 wl) (ofRow b) (ofArr2 wr)) col := by
  funext j
  obtain ⟨p, q, rfl⟩ : ∃ (p : Fin 1) (q : Fin 128), j = ix2 p q := ⟨j 0, j 1, eq_ix2 j⟩
  obtain rfl : p = 0 := Subsingleton.elim _ _
  unfold k2_pay5
  show _ = acc (ix2 (0 : Fin 1) q) + ∑ r : Fin 5000, lin (ofArr2 a) (ofArr2 x) (ofArr2 wl) (ofRow b) (ofArr2 wr) r q
  refine congrArg₂ (· + ·) ?_ ?_
  · exact congrFun (shapeCast_self acc shapeCasts_S1x128_S1x128) (ix2 (0 : Fin 1) q)
  · refine (cast_row _ shapeCasts_S128_S1x128 q).trans ?_
    refine (reduce_rows _ reduces_S5000x128_S128 rfl q).trans ?_
    exact Finset.sum_congr rfl fun r _ => pay3_apply a x wl wr b r q

/-- The carried row of sums of squares after a point: the row before plus the tile's column sums of squares. -/
theorem pay5_eq (a x : Vec Ideal S5000x128 .f32) (wl wr : Vec Ideal S128x128 .f32) (b : Vec Ideal S1x128 .f32) (acc : Vec Ideal S1x128 .f32) :
    k2_pay1 (F := Ideal) (k2_pay6 acc) (k2_pay7 a x wl wr b)
      = toRow fun col => ofRow acc col + colsumsq (lin (ofArr2 a) (ofArr2 x) (ofArr2 wl) (ofRow b) (ofArr2 wr)) col := by
  funext j
  obtain ⟨p, q, rfl⟩ : ∃ (p : Fin 1) (q : Fin 128), j = ix2 p q := ⟨j 0, j 1, eq_ix2 j⟩
  obtain rfl : p = 0 := Subsingleton.elim _ _
  unfold k2_pay1 k2_pay6 k2_pay7
  show _ = acc (ix2 (0 : Fin 1) q) + ∑ r : Fin 5000, lin (ofArr2 a) (ofArr2 x) (ofArr2 wl) (ofRow b) (ofArr2 wr) r q
      * lin (ofArr2 a) (ofArr2 x) (ofArr2 wl) (ofRow b) (ofArr2 wr) r q
  refine congrArg₂ (· + ·) ?_ ?_
  · exact congrFun (shapeCast_self acc shapeCasts_S1x128_S1x128) (ix2 (0 : Fin 1) q)
  · refine (cast_row _ shapeCasts_S128_S1x128 q).trans ?_
    refine (reduce_rows _ reduces_S5000x128_S128 rfl q).trans ?_
    exact Finset.sum_congr rfl fun r _ => congrArg₂ (· * ·) (pay3_apply a x wl wr b r q) (pay3_apply a x wl wr b r q)

/-! ## A point's values over the blocks of row tile `s`

Stated over any vectors that ARE tile `s` of `A` and `X` and the whole `Wl`, `Wr`, `bl`: the stored tile is tile `s` of the
combination, and the carried rows gain tile `s`'s column sums. -/

theorem tile_h (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) :
    k2_pay4 (F := Ideal) a x wl wr b = toArr2 (tile s (lin A X Wl bl Wr)) := by
  rw [pay3_eq, ha, hx, hwl, hwr, hb, lin_tile]

theorem tile_s (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) (acc : Vec Ideal S1x128 .f32) :
    k2_pay5 (F := Ideal) a x wl wr b acc = toRow fun col => ofRow acc col + colsum (tile s (lin A X Wl bl Wr)) col := by
  rw [pay4_eq, ha, hx, hwl, hwr, hb, lin_tile]

theorem tile_s0 (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) :
    k2_pay5 (F := Ideal) a x wl wr b (k2_pay2 (F := Ideal))
      = toRow fun col => ofRow (toRow fun _ : Fin 128 => (0 : EReal)) col + colsum (tile s (lin A X Wl bl Wr)) col := by
  rw [pay4_eq, pay1_eq, ha, hx, hwl, hwr, hb, lin_tile]

theorem tile_q (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) (acc : Vec Ideal S1x128 .f32) :
    k2_pay1 (F := Ideal) (k2_pay6 acc) (k2_pay7 a x wl wr b) = toRow fun col => ofRow acc col + colsumsq (tile s (lin A X Wl bl Wr)) col := by
  rw [pay5_eq, ha, hx, hwl, hwr, hb, lin_tile]

theorem tile_q0 (s : ℕ) (A X : Mat 100000 128) (Wl Wr : Mat 128 128) (bl : Fin 128 → EReal)
    (a x : Vec Ideal S5000x128 .f32) (wl wr : Vec Ideal S128x128 .f32) (b : Vec Ideal S1x128 .f32)
    (ha : ofArr2 a = tile s A) (hx : ofArr2 x = tile s X) (hwl : ofArr2 wl = Wl) (hwr : ofArr2 wr = Wr) (hb : ofRow b = bl) :
    k2_pay1 (F := Ideal) (k2_pay6 (k2_pay3 (F := Ideal))) (k2_pay7 a x wl wr b)
      = toRow fun col => ofRow (toRow fun _ : Fin 128 => (0 : EReal)) col + colsumsq (tile s (lin A X Wl bl Wr)) col := by
  rw [pay5_eq, pay2_eq, ha, hx, hwl, hwr, hb, lin_tile]

/-! ## The windows' blocks as pieces of the arrays -/

/-- The printed index maps, decided over the 20 grid points: the row-tiled windows sit at block `(t, 0)`, the others at `(0, 0)`. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

section AtV
variable (V : (c : Dev nD) → (b : Ref sig .tc) → Buf (Elt Ideal) ((c : Thread nD τ).loc b))

/-- Window 0's block at point `t` is row tile `t` of its array: block row `r` is array row `5000·t + r`. -/
theorem blk0 (c : Dev nD) (t : Fin cfg2.N) :
    ofArr2 (iblk2 V c 0 t : S5000x128.Idx → EReal) = tile t.val (ofArr2 (V c main_v34 : S100000x128.Idx → EReal)) := by
  have hN : t.val < 20 := lt_of_lt_of_eq t.isLt (show cfg2.N = 20 from N_2)
  obtain ⟨e00, e01, e10, e11, e20, e21, e30, e31, e40, e41, e50, e51, e60, e61, e70, e71⟩ := idx_facts t
  funext r k
  show iblk2 V c 0 t (ix2 r k) = V c main_v34 (ix2 (rowN t.val r) k)
  unfold iblk2
  rw [View.read_apply, cast_eq]
  show V c main_v34 (((cfg2.win 0).blk t).view.emb (ix2 r k)) = V c main_v34 (ix2 (rowN t.val r) k)
  refine congrArg (V c main_v34) (funext fun a => Fin.ext ?_)
  match a with
  | ⟨0, _⟩ => show win2_0.index t (0 : Fin 2) * 5000 + 1 * r.val = (rowN t.val r).val; rw [rowN_val _ hN, e00]; omega
  | ⟨1, _⟩ => show win2_0.index t (1 : Fin 2) * 128 + 1 * k.val = k.val; rw [e01]; omega

/-- Window 1's block at point `t` is row tile `t` of its array: block row `r` is array row `5000·t + r`. -/
theorem blk1 (c : Dev nD) (t : Fin cfg2.N) :
    ofArr2 (iblk2 V c 1 t : S5000x128.Idx → EReal) = tile t.val (ofArr2 (V c main_v24 : S100000x128.Idx → EReal)) := by
  have hN : t.val < 20 := lt_of_lt_of_eq t.isLt (show cfg2.N = 20 from N_2)
  obtain ⟨e00, e01, e10, e11, e20, e21, e30, e31, e40, e41, e50, e51, e60, e61, e70, e71⟩ := idx_facts t
  funext r k
  show iblk2 V c 1 t (ix2 r k) = V c main_v24 (ix2 (rowN t.val r) k)
  unfold iblk2
  rw [View.read_apply, cast_eq]
  show V c main_v24 (((cfg2.win 1).blk t).view.emb (ix2 r k)) = V c main_v24 (ix2 (rowN t.val r) k)
  refine congrArg (V c main_v24) (funext fun a => Fin.ext ?_)
  match a with
  | ⟨0, _⟩ => show win2_1.index t (0 : Fin 2) * 5000 + 1 * r.val = (rowN t.val r).val; rw [rowN_val _ hN, e10]; omega
  | ⟨1, _⟩ => show win2_1.index t (1 : Fin 2) * 128 + 1 * k.val = k.val; rw [e11]; omega

/-- Window 2's block is its whole array at every point: the block index is `(0, 0)`. -/
theorem blk2 (c : Dev nD) (t : Fin cfg2.N) : (iblk2 V c 2 t : S128x128.Idx → EReal) = V c main_arg5 := by
  obtain ⟨e00, e01, e10, e11, e20, e21, e30, e31, e40, e41, e50, e51, e60, e61, e70, e71⟩ := idx_facts t
  have hz' : (fun a => win2_2.index t a * main_arg5.ty.shape.size a) = fun _ => 0 := funext fun a => by
    match a with
    | ⟨0, _⟩ => show win2_2.index t (0 : Fin 2) * 128 = 0; rw [e20]
    | ⟨1, _⟩ => show win2_2.index t (1 : Fin 2) * 128 = 0; rw [e21]
  exact Memref.read_access_unit_zero (Elt Ideal) main_arg5 hz' (fun a => by rw [congrFun hz' a]; simp) (V c main_arg5)

/-- Window 3's block is its whole array at every point: the block index is `(0, 0)`. -/
theorem blk3 (c : Dev nD) (t : Fin cfg2.N) : (iblk2 V c 3 t : S1x128.Idx → EReal) = V c main_v35 := by
  obtain ⟨e00, e01, e10, e11, e20, e21, e30, e31, e40, e41, e50, e51, e60, e61, e70, e71⟩ := idx_facts t
  have hz' : (fun a => win2_3.index t a * main_v35.ty.shape.size a) = fun _ => 0 := funext fun a => by
    match a with
    | ⟨0, _⟩ => show win2_3.index t (0 : Fin 2) * 1 = 0; rw [e30]
    | ⟨1, _⟩ => show win2_3.index t (1 : Fin 2) * 128 = 0; rw [e31]
  exact Memref.read_access_unit_zero (Elt Ideal) main_v35 hz' (fun a => by rw [congrFun hz' a]; simp) (V c main_v35)

/-- Window 4's block is its whole array at every point: the block index is `(0, 0)`. -/
theorem blk4 (c : Dev nD) (t : Fin cfg2.N) : (iblk2 V c 4 t : S128x128.Idx → EReal) = V c main_arg7 := by
  obtain ⟨e00, e01, e10, e11, e20, e21, e30, e31, e40, e41, e50, e51, e60, e61, e70, e71⟩ := idx_facts t
  have hz' : (fun a => win2_4.index t a * main_arg7.ty.shape.size a) = fun _ => 0 := funext fun a => by
    match a with
    | ⟨0, _⟩ => show win2_4.index t (0 : Fin 2) * 128 = 0; rw [e40]
    | ⟨1, _⟩ => show win2_4.index t (1 : Fin 2) * 128 = 0; rw [e41]
  exact Memref.read_access_unit_zero (Elt Ideal) main_arg7 hz' (fun a => by rw [congrFun hz' a]; simp) (V c main_arg7)

end AtV

end Cert.KernelIdeal.LinValue2

end
-- ==== Proof.LinValue2.lean ====
/-
  Region 2 of the kernel program (the pallas kernel `sage_linear` of layer 2): the three arrays after the run.

  With `H = (A·Wl + bl) + X·Wr` of the five operand arrays as the region finds them: every grid point writes back tile
  `t` of `H` (so the array of `h` ends as `H`: row `n` is covered by point `n / 5000`), and the two carried `[1,128]`
  rows hold, after point `n`, the column sums of `H` and of `H·H` over the tiles `0 … n` — by induction on the point,
  the first point starting from zero. They are written back once, after the last point, when they hold the sums over
  all 20 tiles, which are the sums over all 100000 rows.
-/
import proofs.«180842_j41832981463453_1_alg».proof.Proof.KernelIdealFrameP
import proofs.«180842_j41832981463453_1_alg».proof.Proof.LinTile2
import Idealize.ShloMosaic.Lib.Pipeline.Value
import Idealize.ShloMosaic.Lib.ValueIdx
import Idealize.ShloMosaic.Lib.Tactic

noncomputable section

namespace Cert.KernelIdeal.LinValue2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Sage Cert.KernelIdeal.LinPure

/-! ## What each point leaves -/

section AtV
variable (V : (c : Dev nD) → (b : Ref sig .tc) → Buf (Elt Ideal) ((c : Thread nD τ).loc b))

/-- The combination `H` of the region's five operands as it finds them. -/
abbrev Hm (c : Dev nD) : Mat 100000 128 :=
  lin (ofArr2 (V c main_v34 : S100000x128.Idx → EReal)) (ofArr2 (V c main_v24 : S100000x128.Idx → EReal)) (ofArr2 (V c main_arg5 : S128x128.Idx → EReal)) (ofRow (V c main_v35 : S1x128.Idx → EReal)) (ofArr2 (V c main_arg7 : S128x128.Idx → EReal))

/-- Every point leaves tile `t` of `H` in window 5's buffer. -/
theorem out5_eq (c : Dev nD) (t : Fin cfg2.N) :
    (outsAt2 V c t.val t.isLt).1 = toArr2 (tile t.val (Hm V c)) := by
  by_cases h0 : t.val % 20 = 0
  · rw [outsAt2_A V c t h0]
    dsimp only
    refine (out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)).trans ?_
    exact tile_h t.val (ofArr2 (V c main_v34 : S100000x128.Idx → EReal)) (ofArr2 (V c main_v24 : S100000x128.Idx → EReal)) (ofArr2 (V c main_arg5 : S128x128.Idx → EReal)) (ofArr2 (V c main_arg7 : S128x128.Idx → EReal)) (ofRow (V c main_v35 : S1x128.Idx → EReal)) (iblk2 V c 0 t) (iblk2 V c 1 t) (iblk2 V c 2 t) (iblk2 V c 4 t) (iblk2 V c 3 t) (blk0 V c t) (blk1 V c t) (congrArg ofArr2 (blk2 V c t)) (congrArg ofArr2 (blk4 V c t)) (congrArg ofRow (blk3 V c t))
  · rw [outsAt2_B V c t h0]
    dsimp only
    refine (out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2).trans ?_
    exact tile_h t.val (ofArr2 (V c main_v34 : S100000x128.Idx → EReal)) (ofArr2 (V c main_v24 : S100000x128.Idx → EReal)) (ofArr2 (V c main_arg5 : S128x128.Idx → EReal)) (ofArr2 (V c main_arg7 : S128x128.Idx → EReal)) (ofRow (V c main_v35 : S1x128.Idx → EReal)) (iblk2 V c 0 t) (iblk2 V c 1 t) (iblk2 V c 2 t) (iblk2 V c 4 t) (iblk2 V c 3 t) (blk0 V c t) (blk1 V c t) (congrArg ofArr2 (blk2 V c t)) (congrArg ofArr2 (blk4 V c t)) (congrArg ofRow (blk3 V c t))

/-- The first point zeroes the carried rows and adds its tile's sums; -/
theorem out6_A (c : Dev nD) (t : Fin cfg2.N) (h0 : t.val % 20 = 0) :
    (outsAt2 V c t.val t.isLt).2.1
      = toRow fun col => ofRow (toRow fun _ : Fin 128 => (0 : EReal)) col + colsum (tile t.val (Hm V c)) col := by
  rw [outsAt2_A V c t h0]
  dsimp only
  refine (out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)).trans ?_
  exact tile_s0 t.val (ofArr2 (V c main_v34 : S100000x128.Idx → EReal)) (ofArr2 (V c main_v24 : S100000x128.Idx → EReal)) (ofArr2 (V c main_arg5 : S128x128.Idx → EReal)) (ofArr2 (V c main_arg7 : S128x128.Idx → EReal)) (ofRow (V c main_v35 : S1x128.Idx → EReal)) (iblk2 V c 0 t) (iblk2 V c 1 t) (iblk2 V c 2 t) (iblk2 V c 4 t) (iblk2 V c 3 t) (blk0 V c t) (blk1 V c t) (congrArg ofArr2 (blk2 V c t)) (congrArg ofArr2 (blk4 V c t)) (congrArg ofRow (blk3 V c t))
theorem out7_A (c : Dev nD) (t : Fin cfg2.N) (h0 : t.val % 20 = 0) :
    (outsAt2 V c t.val t.isLt).2.2
      = toRow fun col => ofRow (toRow fun _ : Fin 128 => (0 : EReal)) col + colsumsq (tile t.val (Hm V c)) col := by
  rw [outsAt2_A V c t h0]
  dsimp only
  refine (out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)).trans ?_
  exact tile_q0 t.val (ofArr2 (V c main_v34 : S100000x128.Idx → EReal)) (ofArr2 (V c main_v24 : S100000x128.Idx → EReal)) (ofArr2 (V c main_arg5 : S128x128.Idx → EReal)) (ofArr2 (V c main_arg7 : S128x128.Idx → EReal)) (ofRow (V c main_v35 : S1x128.Idx → EReal)) (iblk2 V c 0 t) (iblk2 V c 1 t) (iblk2 V c 2 t) (iblk2 V c 4 t) (iblk2 V c 3 t) (blk0 V c t) (blk1 V c t) (congrArg ofArr2 (blk2 V c t)) (congrArg ofArr2 (blk4 V c t)) (congrArg ofRow (blk3 V c t))

/-- every later point adds its tile's sums to what the point before left. -/
theorem out6_B (c : Dev nD) (t : Fin cfg2.N) (h0 : ¬t.val % 20 = 0) :
    (outsAt2 V c t.val t.isLt).2.1
      = toRow fun col => ofRow (outsAt2 V c (t.val - 1) (Nat.lt_of_le_of_lt (Nat.sub_le _ _) t.isLt)).2.1 col + colsum (tile t.val (Hm V c)) col := by
  rw [outsAt2_B V c t h0]
  dsimp only
  refine (out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2).trans ?_
  exact tile_s t.val (ofArr2 (V c main_v34 : S100000x128.Idx → EReal)) (ofArr2 (V c main_v24 : S100000x128.Idx → EReal)) (ofArr2 (V c main_arg5 : S128x128.Idx → EReal)) (ofArr2 (V c main_arg7 : S128x128.Idx → EReal)) (ofRow (V c main_v35 : S1x128.Idx → EReal)) (iblk2 V c 0 t) (iblk2 V c 1 t) (iblk2 V c 2 t) (iblk2 V c 4 t) (iblk2 V c 3 t) (blk0 V c t) (blk1 V c t) (congrArg ofArr2 (blk2 V c t)) (congrArg ofArr2 (blk4 V c t)) (congrArg ofRow (blk3 V c t)) (outsAt2 V c (t.val - 1) (Nat.lt_of_le_of_lt (Nat.sub_le _ _) t.isLt)).2.1
theorem out7_B (c : Dev nD) (t : Fin cfg2.N) (h0 : ¬t.val % 20 = 0) :
    (outsAt2 V c t.val t.isLt).2.2
      = toRow fun col => ofRow (outsAt2 V c (t.val - 1) (Nat.lt_of_le_of_lt (Nat.sub_le _ _) t.isLt)).2.2 col + colsumsq (tile t.val (Hm V c)) col := by
  rw [outsAt2_B V c t h0]
  dsimp only
  refine (out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2).trans ?_
  exact tile_q t.val (ofArr2 (V c main_v34 : S100000x128.Idx → EReal)) (ofArr2 (V c main_v24 : S100000x128.Idx → EReal)) (ofArr2 (V c main_arg5 : S128x128.Idx → EReal)) (ofArr2 (V c main_arg7 : S128x128.Idx → EReal)) (ofRow (V c main_v35 : S1x128.Idx → EReal)) (iblk2 V c 0 t) (iblk2 V c 1 t) (iblk2 V c 2 t) (iblk2 V c 4 t) (iblk2 V c 3 t) (blk0 V c t) (blk1 V c t) (congrArg ofArr2 (blk2 V c t)) (congrArg ofArr2 (blk4 V c t)) (congrArg ofRow (blk3 V c t)) (outsAt2 V c (t.val - 1) (Nat.lt_of_le_of_lt (Nat.sub_le _ _) t.isLt)).2.2

/-- So after point `n` the carried rows hold the sums over tiles `0 … n` — by induction on the point. -/
theorem acc6 (c : Dev nD) : ∀ (n : ℕ) (h : n < cfg2.N),
    (outsAt2 V c n h).2.1 = toRow fun col => ∑ s ∈ Finset.range (n + 1), colsum (tile s (Hm V c)) col
  | 0, h => (out6_A V c ⟨0, h⟩ rfl).trans (acc_init fun s col => colsum (tile s (Hm V c)) col)
  | n + 1, h => by
    have hN : cfg2.N = 20 := N_2
    have hB : ¬(⟨n + 1, h⟩ : Fin cfg2.N).val % 20 = 0 := by dsimp only; omega
    refine (out6_B V c ⟨n + 1, h⟩ hB).trans ?_
    show (toRow fun col => ofRow (outsAt2 V c n _).2.1 col + colsum (tile (n + 1) (Hm V c)) col) = _
    rw [acc6 c n]
    exact acc_step (fun s col => colsum (tile s (Hm V c)) col) n
theorem acc7 (c : Dev nD) : ∀ (n : ℕ) (h : n < cfg2.N),
    (outsAt2 V c n h).2.2 = toRow fun col => ∑ s ∈ Finset.range (n + 1), colsumsq (tile s (Hm V c)) col
  | 0, h => (out7_A V c ⟨0, h⟩ rfl).trans (acc_init fun s col => colsumsq (tile s (Hm V c)) col)
  | n + 1, h => by
    have hN : cfg2.N = 20 := N_2
    have hB : ¬(⟨n + 1, h⟩ : Fin cfg2.N).val % 20 = 0 := by dsimp only; omega
    refine (out7_B V c ⟨n + 1, h⟩ hB).trans ?_
    show (toRow fun col => ofRow (outsAt2 V c n _).2.2 col + colsumsq (tile (n + 1) (Hm V c)) col) = _
    rw [acc7 c n]
    exact acc_step (fun s col => colsumsq (tile s (Hm V c)) col) n

/-! ## The write-backs and the arrays after the run -/

/-- Every point writes back block `t` of `H`. -/
theorem flushed5_eq (c : Dev nD) (t : Fin cfg2.N) :
    (dat2 V c).flushed 5 t = ((cfg2.win 5).blk t).view.read (Elt Ideal) (toArr2 (Hm V c)) := by
  have hN : t.val < 20 := lt_of_lt_of_eq t.isLt (show cfg2.N = 20 from N_2)
  obtain ⟨e00, e01, e10, e11, e20, e21, e30, e31, e40, e41, e50, e51, e60, e61, e70, e71⟩ := idx_facts t
  show (cfg2.win 5).cut (grid2.coords t) ((dat2 V c).after 5 t) = _
  rw [after2_5, out5_eq V c t]
  funext y
  rw [View.read_apply, cast_eq]
  show Hm V c (rowN t.val (y 0)) (y 1) = Hm V c ((((cfg2.win 5).blk t).view.emb y) 0) ((((cfg2.win 5).blk t).view.emb y) 1)
  refine congrArg₂ (Hm V c) (Fin.ext ?_) (Fin.ext ?_)
  · show (rowN t.val (y 0)).val = win2_5.index t (0 : Fin 2) * 5000 + 1 * (y 0).val
    have hr := rowN_val t.val hN (y 0)
    rw [e50]; omega
  · show (y 1).val = win2_5.index t (1 : Fin 2) * 128 + 1 * (y 1).val
    rw [e51]; omega

/-- An index of the array is in point `t`'s block iff each coordinate is in the block's range on its axis. -/
theorem mem_blk5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v36_0).slice (win2_5.rect t)).set ↔ _
  rw [View.set_slice_whole, Rect.mem_set_unit]
  exact Iff.rfl

/-- THE ARRAY OF `h` after the run: row `n` lies in the block of point `n / 5000`. -/
theorem h_arr (c : Dev nD) : (dat2 V c).arrAt 5 cfg2.N
    = toArr2 (lin (ofArr2 (V c main_v34 : S100000x128.Idx → EReal)) (ofArr2 (V c main_v24 : S100000x128.Idx → EReal)) (ofArr2 (V c main_arg5 : S128x128.Idx → EReal)) (ofRow (V c main_v35 : S1x128.Idx → EReal)) (ofArr2 (V c main_arg7 : S128x128.Idx → EReal))) :=
  (dat2 V c).arrAt_eq_of_cover 5 (toArr2 (Hm V c)) (fun t _ => flushed5_eq V c t) fun i => by
    have hi0 : (i 0).val < 100000 := (i 0).isLt
    have hi1 : (i 1).val < 128 := (i 1).isLt
    have hN : cfg2.N = 20 := N_2
    refine ⟨⟨(i 0).val / 5000, by omega⟩, flush2_5 _, ?_⟩
    obtain ⟨e00, e01, e10, e11, e20, e21, e30, e31, e40, e41, e50, e51, e60, e61, e70, e71⟩ := idx_facts ⟨(i 0).val / 5000, by omega⟩
    rw [mem_blk5]
    intro a
    match a with
    | ⟨0, _⟩ =>
      show win2_5.index ⟨(i 0).val / 5000, _⟩ (0 : Fin 2) * 5000 ≤ (i 0).val ∧ (i 0).val < win2_5.index ⟨(i 0).val / 5000, _⟩ (0 : Fin 2) * 5000 + 5000
      rw [e50]; dsimp only; omega
    | ⟨1, _⟩ =>
      show win2_5.index ⟨(i 0).val / 5000, _⟩ (1 : Fin 2) * 128 ≤ (i 1).val ∧ (i 1).val < win2_5.index ⟨(i 0).val / 5000, _⟩ (1 : Fin 2) * 128 + 128
      rw [e51]; omega

/-- The one write-back of window 6, after the last point, writes the whole `[1,128]` array: the column sums of all 20 tiles. -/
theorem flushed6_eq (c : Dev nD) (t : Fin cfg2.N) (hf : (cfg2.win 6).flush t = true) :
    (dat2 V c).flushed 6 t = ((cfg2.win 6).blk t).view.read (Elt Ideal) (toRow (colsum (Hm V c))) := by
  have hN : cfg2.N = 20 := N_2
  have h19 : t.val = 19 := by have := (flush2_6 t).mp hf; have := t.isLt; omega
  obtain ⟨e00, e01, e10, e11, e20, e21, e30, e31, e40, e41, e50, e51, e60, e61, e70, e71⟩ := idx_facts t
  have hz' : (fun a => win2_6.index t a * main_v36_1.ty.shape.size a) = fun _ => 0 := funext fun a => by
    match a with
    | ⟨0, _⟩ => show win2_6.index t (0 : Fin 2) * 1 = 0; rw [e60]
    | ⟨1, _⟩ => show win2_6.index t (1 : Fin 2) * 128 = 0; rw [e61]
  show (cfg2.win 6).cut (grid2.coords t) ((dat2 V c).after 6 t) = _
  rw [after2_6, acc6 V c t.val t.isLt]
  refine Eq.trans ?_ (Memref.read_access_unit_zero (Elt Ideal) main_v36_1 hz' (fun a => by rw [congrFun hz' a]; simp) (toRow (colsum (Hm V c)))).symm
  refine congrArg toRow (funext fun col => ?_)
  rw [h19]
  exact colsum_tiles (Hm V c) col

/-- The one write-back of window 7, after the last point, writes the whole `[1,128]` array: the column sums of squares of all 20 tiles. -/
theorem flushed7_eq (c : Dev nD) (t : Fin cfg2.N) (hf : (cfg2.win 7).flush t = true) :
    (dat2 V c).flushed 7 t = ((cfg2.win 7).blk t).view.read (Elt Ideal) (toRow (colsumsq (Hm V c))) := by
  have hN : cfg2.N = 20 := N_2
  have h19 : t.val = 19 := by have := (flush2_7 t).mp hf; have := t.isLt; omega
  obtain ⟨e00, e01, e10, e11, e20, e21, e30, e31, e40, e41, e50, e51, e60, e61, e70, e71⟩ := idx_facts t
  have hz' : (fun a => win2_7.index t a * main_v36_2.ty.shape.size a) = fun _ => 0 := funext fun a => by
    match a with
    | ⟨0, _⟩ => show win2_7.index t (0 : Fin 2) * 1 = 0; rw [e70]
    | ⟨1, _⟩ => show win2_7.index t (1 : Fin 2) * 128 = 0; rw [e71]
  show (cfg2.win 7).cut (grid2.coords t) ((dat2 V c).after 7 t) = _
  rw [after2_7, acc7 V c t.val t.isLt]
  refine Eq.trans ?_ (Memref.read_access_unit_zero (Elt Ideal) main_v36_2 hz' (fun a => by rw [congrFun hz' a]; simp) (toRow (colsumsq (Hm V c)))).symm
  refine congrArg toRow (funext fun col => ?_)
  rw [h19]
  exact colsumsq_tiles (Hm V c) col

/-- An index of a `[1,128]` output array is in the last point's block. -/
theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v36_1).slice (win2_6.rect t)).set ↔ _
  rw [View.set_slice_whole, Rect.mem_set_unit]
  exact Iff.rfl
theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v36_2).slice (win2_7.rect t)).set ↔ _
  rw [View.set_slice_whole, Rect.mem_set_unit]
  exact Iff.rfl

/-- THE ARRAY OF `Σh` after the run. -/
theorem s_arr (c : Dev nD) : (dat2 V c).arrAt 6 cfg2.N
    = toRow (colsum (lin (ofArr2 (V c main_v34 : S100000x128.Idx → EReal)) (ofArr2 (V c main_v24 : S100000x128.Idx → EReal)) (ofArr2 (V c main_arg5 : S128x128.Idx → EReal)) (ofRow (V c main_v35 : S1x128.Idx → EReal)) (ofArr2 (V c main_arg7 : S128x128.Idx → EReal)))) :=
  (dat2 V c).arrAt_eq_of_cover 6 (toRow (colsum (Hm V c))) (flushed6_eq V c) fun i => by
    have hi0 : (i 0).val < 1 := (i 0).isLt
    have hi1 : (i 1).val < 128 := (i 1).isLt
    have hN : cfg2.N = 20 := N_2
    refine ⟨⟨19, by omega⟩, (flush2_6 _).mpr rfl, ?_⟩
    obtain ⟨e00, e01, e10, e11, e20, e21, e30, e31, e40, e41, e50, e51, e60, e61, e70, e71⟩ := idx_facts ⟨19, by omega⟩
    rw [mem_blk6]
    intro a
    match a with
    | ⟨0, _⟩ =>
      show win2_6.index ⟨19, _⟩ (0 : Fin 2) * 1 ≤ (i 0).val ∧ (i 0).val < win2_6.index ⟨19, _⟩ (0 : Fin 2) * 1 + 1
      rw [e60]; omega
    | ⟨1, _⟩ =>
      show win2_6.index ⟨19, _⟩ (1 : Fin 2) * 128 ≤ (i 1).val ∧ (i 1).val < win2_6.index ⟨19, _⟩ (1 : Fin 2) * 128 + 128
      rw [e61]; omega

/-- THE ARRAY OF `Σh²` after the run. -/
theorem q_arr (c : Dev nD) : (dat2 V c).arrAt 7 cfg2.N
    = toRow (colsumsq (lin (ofArr2 (V c main_v34 : S100000x128.Idx → EReal)) (ofArr2 (V c main_v24 : S100000x128.Idx → EReal)) (ofArr2 (V c main_arg5 : S128x128.Idx → EReal)) (ofRow (V c main_v35 : S1x128.Idx → EReal)) (ofArr2 (V c main_arg7 : S128x128.Idx → EReal)))) :=
  (dat2 V c).arrAt_eq_of_cover 7 (toRow (colsumsq (Hm V c))) (flushed7_eq V c) fun i => by
    have hi0 : (i 0).val < 1 := (i 0).isLt
    have hi1 : (i 1).val < 128 := (i 1).isLt
    have hN : cfg2.N = 20 := N_2
    refine ⟨⟨19, by omega⟩, (flush2_7 _).mpr rfl, ?_⟩
    obtain ⟨e00, e01, e10, e11, e20, e21, e30, e31, e40, e41, e50, e51, e60, e61, e70, e71⟩ := idx_facts ⟨19, by omega⟩
    rw [mem_blk7]
    intro a
    match a with
    | ⟨0, _⟩ =>
      show win2_7.index ⟨19, _⟩ (0 : Fin 2) * 1 ≤ (i 0).val ∧ (i 0).val < win2_7.index ⟨19, _⟩ (0 : Fin 2) * 1 + 1
      rw [e70]; omega
    | ⟨1, _⟩ =>
      show win2_7.index ⟨19, _⟩ (1 : Fin 2) * 128 ≤ (i 1).val ∧ (i 1).val < win2_7.index ⟨19, _⟩ (1 : Fin 2) * 128 + 128
      rw [e71]; omega

end AtV

end Cert.KernelIdeal.LinValue2

end
-- ==== Proof.BnPure.lean ====
/-
  What the normalisation kernel stores, read at one entry of its block.

  At a grid point the kernel holds a block of 5000 rows of the combined features `h` and four rows of 128 columns: the
  column variances, the column means, the scales and the shifts. At row `p`, column `q` of the output block it stores

      max ((((h p q − mean q) · rsqrt (var q + eps)) · gamma q) + beta q) 0.

  The four rows are broadcast over the block's rows and the two constants over a whole vector; every other operation acts
  entry by entry, and a cast of a vector to its own shape changes nothing. On the extended reals each operation is the exact
  one, so the stored entry is read off the operations directly. The two normalisation kernels of the network print the same
  operations; the entry is stated once (`entry`) and each kernel's stored value is shown to be it.
-/
import proofs.«180842_j41832981463453_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.BnPure

open Cert.KernelIdeal Cert.KernelIdeal.Gen Idealize.ShloMosaic Idealize.ShloMosaic.ValueIdx

/-- One normalised entry: from the feature `h`, its column's mean `mu`, variance `v`, scale `g` and shift `b`, with the
    stabiliser and the clamp the kernel's two literals. -/
def entry (h mu v g b : EReal) : EReal :=
  max ((((h - mu) * Ideal.rsqrt (v + Ideal.ofBits .f32 0x3727C5AC#32)) * g) + b) (Ideal.ofBits .f32 0x00000000#32)

/-- The first normalisation kernel's stored value at row `p`, column `q`: the entry of the block's feature there and of
    column `q` of the four rows. (The kernel's first argument is the variance row.) -/
theorem k1_pay1_apply (v0 : Vec Ideal S1x128 .f32) (v5 : Vec Ideal S5000x128 .f32) (v7 v13 v17 : Vec Ideal S1x128 .f32)
    (p : Fin 5000) (q : Fin 128) :
    k1_pay1 (F := Ideal) v0 v5 v7 v13 v17 (ix2 p q)
      = entry (v5 (ix2 p q)) (v7 (ix2 (0 : Fin 1) q)) (v0 (ix2 (0 : Fin 1) q)) (v13 (ix2 (0 : Fin 1) q)) (v17 (ix2 (0 : Fin 1) q)) := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- The second normalisation kernel's stored value at row `p`, column `q`: the same entry. -/
theorem k3_pay1_apply (v0 : Vec Ideal S1x128 .f32) (v5 : Vec Ideal S5000x128 .f32) (v7 v13 v17 : Vec Ideal S1x128 .f32)
    (p : Fin 5000) (q : Fin 128) :
    k3_pay1 (F := Ideal) v0 v5 v7 v13 v17 (ix2 p q)
      = entry (v5 (ix2 p q)) (v7 (ix2 (0 : Fin 1) q)) (v0 (ix2 (0 : Fin 1) q)) (v13 (ix2 (0 : Fin 1) q)) (v17 (ix2 (0 : Fin 1) q)) := by
  unfold k3_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

end Cert.KernelIdeal.BnPure

end
-- ==== Proof.BnValue1.lean ====
/-
  The array the first normalisation kernel leaves, as one function of the arrays it finds.

  The kernel runs over 20 grid points. At point `t` it holds rows `5000·t … 5000·t + 4999` of the combined features and the
  whole of the four rows (column means, column variances, scales, shifts), and writes back rows `5000·t … 5000·t + 4999` of
  the result. Row `r` of the result is therefore written at point `r / 5000`, from row `r` of the features: the 20 blocks
  tile the 100000 rows, and the result is the normalised features entry by entry.
-/
import proofs.«180842_j41832981463453_1_alg».proof.Proof.KernelIdealFrameP
import proofs.«180842_j41832981463453_1_alg».proof.Proof.BnPure
import proofs.«180842_j41832981463453_1_alg».proof.Proof.Spec
import Idealize.ShloMosaic.Lib.Pipeline.Value

noncomputable section

namespace Cert.KernelIdeal.BnValue1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however the zeros are spelt. -/
theorem hz : (![0, 0] : Fin 2 → Nat) = fun _ => 0 := funext fun a => by fin_cases a <;> rfl

/-- The printed index maps over the 20 grid points: the features' block and the result's block move with the point along the
    rows, and the four rows stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point is one of 20. -/
theorem point_lt (t : Fin cfg1.N) : t.val < 20 := lt_of_lt_of_eq t.isLt N_1

/-- The array the region leaves: the features normalised entry by entry with the four rows. -/
def result (c : Dev nD) : S100000x128.Idx → EReal :=
  Cert.Sage.toArr2 (Cert.Sage.bnrelu (Ideal.ofBits .f32 0x3727C5AC#32) (Ideal.ofBits .f32 0x00000000#32)
    (Cert.Sage.ofArr2 (V c main_v15_0)) (Cert.Sage.ofRow (V c main_v17)) (Cert.Sage.ofRow (V c main_v21))
    (Cert.Sage.ofRow (V c main_v22)) (Cert.Sage.ofRow (V c main_v23)))

/-- The features' block at point `t`, row `p`, column `q`, is the features' array at row `5000·t + p`, column `q`. -/
theorem iblk_h (c : Dev nD) (t : Fin cfg1.N) (p : Fin 5000) (q : Fin 128) (n : Fin 100000) (hn : n.val = 5000 * t.val + p.val) :
    (iblk1 V c 0 t : Vec Ideal S5000x128 .f32) (ix2 p q) = (V c main_v15_0 : S100000x128.Idx → EReal) (ix2 n q) := by
  obtain ⟨e0, e1, -⟩ := idx_facts t
  unfold iblk1
  rw [View.read_apply]
  show (V c main_v15_0 : S100000x128.Idx → EReal) _ = V c main_v15_0 _
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * q.val = q.val; omega

/-- The means' block at any point is the whole row. -/
theorem iblk_row1 (c : Dev nD) (t : Fin cfg1.N) (q : Fin 128) :
    (iblk1 V c 1 t : Vec Ideal S1x128 .f32) (ix2 (0 : Fin 1) q) = (V c main_v17 : S1x128.Idx → EReal) (ix2 (0 : Fin 1) q) := by
  obtain ⟨-, -, e0, e1, -⟩ := idx_facts t
  unfold iblk1
  rw [View.read_apply]
  show (V c main_v17 : S1x128.Idx → EReal) _ = V c main_v17 _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The variances' block at any point is the whole row. -/
theorem iblk_row2 (c : Dev nD) (t : Fin cfg1.N) (q : Fin 128) :
    (iblk1 V c 2 t : Vec Ideal S1x128 .f32) (ix2 (0 : Fin 1) q) = (V c main_v21 : S1x128.Idx → EReal) (ix2 (0 : Fin 1) q) := by
  obtain ⟨-, -, -, -, e0, e1, -⟩ := idx_facts t
  unfold iblk1
  rw [View.read_apply]
  show (V c main_v21 : S1x128.Idx → EReal) _ = V c main_v21 _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The scales' block at any point is the whole row. -/
theorem iblk_row3 (c : Dev nD) (t : Fin cfg1.N) (q : Fin 128) :
    (iblk1 V c 3 t : Vec Ideal S1x128 .f32) (ix2 (0 : Fin 1) q) = (V c main_v22 : S1x128.Idx → EReal) (ix2 (0 : Fin 1) q) := by
  obtain ⟨-, -, -, -, -, -, e0, e1, -⟩ := idx_facts t
  unfold iblk1
  rw [View.read_apply]
  show (V c main_v22 : S1x128.Idx → EReal) _ = V c main_v22 _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The shifts' block at any point is the whole row. -/
theorem iblk_row4 (c : Dev nD) (t : Fin cfg1.N) (q : Fin 128) :
    (iblk1 V c 4 t : Vec Ideal S1x128 .f32) (ix2 (0 : Fin 1) q) = (V c main_v23 : S1x128.Idx → EReal) (ix2 (0 : Fin 1) q) := by
  obtain ⟨-, -, -, -, -, -, -, -, e0, e1, -⟩ := idx_facts t
  unfold iblk1
  rw [View.read_apply]
  show (V c main_v23 : S1x128.Idx → EReal) _ = V c main_v23 _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Row `p`, column `q` of the result's block at point `t` sits in the result at row `5000·t + p`, column `q`. -/
theorem emb_out (t : Fin cfg1.N) (p : Fin 5000) (q : Fin 128) (n : Fin 100000) (hn : n.val = 5000 * t.val + p.val) :
    ((cfg1.win 5).blk t).view.emb (ix2 p q) = (ix2 n q : S100000x128.Idx) := by
  obtain ⟨-, -, -, -, -, -, -, -, -, -, e0, e1⟩ := idx_facts t
  refine funext fun a => Fin.ext ?_
  match a with
  | ⟨0, _⟩ => show win1_5.index t (0 : Fin 2) * 5000 + 1 * p.val = n.val; omega
  | ⟨1, _⟩ => show win1_5.index t (1 : Fin 2) * 128 + 1 * q.val = q.val; omega

/-- WHAT POINT `t` WRITES BACK is block `t` of `result`: each stored entry is the normalised entry of the features' row it
    sits on. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 20 := point_lt t
  have hn : 5000 * t.val + p.val < 100000 := by have := p.isLt; omega
  show k1_pay1 (F := Ideal) (iblk1 V c 2 t) (iblk1 V c 0 t) (iblk1 V c 1 t) (iblk1 V c 3 t) (iblk1 V c 4 t) (ix2 p q)
    = result V c (((cfg1.win 5).blk t).view.emb (ix2 p q))
  rw [emb_out t p q ⟨_, hn⟩ rfl]
  refine (BnPure.k1_pay1_apply (iblk1 V c 2 t) (iblk1 V c 0 t) (iblk1 V c 1 t) (iblk1 V c 3 t) (iblk1 V c 4 t) p q).trans ?_
  rw [iblk_h V c t p q ⟨_, hn⟩ rfl, iblk_row1 V c t q, iblk_row2 V c t q, iblk_row3 V c t q, iblk_row4 V c t q]
  rfl

/-- An index of the result is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v24).slice (win1_5.rect t)).set ↔ _
  rw [View.set_slice_whole, Rect.mem_set_unit]
  exact Iff.rfl

/-- The blocks tile the result: row `r` is in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have htv : t.val = (i 0).val / 5000 := rfl
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

open Cert.Sage in
/-- THE ARRAY after the region: the features normalised entry by entry with the four rows. -/
theorem out_arr (c : Dev nD) : (dat1 (F := Ideal) V c).arrAt 5 cfg1.N
    = toArr2 (bnrelu (Ideal.ofBits .f32 0x3727C5AC#32) (Ideal.ofBits .f32 0x00000000#32) (ofArr2 (V c main_v15_0)) (ofRow (V c main_v17)) (ofRow (V c main_v21))
        (ofRow (V c main_v22)) (ofRow (V c main_v23))) :=
  (dat1 (F := Ideal) V c).arrAt_eq_of_cover 5 (result V c) (fun t _ => flushed_eq V c t) cover

end Cert.KernelIdeal.BnValue1

end
-- ==== Proof.BnValue3.lean ====
/-
  The array the second normalisation kernel leaves, as one function of the arrays it finds.

  The kernel runs over 20 grid points. At point `t` it holds rows `5000·t … 5000·t + 4999` of the combined features and the
  whole of the four rows (column means, column variances, scales, shifts), and writes back rows `5000·t … 5000·t + 4999` of
  the result. Row `r` of the result is therefore written at point `r / 5000`, from row `r` of the features: the 20 blocks
  tile the 100000 rows, and the result is the normalised features entry by entry.
-/
import proofs.«180842_j41832981463453_1_alg».proof.Proof.KernelIdealFrameP
import proofs.«180842_j41832981463453_1_alg».proof.Proof.BnPure
import proofs.«180842_j41832981463453_1_alg».proof.Proof.Spec
import Idealize.ShloMosaic.Lib.Pipeline.Value

noncomputable section

namespace Cert.KernelIdeal.BnValue3

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however the zeros are spelt. -/
theorem hz : (![0, 0] : Fin 2 → Nat) = fun _ => 0 := funext fun a => by fin_cases a <;> rfl

/-- The printed index maps over the 20 grid points: the features' block and the result's block move with the point along the
    rows, and the four rows stay at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A grid point is one of 20. -/
theorem point_lt (t : Fin cfg3.N) : t.val < 20 := lt_of_lt_of_eq t.isLt N_3

/-- The array the region leaves: the features normalised entry by entry with the four rows. -/
def result (c : Dev nD) : S100000x128.Idx → EReal :=
  Cert.Sage.toArr2 (Cert.Sage.bnrelu (Ideal.ofBits .f32 0x3727C5AC#32) (Ideal.ofBits .f32 0x00000000#32)
    (Cert.Sage.ofArr2 (V c main_v36_0)) (Cert.Sage.ofRow (V c main_v38)) (Cert.Sage.ofRow (V c main_v42))
    (Cert.Sage.ofRow (V c main_v43)) (Cert.Sage.ofRow (V c main_v44)))

/-- The features' block at point `t`, row `p`, column `q`, is the features' array at row `5000·t + p`, column `q`. -/
theorem iblk_h (c : Dev nD) (t : Fin cfg3.N) (p : Fin 5000) (q : Fin 128) (n : Fin 100000) (hn : n.val = 5000 * t.val + p.val) :
    (iblk3 V c 0 t : Vec Ideal S5000x128 .f32) (ix2 p q) = (V c main_v36_0 : S100000x128.Idx → EReal) (ix2 n q) := by
  obtain ⟨e0, e1, -⟩ := idx_facts t
  unfold iblk3
  rw [View.read_apply]
  show (V c main_v36_0 : S100000x128.Idx → EReal) _ = V c main_v36_0 _
  refine congrArg _ (funext fun a => Fin.ext ?_)
  match a with
  | ⟨0, _⟩ => show win3_0.index t (0 : Fin 2) * 5000 + 1 * p.val = n.val; omega
  | ⟨1, _⟩ => show win3_0.index t (1 : Fin 2) * 128 + 1 * q.val = q.val; omega

/-- The means' block at any point is the whole row. -/
theorem iblk_row1 (c : Dev nD) (t : Fin cfg3.N) (q : Fin 128) :
    (iblk3 V c 1 t : Vec Ideal S1x128 .f32) (ix2 (0 : Fin 1) q) = (V c main_v38 : S1x128.Idx → EReal) (ix2 (0 : Fin 1) q) := by
  obtain ⟨-, -, e0, e1, -⟩ := idx_facts t
  unfold iblk3
  rw [View.read_apply]
  show (V c main_v38 : S1x128.Idx → EReal) _ = V c main_v38 _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- The variances' block at any point is the whole row. -/
theorem iblk_row2 (c : Dev nD) (t : Fin cfg3.N) (q : Fin 128) :
    (iblk3 V c 2 t : Vec Ideal S1x128 .f32) (ix2 (0 : Fin 1) q) = (V c main_v42 : S1x128.Idx → EReal) (ix2 (0 : Fin 1) q) := by
  obtain ⟨-, -, -, -, e0, e1, -⟩ := idx_facts t
  unfold iblk3
  rw [View.read_apply]
  show (V c main_v42 : S1x128.Idx → EReal) _ = V c main_v42 _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- The scales' block at any point is the whole row. -/
theorem iblk_row3 (c : Dev nD) (t : Fin cfg3.N) (q : Fin 128) :
    (iblk3 V c 3 t : Vec Ideal S1x128 .f32) (ix2 (0 : Fin 1) q) = (V c main_v43 : S1x128.Idx → EReal) (ix2 (0 : Fin 1) q) := by
  obtain ⟨-, -, -, -, -, -, e0, e1, -⟩ := idx_facts t
  unfold iblk3
  rw [View.read_apply]
  show (V c main_v43 : S1x128.Idx → EReal) _ = V c main_v43 _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The shifts' block at any point is the whole row. -/
theorem iblk_row4 (c : Dev nD) (t : Fin cfg3.N) (q : Fin 128) :
    (iblk3 V c 4 t : Vec Ideal S1x128 .f32) (ix2 (0 : Fin 1) q) = (V c main_v44 : S1x128.Idx → EReal) (ix2 (0 : Fin 1) q) := by
  obtain ⟨-, -, -, -, -, -, -, -, e0, e1, -⟩ := idx_facts t
  unfold iblk3
  rw [View.read_apply]
  show (V c main_v44 : S1x128.Idx → EReal) _ = V c main_v44 _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- Row `p`, column `q` of the result's block at point `t` sits in the result at row `5000·t + p`, column `q`. -/
theorem emb_out (t : Fin cfg3.N) (p : Fin 5000) (q : Fin 128) (n : Fin 100000) (hn : n.val = 5000 * t.val + p.val) :
    ((cfg3.win 5).blk t).view.emb (ix2 p q) = (ix2 n q : S100000x128.Idx) := by
  obtain ⟨-, -, -, -, -, -, -, -, -, -, e0, e1⟩ := idx_facts t
  refine funext fun a => Fin.ext ?_
  match a with
  | ⟨0, _⟩ => show win3_5.index t (0 : Fin 2) * 5000 + 1 * p.val = n.val; omega
  | ⟨1, _⟩ => show win3_5.index t (1 : Fin 2) * 128 + 1 * q.val = q.val; omega

/-- WHAT POINT `t` WRITES BACK is block `t` of `result`: each stored entry is the normalised entry of the features' row it
    sits on. -/
theorem flushed_eq (c : Dev nD) (t : Fin cfg3.N) :
    (dat3 (F := Ideal) V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 20 := point_lt t
  have hn : 5000 * t.val + p.val < 100000 := by have := p.isLt; omega
  show k3_pay1 (F := Ideal) (iblk3 V c 2 t) (iblk3 V c 0 t) (iblk3 V c 1 t) (iblk3 V c 3 t) (iblk3 V c 4 t) (ix2 p q)
    = result V c (((cfg3.win 5).blk t).view.emb (ix2 p q))
  rw [emb_out t p q ⟨_, hn⟩ rfl]
  refine (BnPure.k3_pay1_apply (iblk3 V c 2 t) (iblk3 V c 0 t) (iblk3 V c 1 t) (iblk3 V c 3 t) (iblk3 V c 4 t) p q).trans ?_
  rw [iblk_h V c t p q ⟨_, hn⟩ rfl, iblk_row1 V c t q, iblk_row2 V c t q, iblk_row3 V c t q, iblk_row4 V c t q]
  rfl

/-- An index of the result is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v45).slice (win3_5.rect t)).set ↔ _
  rw [View.set_slice_whole, Rect.mem_set_unit]
  exact Iff.rfl

/-- The blocks tile the result: row `r` is in the block of point `r / 5000`. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have htv : t.val = (i 0).val / 5000 := rfl
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

open Cert.Sage in
/-- THE ARRAY after the region: the features normalised entry by entry with the four rows. -/
theorem out_arr (c : Dev nD) : (dat3 (F := Ideal) V c).arrAt 5 cfg3.N
    = toArr2 (bnrelu (Ideal.ofBits .f32 0x3727C5AC#32) (Ideal.ofBits .f32 0x00000000#32) (ofArr2 (V c main_v36_0)) (ofRow (V c main_v38)) (ofRow (V c main_v42))
        (ofRow (V c main_v43)) (ofRow (V c main_v44))) :=
  (dat3 (F := Ideal) V c).arrAt_eq_of_cover 5 (result V c) (fun t _ => flushed_eq V c t) cover

end Cert.KernelIdeal.BnValue3

end
-- ==== Proof.MlpPure.lean ====
/-
  The perceptron head on arrays, read at an index.

  Three dense layers X·W + b, the first two clamped at zero. On the extended reals a change of float format is the
  identity and a matrix product into a zero accumulator is the plain sum of products over the contracted axis, so
  the value the kernel body computes at row r, column c of its block is the head's value at that row of the block.
  Every entry of a row of the result depends on that row of the features only (and on all of the weights): the head
  of a block of rows and the head of the whole array are two instances of one function of the number of rows, and
  they agree at two rows whose features agree.
-/
import proofs.«180842_j41832981463453_1_alg».proof.Proof.Spec
import proofs.«180842_j41832981463453_1_alg».proof.Proof.LibPlainDot
import proofs.«180842_j41832981463453_1_alg».proof.Proof.Gen.KernelIdeal.Skeleton
import Idealize.ShloMosaic.Lib.Pipeline.Value

noncomputable section

namespace Cert.KernelIdeal.MlpPure

open Idealize.ShloMosaic Idealize.ShloMosaic.ValueIdx Cert.Sage
open Cert.KernelIdeal Cert.KernelIdeal.Gen

/-- The head of R rows as an array, from its operands as arrays: features [R,128], two square weight matrices with
    their rows of biases, and the last layer's [128,2] weights and [1,2] biases. -/
def head (R : ℕ) (x : (⟨2, ![R, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (w3 : (⟨2, ![128, 2]⟩ : Shape).Idx → EReal)
    (b3 : (⟨2, ![1, 2]⟩ : Shape).Idx → EReal) : (⟨2, ![R, 2]⟩ : Shape).Idx → EReal :=
  toArr2 (mlp (Ideal.ofBits .f32 0x00000000#32) (ofArr2 x) (ofArr2 w1) (ofRow b1) (ofArr2 w2) (ofRow b2) (ofArr2 w3) (ofRow b3))

/-- The head at row r depends on the features' row r only: two heads, of any numbers of rows, over the same weights
    agree at rows r and r' once the features do, and the weights need only agree entry by entry. -/
theorem head_congr {R R' : ℕ} (x : (⟨2, ![R, 128]⟩ : Shape).Idx → EReal) (x' : (⟨2, ![R', 128]⟩ : Shape).Idx → EReal)
    (w1 w1' : (⟨2, ![128, 128]⟩ : Shape).Idx → EReal) (b1 b1' : (⟨2, ![1, 128]⟩ : Shape).Idx → EReal)
    (w2 w2' : (⟨2, ![128, 128]⟩ : Shape).Idx → EReal) (b2 b2' : (⟨2, ![1, 128]⟩ : Shape).Idx → EReal)
    (w3 w3' : (⟨2, ![128, 2]⟩ : Shape).Idx → EReal) (b3 b3' : (⟨2, ![1, 2]⟩ : Shape).Idx → EReal)
    (j : (⟨2, ![R, 2]⟩ : Shape).Idx) (j' : (⟨2, ![R', 2]⟩ : Shape).Idx)
    (hx : ∀ k : Fin 128, x (ix2 (j 0) k) = x' (ix2 (j' 0) k)) (hj : (j 1 : Fin 2) = j' 1)
    (hw1 : ∀ i, w1 i = w1' i) (hb1 : ∀ i, b1 i = b1' i) (hw2 : ∀ i, w2 i = w2' i) (hb2 : ∀ i, b2 i = b2' i)
    (hw3 : ∀ i, w3 i = w3' i) (hb3 : ∀ i, b3 i = b3' i) :
    head R x w1 b1 w2 b2 w3 b3 j = head R' x' w1' b1' w2' b2' w3' b3' j' := by
  obtain rfl : w1 = w1' := funext hw1
  obtain rfl : b1 = b1' := funext hb1
  obtain rfl : w2 = w2' := funext hw2
  obtain rfl : b2 = b2' := funext hb2
  obtain rfl : w3 = w3' := funext hw3
  obtain rfl : b3 = b3' := funext hb3
  have h1 : ∀ k : Fin 128, denseRelu (Ideal.ofBits .f32 0x00000000#32) (ofArr2 x) (ofArr2 w1) (ofRow b1) (j 0) k
      = denseRelu (Ideal.ofBits .f32 0x00000000#32) (ofArr2 x') (ofArr2 w1) (ofRow b1) (j' 0) k := fun k => by
    unfold denseRelu dense dot ofArr2
    simp only [hx]
  have h2 : ∀ k : Fin 128,
      denseRelu (Ideal.ofBits .f32 0x00000000#32) (denseRelu (Ideal.ofBits .f32 0x00000000#32) (ofArr2 x) (ofArr2 w1) (ofRow b1)) (ofArr2 w2) (ofRow b2) (j 0) k
      = denseRelu (Ideal.ofBits .f32 0x00000000#32) (denseRelu (Ideal.ofBits .f32 0x00000000#32) (ofArr2 x') (ofArr2 w1) (ofRow b1)) (ofArr2 w2) (ofRow b2) (j' 0) k := fun k => by
    unfold denseRelu dense dot at h1 ⊢
    simp only [h1]
  show dense _ _ _ (j 0) (j 1) = dense _ _ _ (j' 0) (j' 1)
  unfold dense dot
  simp only [h2, hj]

/-! ## The body's arithmetic at an index -/

/-- One dense layer as the body computes it — a matrix product into a zero accumulator plus the row b repeated on
    every row — at row r, column c, when the left operand's entries are those of the matrix L. -/
theorem dense_apply (R K C : ℕ) {φ₁ φ₂ : FTy} (l : FVec Ideal (⟨2, ![R, K]⟩ : Shape) φ₁) (w : FVec Ideal (⟨2, ![K, C]⟩ : Shape) φ₂)
    (b : FVec Ideal (⟨2, ![1, C]⟩ : Shape) .f32) (hb : (⟨2, ![1, C]⟩ : Shape).Broadcasts (⟨2, ![R, C]⟩ : Shape))
    (L : Mat R K) (hl : ∀ r k, l (ix2 r k) = L r k) (r : Fin R) (c : Fin C) :
    addf (matmul (DotDims.plain R K C) none l w (constant (⟨2, ![R, C]⟩ : Shape) .f32 0x00000000#32))
        (broadcastTo (⟨2, ![R, C]⟩ : Shape) b hb) (ix2 r c)
      = dense L (ofArr2 w) (ofRow b) r c := by
  have e1 := Cert.PlainDot.matmul_zero_apply R K C none l w (ix2 r c)
  have e2 : broadcastTo (⟨2, ![R, C]⟩ : Shape) b hb (ix2 r c) = b (ix2 (0 : Fin 1) c) :=
    broadcastTo_apply b hb (ix2 r c) (ix2 (0 : Fin 1) c) fun a => by
      match a with
      | ⟨0, _⟩ => rfl
      | ⟨1, _⟩ =>
        show c.val = if C = 1 then 0 else c.val
        by_cases h : C = 1
        · rw [if_pos h]; have := c.isLt; omega
        · rw [if_neg h]
  refine (congrArg₂ (· + ·) e1 e2).trans ?_
  refine congrArg (· + b (ix2 (0 : Fin 1) c)) (Finset.sum_congr rfl fun k _ => ?_)
  exact congrArg (· * w (ix2 k c)) (hl r k)

/-- The same clamped at zero by a maximum against the zero splat. -/
theorem denseRelu_apply (R K C : ℕ) {φ₁ φ₂ : FTy} (l : FVec Ideal (⟨2, ![R, K]⟩ : Shape) φ₁) (w : FVec Ideal (⟨2, ![K, C]⟩ : Shape) φ₂)
    (b : FVec Ideal (⟨2, ![1, C]⟩ : Shape) .f32) (hb : (⟨2, ![1, C]⟩ : Shape).Broadcasts (⟨2, ![R, C]⟩ : Shape))
    (L : Mat R K) (hl : ∀ r k, l (ix2 r k) = L r k) (r : Fin R) (c : Fin C) :
    maximumf (addf (matmul (DotDims.plain R K C) none l w (constant (⟨2, ![R, C]⟩ : Shape) .f32 0x00000000#32))
        (broadcastTo (⟨2, ![R, C]⟩ : Shape) b hb)) (broadcast (⟨2, ![R, C]⟩ : Shape) (Scalar.ofBits (F := Ideal) .f32 0x00000000#32)) (ix2 r c)
      = denseRelu (Ideal.ofBits .f32 0x00000000#32) L (ofArr2 w) (ofRow b) r c :=
  congrArg (max · (Ideal.ofBits .f32 0x00000000#32)) (dense_apply R K C l w b hb L hl r c)

/-- The value the body stores is the head of its block of 5000 rows: the format changes are the identity, the three
    products are sums over the 128 features, and each layer reads the layer before at the same row. -/
theorem pay_eq (x0 : Vec Ideal S5000x128 .f32) (x1 : Vec Ideal S128x128 .f32) (x2 : Vec Ideal S1x128 .f32)
    (x3 : Vec Ideal S128x128 .f32) (x4 : Vec Ideal S1x128 .f32) (x5 : Vec Ideal S128x2 .f32) (x6 : Vec Ideal S1x2 .f32) :
    k4_pay1 (F := Ideal) x0 x1 x2 x3 x4 x5 x6 = head 5000 x0 x1 x2 x3 x4 x5 x6 := by
  funext j
  obtain ⟨r, c, rfl⟩ : ∃ (r : Fin 5000) (c : Fin 2), j = ix2 r c := ⟨j 0, j 1, eq_ix2 j⟩
  unfold k4_pay1
  simp only [shapeCast_self]
  exact dense_apply 5000 128 2 (φ₁ := .bf16) (φ₂ := .bf16) _ _ _ _
    (denseRelu (Ideal.ofBits .f32 0x00000000#32) (denseRelu (Ideal.ofBits .f32 0x00000000#32) (ofArr2 x0) (ofArr2 x1) (ofRow x2)) (ofArr2 x3) (ofRow x4))
    (fun r' k' => denseRelu_apply 5000 128 128 (φ₁ := .bf16) (φ₂ := .bf16) _ _ _ _
      (denseRelu (Ideal.ofBits .f32 0x00000000#32) (ofArr2 x0) (ofArr2 x1) (ofRow x2))
      (fun r'' k'' => denseRelu_apply 5000 128 128 (φ₁ := .bf16) (φ₂ := .bf16) _ _ _ _ (ofArr2 x0) (fun _ _ => rfl) r'' k'') r' k') r c

end Cert.KernelIdeal.MlpPure

end
-- ==== Proof.MlpValue4.lean ====
/-
  What the perceptron head's region leaves in its result array.

  The region runs the head's body at 20 grid points. Point t stages rows 5000·t … 5000·t + 4999 of the features
  (block (t, 0) of the [100000,128] array) and the whole of each weight matrix and bias row (block (0, 0) of an
  array of the block's own shape), and writes back block (t, 0) of the [100000,2] result. The body's value at row r
  of its block is the head at that row of the block, which is the head of the whole array at row 5000·t + r,
  because a row of the head reads that row of the features only. The 20 result blocks tile the result array
  (row i lies in block i / 5000), so after the run the array holds the head of the whole feature array.
-/
import proofs.«180842_j41832981463453_1_alg».proof.Proof.KernelIdealFrameP
import proofs.«180842_j41832981463453_1_alg».proof.Proof.MlpPure

noncomputable section

namespace Cert.KernelIdeal.MlpValue4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.MlpPure

variable (V : (c : Dev nD) → (b : Ref sig .tc) → Buf (Elt Ideal) ((c : Thread nD τ).loc b))

/-- The zero offsets of a load or store of a whole staging buffer. -/
theorem hz : (![0, 0] : Fin 2 → Nat) = fun _ => 0 := funext fun a => by fin_cases a <;> rfl

/-- The block indices at every grid point: the features' block moves with the result's down the rows, every other
    block index is zero, and the result's row-block index is below 20. -/
theorem idx_facts : ∀ t : Fin cfg4.N,
    win4_0.index t (0 : Fin 2) = win4_7.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (1 : Fin 2) = 0 ∧ win4_7.index t (0 : Fin 2) ≤ 19 :=
  (by decide +kernel : ∀ t : Fin grid4.N, _)

/-- Every row block of the result is some point's. -/
theorem idx_onto : ∀ q : Fin 20, ∃ t : Fin cfg4.N, win4_7.index t = ![q.val, 0] :=
  (by decide +kernel : ∀ q : Fin 20, ∃ t : Fin grid4.N, win4_7.index t = ![q.val, 0])

/-- What point t writes back is block t of the head of the whole feature array. -/
theorem flushed_eq (c : Dev nD) (t : Fin cfg4.N) :
    (dat4 (F := Ideal) V c).flushed 7 t = ((cfg4.win 7).blk t).view.read (Elt Ideal)
      (head 100000 (V c main_v45 : FVec Ideal S100000x128 .f32) (V c main_arg12 : FVec Ideal S128x128 .f32)
        (V c main_v46 : FVec Ideal S1x128 .f32) (V c main_arg14 : FVec Ideal S128x128 .f32)
        (V c main_v47 : FVec Ideal S1x128 .f32) (V c main_arg16 : FVec Ideal S128x2 .f32)
        (V c main_v48 : FVec Ideal S1x2 .f32)) := by
  show (cfg4.win 7).cut (grid4.coords t) ((dat4 V c).after 7 t) = _
  rw [after4_7]
  unfold out4_7
  rw [View.canon_unit_zero hz]
  simp only [View.ld_unit_zero (S := S5000x128) hz, View.ld_unit_zero (S := S128x128) hz, View.ld_unit_zero (S := S1x128) hz,
    View.ld_unit_zero (S := S128x2) hz, View.ld_unit_zero (S := S1x2) hz]
  obtain ⟨e00, e01, e10, e11, e20, e21, e30, e31, e40, e41, e50, e51, e60, e61, e71, -⟩ := idx_facts t
  funext j
  refine (congrFun (pay_eq _ _ _ _ _ _ _) j).trans ?_
  show head 5000 _ _ _ _ _ _ _ j = head 100000 _ _ _ _ _ _ _ (((cfg4.win 7).blk t).view.emb j)
  refine head_congr _ _ _ _ _ _ _ _ _ _ _ _ _ _ j _ (fun k => ?_) ?_ (fun i => ?_) (fun i => ?_) (fun i => ?_) (fun i => ?_) (fun i => ?_) (fun i => ?_)
  · show V c main_v45 (((cfg4.win 0).blk t).view.emb (ix2 (j 0) k)) = V c main_v45 (ix2 ((((cfg4.win 7).blk t).view.emb j) 0) k)
    refine congrArg _ (funext fun a => Fin.ext ?_)
    match a with
    | ⟨0, _⟩ => show win4_0.index t (0 : Fin 2) * 5000 + 1 * (j 0).val = win4_7.index t (0 : Fin 2) * 5000 + 1 * (j 0).val; omega
    | ⟨1, _⟩ => show win4_0.index t (1 : Fin 2) * 128 + 1 * k.val = k.val; omega
  · apply Fin.ext
    show (j 1).val = win4_7.index t (1 : Fin 2) * 2 + 1 * (j 1).val
    omega
  · show V c main_arg12 (((cfg4.win 1).blk t).view.emb i) = V c main_arg12 i
    refine congrArg _ (funext fun a => Fin.ext ?_)
    match a with
    | ⟨0, _⟩ => show win4_1.index t (0 : Fin 2) * 128 + 1 * (i 0).val = (i 0).val; omega
    | ⟨1, _⟩ => show win4_1.index t (1 : Fin 2) * 128 + 1 * (i 1).val = (i 1).val; omega
  · show V c main_v46 (((cfg4.win 2).blk t).view.emb i) = V c main_v46 i
    refine congrArg _ (funext fun a => Fin.ext ?_)
    match a with
    | ⟨0, _⟩ => show win4_2.index t (0 : Fin 2) * 1 + 1 * (i 0).val = (i 0).val; omega
    | ⟨1, _⟩ => show win4_2.index t (1 : Fin 2) * 128 + 1 * (i 1).val = (i 1).val; omega
  · show V c main_arg14 (((cfg4.win 3).blk t).view.emb i) = V c main_arg14 i
    refine congrArg _ (funext fun a => Fin.ext ?_)
    match a with
    | ⟨0, _⟩ => show win4_3.index t (0 : Fin 2) * 128 + 1 * (i 0).val = (i 0).val; omega
    | ⟨1, _⟩ => show win4_3.index t (1 : Fin 2) * 128 + 1 * (i 1).val = (i 1).val; omega
  · show V c main_v47 (((cfg4.win 4).blk t).view.emb i) = V c main_v47 i
    refine congrArg _ (funext fun a => Fin.ext ?_)
    match a with
    | ⟨0, _⟩ => show win4_4.index t (0 : Fin 2) * 1 + 1 * (i 0).val = (i 0).val; omega
    | ⟨1, _⟩ => show win4_4.index t (1 : Fin 2) * 128 + 1 * (i 1).val = (i 1).val; omega
  · show V c main_arg16 (((cfg4.win 5).blk t).view.emb i) = V c main_arg16 i
    refine congrArg _ (funext fun a => Fin.ext ?_)
    match a with
    | ⟨0, _⟩ => show win4_5.index t (0 : Fin 2) * 128 + 1 * (i 0).val = (i 0).val; omega
    | ⟨1, _⟩ => show win4_5.index t (1 : Fin 2) * 2 + 1 * (i 1).val = (i 1).val; omega
  · show V c main_v48 (((cfg4.win 6).blk t).view.emb i) = V c main_v48 i
    refine congrArg _ (funext fun a => Fin.ext ?_)
    match a with
    | ⟨0, _⟩ => show win4_6.index t (0 : Fin 2) * 1 + 1 * (i 0).val = (i 0).val; omega
    | ⟨1, _⟩ => show win4_6.index t (1 : Fin 2) * 2 + 1 * (i 1).val = (i 1).val; omega

/-- An index of the result array is in point t's block iff each coordinate is in the block's range on its axis. -/
theorem mem_blk (t : Fin cfg4.N) (i : S100000x2.Idx) :
    i ∈ ((cfg4.win 7).blk t).view.set ↔ ∀ a : Fin 2, win4_7.index t a * S5000x2.size a ≤ (i a).val ∧ (i a).val < win4_7.index t a * S5000x2.size a + S5000x2.size a := by
  show i ∈ ((View.whole main_v49).slice (win4_7.rect t)).set ↔ _
  rw [View.set_slice_whole, Rect.mem_set_unit]
  exact Iff.rfl

/-- The result blocks cover the result array: row i is in the block of the point whose row-block index is i / 5000. -/
theorem cover (i : S100000x2.Idx) : ∃ t : Fin cfg4.N, (cfg4.win 7).flush t = true ∧ i ∈ ((cfg4.win 7).blk t).view.set := by
  have hi0 : (i 0).val < 100000 := (i 0).isLt
  have hi1 : (i 1).val < 2 := (i 1).isLt
  obtain ⟨t, ht⟩ := idx_onto ⟨(i 0).val / 5000, by omega⟩
  have q0 : win4_7.index t (0 : Fin 2) = (i 0).val / 5000 := congrFun ht 0
  have q1 : win4_7.index t (1 : Fin 2) = 0 := congrFun ht 1
  refine ⟨t, flush4_7 t, ?_⟩
  rw [mem_blk]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 2 ≤ (i 1).val ∧ (i 1).val < win4_7.index t (1 : Fin 2) * 2 + 2; omega

open Cert.Sage in
/-- THE RESULT ARRAY after the region: the perceptron head of the feature array and the weights as the region finds them. -/
theorem out_arr (c : Dev nD) : (dat4 (F := Ideal) V c).arrAt 7 cfg4.N
    = toArr2 (mlp (Ideal.ofBits .f32 0x00000000#32) (ofArr2 (V c main_v45)) (ofArr2 (V c main_arg12)) (ofRow (V c main_v46))
        (ofArr2 (V c main_arg14)) (ofRow (V c main_v47)) (ofArr2 (V c main_arg16)) (ofRow (V c main_v48))) :=
  (dat4 (F := Ideal) V c).arrAt_eq_of_cover 7 _ (fun t _ => flushed_eq V c t) cover

end Cert.KernelIdeal.MlpValue4

end
-- ==== Proof.KernelValue.lean ====
/-
  The idealized kernel program's result array holds the function `G` of its launch memory.

  The run's fold of buffer contents is read back region by region: the combining kernel's three arrays are the
  combination `H`, its column sums and the column sums of its squares; the host divides the sums by the node count and
  subtracts the squared mean; the normalising kernel's array is the layer's value; the second layer repeats this on
  the first layer's value, aggregated anew over the same edges; the perceptron kernel's array is the head applied to
  the second layer's value.
-/
import proofs.«180842_j41832981463453_1_alg».proof.Proof.KernelIdealFrameP
import proofs.«180842_j41832981463453_1_alg».proof.Proof.KernelSpec
import proofs.«180842_j41832981463453_1_alg».proof.Proof.KernelFold
import proofs.«180842_j41832981463453_1_alg».proof.Proof.AggKernelRun
import proofs.«180842_j41832981463453_1_alg».proof.Proof.LinValue0
import proofs.«180842_j41832981463453_1_alg».proof.Proof.LinValue2
import proofs.«180842_j41832981463453_1_alg».proof.Proof.BnValue1
import proofs.«180842_j41832981463453_1_alg».proof.Proof.BnValue3
import proofs.«180842_j41832981463453_1_alg».proof.Proof.MlpValue4

noncomputable section

namespace Cert.KernelIdeal.KValue

open Idealize.ShloMosaic Idealize.ShloMosaic.TcCoe Idealize.SL.Sem
open Cert.KernelIdeal Cert.KernelIdeal.Gen Cert.KernelIdeal.GenP Cert.KernelIdeal.Glue Cert.Sage

variable (m : (ℓ : Loc nD τ sig) → Buf (Elt Ideal) ℓ) (ρ : Dev nD → PrngReg) (c : Dev nD)

/-- Region 0: the first combination and its two rows of sums. -/
theorem h0_arr : (dat0 (V1 m ρ) c).arrAt 5 cfg0.N = toArr2 (H0 m c) := by
  have eA : ofArr2 (V1 m ρ c main_v13) = aggK m c (ofArr2 (arg m c main_arg0)) := by
    rw [AggK.in0_0 m ρ c]; unfold aggK arg; rw [toArr2_ofArr2]
  have eX : ofArr2 (V1 m ρ c main_arg0) = ofArr2 (arg m c main_arg0) := by
    rw [KFold.in0_1 m ρ c]
  have eWl : ofArr2 (V1 m ρ c main_arg2) = ofArr2 (arg m c main_arg2) := by rw [KFold.in0_2 m ρ c]
  have eBl : ofRow (V1 m ρ c main_v14) = ofArr1 (arg m c main_arg3) := by rw [KFold.in0_3 m ρ c]; exact ofRow_reshape128 _
  have eWr : ofArr2 (V1 m ρ c main_arg4) = ofArr2 (arg m c main_arg4) := by rw [KFold.in0_4 m ρ c]
  rw [LinValue0.h_arr (V1 m ρ) c, eA, eX, eWl, eBl, eWr]
  rfl
theorem s0_arr : (dat0 (V1 m ρ) c).arrAt 6 cfg0.N = toRow (colsum (H0 m c)) := by
  have eA : ofArr2 (V1 m ρ c main_v13) = aggK m c (ofArr2 (arg m c main_arg0)) := by
    rw [AggK.in0_0 m ρ c]; unfold aggK arg; rw [toArr2_ofArr2]
  have eX : ofArr2 (V1 m ρ c main_arg0) = ofArr2 (arg m c main_arg0) := by
    rw [KFold.in0_1 m ρ c]
  have eWl : ofArr2 (V1 m ρ c main_arg2) = ofArr2 (arg m c main_arg2) := by rw [KFold.in0_2 m ρ c]
  have eBl : ofRow (V1 m ρ c main_v14) = ofArr1 (arg m c main_arg3) := by rw [KFold.in0_3 m ρ c]; exact ofRow_reshape128 _
  have eWr : ofArr2 (V1 m ρ c main_arg4) = ofArr2 (arg m c main_arg4) := by rw [KFold.in0_4 m ρ c]
  rw [LinValue0.s_arr (V1 m ρ) c, eA, eX, eWl, eBl, eWr]
  rfl
theorem q0_arr : (dat0 (V1 m ρ) c).arrAt 7 cfg0.N = toRow (colsumsq (H0 m c)) := by
  have eA : ofArr2 (V1 m ρ c main_v13) = aggK m c (ofArr2 (arg m c main_arg0)) := by
    rw [AggK.in0_0 m ρ c]; unfold aggK arg; rw [toArr2_ofArr2]
  have eX : ofArr2 (V1 m ρ c main_arg0) = ofArr2 (arg m c main_arg0) := by
    rw [KFold.in0_1 m ρ c]
  have eWl : ofArr2 (V1 m ρ c main_arg2) = ofArr2 (arg m c main_arg2) := by rw [KFold.in0_2 m ρ c]
  have eBl : ofRow (V1 m ρ c main_v14) = ofArr1 (arg m c main_arg3) := by rw [KFold.in0_3 m ρ c]; exact ofRow_reshape128 _
  have eWr : ofArr2 (V1 m ρ c main_arg4) = ofArr2 (arg m c main_arg4) := by rw [KFold.in0_4 m ρ c]
  rw [LinValue0.q_arr (V1 m ρ) c, eA, eX, eWl, eBl, eWr]
  rfl

/-- Region 1: the first layer's value. -/
theorem x1_arr : (dat1 (V3 m ρ) c).arrAt 5 cfg1.N = toArr2 (X1 m c) := by
  have eH : ofArr2 (V3 m ρ c main_v15_0) = H0 m c := by
    rw [KFold.in1_0 m ρ c, h0_arr m ρ c]; rfl
  have eMu : ofRow (V3 m ρ c main_v17) = mean cN (H0 m c) := by
    rw [KFold.in1_1 m ρ c, s0_arr m ρ c]; exact mean_of_sums (H0 m c) _ rfl
  have eV : ofRow (V3 m ρ c main_v21) = varK cN (H0 m c) := by
    rw [KFold.in1_2 m ρ c, s0_arr m ρ c, q0_arr m ρ c]; exact var_of_sums (H0 m c) _ _ rfl rfl
  have eG : ofRow (V3 m ρ c main_v22) = ofArr1 (arg m c main_arg8) := by rw [KFold.in1_3 m ρ c]; exact ofRow_reshape128 _
  have eB : ofRow (V3 m ρ c main_v23) = ofArr1 (arg m c main_arg9) := by rw [KFold.in1_4 m ρ c]; exact ofRow_reshape128 _
  rw [BnValue1.out_arr (V3 m ρ) c, eH, eMu, eV, eG, eB]
  rfl

/-- Region 2: the second combination and its two rows of sums. -/
theorem h1_arr : (dat2 (V5 m ρ) c).arrAt 5 cfg2.N = toArr2 (H1 m c) := by
  have eA : ofArr2 (V5 m ρ c main_v34) = aggK m c (X1 m c) := by
    rw [AggK.in2_0 m ρ c, x1_arr m ρ c]; rfl
  have eX : ofArr2 (V5 m ρ c main_v24) = X1 m c := by
    rw [KFold.in2_1 m ρ c, x1_arr m ρ c]; rfl
  have eWl : ofArr2 (V5 m ρ c main_arg5) = ofArr2 (arg m c main_arg5) := by rw [KFold.in2_2 m ρ c]
  have eBl : ofRow (V5 m ρ c main_v35) = ofArr1 (arg m c main_arg6) := by rw [KFold.in2_3 m ρ c]; exact ofRow_reshape128 _
  have eWr : ofArr2 (V5 m ρ c main_arg7) = ofArr2 (arg m c main_arg7) := by rw [KFold.in2_4 m ρ c]
  rw [LinValue2.h_arr (V5 m ρ) c, eA, eX, eWl, eBl, eWr]
  rfl
theorem s1_arr : (dat2 (V5 m ρ) c).arrAt 6 cfg2.N = toRow (colsum (H1 m c)) := by
  have eA : ofArr2 (V5 m ρ c main_v34) = aggK m c (X1 m c) := by
    rw [AggK.in2_0 m ρ c, x1_arr m ρ c]; rfl
  have eX : ofArr2 (V5 m ρ c main_v24) = X1 m c := by
    rw [KFold.in2_1 m ρ c, x1_arr m ρ c]; rfl
  have eWl : ofArr2 (V5 m ρ c main_arg5) = ofArr2 (arg m c main_arg5) := by rw [KFold.in2_2 m ρ c]
  have eBl : ofRow (V5 m ρ c main_v35) = ofArr1 (arg m c main_arg6) := by rw [KFold.in2_3 m ρ c]; exact ofRow_reshape128 _
  have eWr : ofArr2 (V5 m ρ c main_arg7) = ofArr2 (arg m c main_arg7) := by rw [KFold.in2_4 m ρ c]
  rw [LinValue2.s_arr (V5 m ρ) c, eA, eX, eWl, eBl, eWr]
  rfl
theorem q1_arr : (dat2 (V5 m ρ) c).arrAt 7 cfg2.N = toRow (colsumsq (H1 m c)) := by
  have eA : ofArr2 (V5 m ρ c main_v34) = aggK m c (X1 m c) := by
    rw [AggK.in2_0 m ρ c, x1_arr m ρ c]; rfl
  have eX : ofArr2 (V5 m ρ c main_v24) = X1 m c := by
    rw [KFold.in2_1 m ρ c, x1_arr m ρ c]; rfl
  have eWl : ofArr2 (V5 m ρ c main_arg5) = ofArr2 (arg m c main_arg5) := by rw [KFold.in2_2 m ρ c]
  have eBl : ofRow (V5 m ρ c main_v35) = ofArr1 (arg m c main_arg6) := by rw [KFold.in2_3 m ρ c]; exact ofRow_reshape128 _
  have eWr : ofArr2 (V5 m ρ c main_arg7) = ofArr2 (arg m c main_arg7) := by rw [KFold.in2_4 m ρ c]
  rw [LinValue2.q_arr (V5 m ρ) c, eA, eX, eWl, eBl, eWr]
  rfl

/-- Region 3: the second layer's value. -/
theorem x2_arr : (dat3 (V7 m ρ) c).arrAt 5 cfg3.N = toArr2 (X2 m c) := by
  have eH : ofArr2 (V7 m ρ c main_v36_0) = H1 m c := by
    rw [KFold.in3_0 m ρ c, h1_arr m ρ c]; rfl
  have eMu : ofRow (V7 m ρ c main_v38) = mean cN (H1 m c) := by
    rw [KFold.in3_1 m ρ c, s1_arr m ρ c]; exact mean_of_sums (H1 m c) _ rfl
  have eV : ofRow (V7 m ρ c main_v42) = varK cN (H1 m c) := by
    rw [KFold.in3_2 m ρ c, s1_arr m ρ c, q1_arr m ρ c]; exact var_of_sums (H1 m c) _ _ rfl rfl
  have eG : ofRow (V7 m ρ c main_v43) = ofArr1 (arg m c main_arg10) := by rw [KFold.in3_3 m ρ c]; exact ofRow_reshape128 _
  have eB : ofRow (V7 m ρ c main_v44) = ofArr1 (arg m c main_arg11) := by rw [KFold.in3_4 m ρ c]; exact ofRow_reshape128 _
  rw [BnValue3.out_arr (V7 m ρ) c, eH, eMu, eV, eG, eB]
  rfl

/-- Region 4 and the result: the head applied to the second layer's value. -/
theorem value : W10 m ρ c (Proc.devRef .tc main_v49) = G m c := by
  have e0 : ofArr2 (V9 m ρ c main_v45) = X2 m c := by rw [KFold.in4_0 m ρ c, x2_arr m ρ c]; rfl
  have e1 : ofArr2 (V9 m ρ c main_arg12) = ofArr2 (arg m c main_arg12) := by rw [KFold.in4_1 m ρ c]
  have e2 : ofRow (V9 m ρ c main_v46) = ofArr1 (arg m c main_arg13) := by rw [KFold.in4_2 m ρ c]; exact ofRow_reshape128 _
  have e3 : ofArr2 (V9 m ρ c main_arg14) = ofArr2 (arg m c main_arg14) := by rw [KFold.in4_3 m ρ c]
  have e4 : ofRow (V9 m ρ c main_v47) = ofArr1 (arg m c main_arg15) := by rw [KFold.in4_4 m ρ c]; exact ofRow_reshape128 _
  have e5 : ofArr2 (V9 m ρ c main_arg16) = ofArr2 (arg m c main_arg16) := by rw [KFold.in4_5 m ρ c]
  have e6 : ofRow (V9 m ρ c main_v48) = ofArr1 (arg m c main_arg17) := by rw [KFold.in4_6 m ρ c]; exact ofRow_reshape2 _
  rw [KFold.out_v49 m ρ c, MlpValue4.out_arr (V9 m ρ) c, e0, e1, e2, e3, e4, e5, e6]
  rfl

end Cert.KernelIdeal.KValue

end
-- ==== Proof.RefFold.lean ====
/-
  The reference's result read back: the fold of the operation list at the result buffer is the network of
  RefStages.lean applied to the contents of the eighteen argument buffers, at any float instance.

  Each stretch is read on its own over a variable valuation: the fold unrolled, each operation's result at its own
  buffer is its function's value and at another buffer what was there, and what is left is the stage function's own
  definition (the typed references of the called functions carry casts along equations between a buffer's type and
  itself, which are the identity). The stretches then compose: a stretch leaves what it does not write, so each
  stage's operands are the earlier stages' results and the arguments.
-/
import proofs.«180842_j41832981463453_1_alg».proof.Proof.RefKeep
import proofs.«180842_j41832981463453_1_alg».proof.Proof.RefStages

noncomputable section

namespace Cert.ReferenceIdeal.RefRun

open Idealize.ShloMosaic Idealize.ShloMosaic.TcCoe Idealize.SL.Sem Idealize.ShloMosaic.StableHlo Cert.ReferenceIdeal Cert.ReferenceIdeal.Facts₀

variable {F : FTy → Type} [FloatOps F]

/-! ## The stretches, one by one

Over a variable valuation: the fold unrolled and each buffer read back to the operation that wrote it, what is left is
the stage function's definition. -/

set_option maxRecDepth 8192 in
/-- Stretch 0 computes the aggregation of the features along the edge list. -/
theorem w0_v13 (V : Valuation τ sig (Elt F)) :
    after ops_w0 V (Proc.devRef .tc main_v13)
      = Stage.agg (Stage.srcIdx (V (Proc.devRef .tc main_arg1))) (Stage.dstIdx (V (Proc.devRef .tc main_arg1))) (V (Proc.devRef .tc main_arg0)) := by
  after_results_simp
  rfl

set_option maxRecDepth 8192 in
/-- Stretch 1 computes the linear combination. -/
theorem w1_v19 (V : Valuation τ sig (Elt F)) :
    after ops_w1 V (Proc.devRef .tc main_v19)
      = Stage.lin (V (Proc.devRef .tc main_v13)) (V (Proc.devRef .tc main_arg0)) (V (Proc.devRef .tc main_arg2)) (V (Proc.devRef .tc main_arg3)) (V (Proc.devRef .tc main_arg4)) := by
  after_results_simp
  rfl

set_option maxRecDepth 8192 in
/-- Stretch 2 computes the column means. -/
theorem w2_v22 (V : Valuation τ sig (Elt F)) :
    after ops_w2 V (Proc.devRef .tc main_v22)
      = Stage.colMean (V (Proc.devRef .tc main_v19)) := by
  after_results_simp
  rfl

set_option maxRecDepth 8192 in
/-- Stretch 2 also writes the zero word of degrees of freedom the variance takes. -/
theorem w2_c3 (V : Valuation τ sig (Elt F)) :
    after ops_w2 V (Proc.devRef .tc main_c_3)
      = (constantI S_ 32 0#32 : IVec S_ 32) := by
  after_results_simp

set_option maxRecDepth 8192 in
/-- Stretch 3, the variance function's body, computes the column variances. -/
theorem w3_v23 (V : Valuation τ sig (Elt F)) :
    after ops_w3 V (Proc.devRef .tc main_v23)
      = Stage.colVar (V (Proc.devRef .tc main_v19)) (V (Proc.devRef .tc main_c_3)) := by
  after_results_simp
  rfl

set_option maxRecDepth 8192 in
/-- Stretch 4 normalises, scales, shifts and clamps. -/
theorem w4_v39 (V : Valuation τ sig (Elt F)) :
    after ops_w4 V (Proc.devRef .tc main_v39)
      = Stage.bnrelu (V (Proc.devRef .tc main_v19)) (V (Proc.devRef .tc main_v22)) (V (Proc.devRef .tc main_v23)) (V (Proc.devRef .tc main_arg8)) (V (Proc.devRef .tc main_arg9)) := by
  after_results_simp
  rfl

set_option maxRecDepth 8192 in
/-- Stretch 5 is layer two's aggregation, of layer one's result. -/
theorem w5_v53 (V : Valuation τ sig (Elt F)) :
    after ops_w5 V (Proc.devRef .tc main_v53)
      = Stage.agg (Stage.srcIdx (V (Proc.devRef .tc main_arg1))) (Stage.dstIdx (V (Proc.devRef .tc main_arg1))) (V (Proc.devRef .tc main_v39)) := by
  after_results_simp
  rfl

set_option maxRecDepth 8192 in
/-- Stretch 6 is layer two's linear combination. -/
theorem w6_v59 (V : Valuation τ sig (Elt F)) :
    after ops_w6 V (Proc.devRef .tc main_v59)
      = Stage.lin (V (Proc.devRef .tc main_v53)) (V (Proc.devRef .tc main_v39)) (V (Proc.devRef .tc main_arg5)) (V (Proc.devRef .tc main_arg6)) (V (Proc.devRef .tc main_arg7)) := by
  after_results_simp
  rfl

set_option maxRecDepth 8192 in
/-- Stretch 7 computes layer two's column means. -/
theorem w7_v62 (V : Valuation τ sig (Elt F)) :
    after ops_w7 V (Proc.devRef .tc main_v62)
      = Stage.colMean (V (Proc.devRef .tc main_v59)) := by
  after_results_simp
  rfl

set_option maxRecDepth 8192 in
/-- Stretch 7 also writes layer two's zero word of degrees of freedom. -/
theorem w7_c10 (V : Valuation τ sig (Elt F)) :
    after ops_w7 V (Proc.devRef .tc main_c_10)
      = (constantI S_ 32 0#32 : IVec S_ 32) := by
  after_results_simp

set_option maxRecDepth 8192 in
/-- Stretch 8 computes layer two's column variances. -/
theorem w8_v63 (V : Valuation τ sig (Elt F)) :
    after ops_w8 V (Proc.devRef .tc main_v63)
      = Stage.colVar (V (Proc.devRef .tc main_v59)) (V (Proc.devRef .tc main_c_10)) := by
  after_results_simp
  rfl

set_option maxRecDepth 8192 in
/-- Stretch 9 is layer two's normalisation and clamp. -/
theorem w9_v79 (V : Valuation τ sig (Elt F)) :
    after ops_w9 V (Proc.devRef .tc main_v79)
      = Stage.bnrelu (V (Proc.devRef .tc main_v59)) (V (Proc.devRef .tc main_v62)) (V (Proc.devRef .tc main_v63)) (V (Proc.devRef .tc main_arg10)) (V (Proc.devRef .tc main_arg11)) := by
  after_results_simp
  rfl

set_option maxRecDepth 8192 in
/-- Stretch 10 is the perceptron's first layer. -/
theorem w10_v84 (V : Valuation τ sig (Elt F)) :
    after ops_w10 V (Proc.devRef .tc main_v84)
      = Stage.denseRelu (V (Proc.devRef .tc main_v79)) (V (Proc.devRef .tc main_arg12)) (V (Proc.devRef .tc main_arg13)) := by
  after_results_simp
  rfl

set_option maxRecDepth 8192 in
/-- Stretch 11 is the perceptron's second layer. -/
theorem w11_v89 (V : Valuation τ sig (Elt F)) :
    after ops_w11 V (Proc.devRef .tc main_v89)
      = Stage.denseRelu (V (Proc.devRef .tc main_v84)) (V (Proc.devRef .tc main_arg14)) (V (Proc.devRef .tc main_arg15)) := by
  after_results_simp
  rfl

set_option maxRecDepth 8192 in
/-- Stretch 12 is the perceptron's last layer. -/
theorem w12_v93 (V : Valuation τ sig (Elt F)) :
    after ops_w12 V (Proc.devRef .tc main_v93)
      = Stage.denseOut (V (Proc.devRef .tc main_v89)) (V (Proc.devRef .tc main_arg16)) (V (Proc.devRef .tc main_arg17)) := by
  after_results_simp
  rfl

/-! ## The stretches composed -/

/-- Thirteen lines run in a row, each leaving what it does not write and each computing its stage from the contents
    before it, compute the network from the contents before the first: every stage's operands are read back through the
    lines between, which leave them, to the stage that wrote them or to the arguments. (Stated over any thirteen lines
    with these properties; the stretches of the operation list have them.) -/
theorem compose {w0 w1 w2 w3 w4 w5 w6 w7 w8 w9 w10 w11 w12 : List (HloOp τ sig (Elt F))}
    (k0 : ∀ (V : Valuation τ sig (Elt F)) (r : Ref sig .tc), r ∉ W0 → after w0 V (no_index (Proc.devRef .tc r)) = V (Proc.devRef .tc r))
    (k1 : ∀ (V : Valuation τ sig (Elt F)) (r : Ref sig .tc), r ∉ W1 → after w1 V (no_index (Proc.devRef .tc r)) = V (Proc.devRef .tc r))
    (k2 : ∀ (V : Valuation τ sig (Elt F)) (r : Ref sig .tc), r ∉ W2 → after w2 V (no_index (Proc.devRef .tc r)) = V (Proc.devRef .tc r))
    (k3 : ∀ (V : Valuation τ sig (Elt F)) (r : Ref sig .tc), r ∉ W3 → after w3 V (no_index (Proc.devRef .tc r)) = V (Proc.devRef .tc r))
    (k4 : ∀ (V : Valuation τ sig (Elt F)) (r : Ref sig .tc), r ∉ W4 → after w4 V (no_index (Proc.devRef .tc r)) = V (Proc.devRef .tc r))
    (k5 : ∀ (V : Valuation τ sig (Elt F)) (r : Ref sig .tc), r ∉ W5 → after w5 V (no_index (Proc.devRef .tc r)) = V (Proc.devRef .tc r))
    (k6 : ∀ (V : Valuation τ sig (Elt F)) (r : Ref sig .tc), r ∉ W6 → after w6 V (no_index (Proc.devRef .tc r)) = V (Proc.devRef .tc r))
    (k7 : ∀ (V : Valuation τ sig (Elt F)) (r : Ref sig .tc), r ∉ W7 → after w7 V (no_index (Proc.devRef .tc r)) = V (Proc.devRef .tc r))
    (k8 : ∀ (V : Valuation τ sig (Elt F)) (r : Ref sig .tc), r ∉ W8 → after w8 V (no_index (Proc.devRef .tc r)) = V (Proc.devRef .tc r))
    (k9 : ∀ (V : Valuation τ sig (Elt F)) (r : Ref sig .tc), r ∉ W9 → after w9 V (no_index (Proc.devRef .tc r)) = V (Proc.devRef .tc r))
    (k10 : ∀ (V : Valuation τ sig (Elt F)) (r : Ref sig .tc), r ∉ W10 → after w10 V (no_index (Proc.devRef .tc r)) = V (Proc.devRef .tc r))
    (k11 : ∀ (V : Valuation τ sig (Elt F)) (r : Ref sig .tc), r ∉ W11 → after w11 V (no_index (Proc.devRef .tc r)) = V (Proc.devRef .tc r))
    (h_w0_v13 : ∀ V : Valuation τ sig (Elt F), after w0 V (no_index (Proc.devRef .tc main_v13))
      = Stage.agg (Stage.srcIdx (V (Proc.devRef .tc main_arg1))) (Stage.dstIdx (V (Proc.devRef .tc main_arg1))) (V (Proc.devRef .tc main_arg0)))
    (h_w1_v19 : ∀ V : Valuation τ sig (Elt F), after w1 V (no_index (Proc.devRef .tc main_v19))
      = Stage.lin (V (Proc.devRef .tc main_v13)) (V (Proc.devRef .tc main_arg0)) (V (Proc.devRef .tc main_arg2)) (V (Proc.devRef .tc main_arg3)) (V (Proc.devRef .tc main_arg4)))
    (h_w2_v22 : ∀ V : Valuation τ sig (Elt F), after w2 V (no_index (Proc.devRef .tc main_v22))
      = Stage.colMean (V (Proc.devRef .tc main_v19)))
    (h_w2_c3 : ∀ V : Valuation τ sig (Elt F), after w2 V (no_index (Proc.devRef .tc main_c_3))
      = (constantI S_ 32 0#32 : IVec S_ 32))
    (h_w3_v23 : ∀ V : Valuation τ sig (Elt F), after w3 V (no_index (Proc.devRef .tc main_v23))
      = Stage.colVar (V (Proc.devRef .tc main_v19)) (V (Proc.devRef .tc main_c_3)))
    (h_w4_v39 : ∀ V : Valuation τ sig (Elt F), after w4 V (no_index (Proc.devRef .tc main_v39))
      = Stage.bnrelu (V (Proc.devRef .tc main_v19)) (V (Proc.devRef .tc main_v22)) (V (Proc.devRef .tc main_v23)) (V (Proc.devRef .tc main_arg8)) (V (Proc.devRef .tc main_arg9)))
    (h_w5_v53 : ∀ V : Valuation τ sig (Elt F), after w5 V (no_index (Proc.devRef .tc main_v53))
      = Stage.agg (Stage.srcIdx (V (Proc.devRef .tc main_arg1))) (Stage.dstIdx (V (Proc.devRef .tc main_arg1))) (V (Proc.devRef .tc main_v39)))
    (h_w6_v59 : ∀ V : Valuation τ sig (Elt F), after w6 V (no_index (Proc.devRef .tc main_v59))
      = Stage.lin (V (Proc.devRef .tc main_v53)) (V (Proc.devRef .tc main_v39)) (V (Proc.devRef .tc main_arg5)) (V (Proc.devRef .tc main_arg6)) (V (Proc.devRef .tc main_arg7)))
    (h_w7_v62 : ∀ V : Valuation τ sig (Elt F), after w7 V (no_index (Proc.devRef .tc main_v62))
      = Stage.colMean (V (Proc.devRef .tc main_v59)))
    (h_w7_c10 : ∀ V : Valuation τ sig (Elt F), after w7 V (no_index (Proc.devRef .tc main_c_10))
      = (constantI S_ 32 0#32 : IVec S_ 32))
    (h_w8_v63 : ∀ V : Valuation τ sig (Elt F), after w8 V (no_index (Proc.devRef .tc main_v63))
      = Stage.colVar (V (Proc.devRef .tc main_v59)) (V (Proc.devRef .tc main_c_10)))
    (h_w9_v79 : ∀ V : Valuation τ sig (Elt F), after w9 V (no_index (Proc.devRef .tc main_v79))
      = Stage.bnrelu (V (Proc.devRef .tc main_v59)) (V (Proc.devRef .tc main_v62)) (V (Proc.devRef .tc main_v63)) (V (Proc.devRef .tc main_arg10)) (V (Proc.devRef .tc main_arg11)))
    (h_w10_v84 : ∀ V : Valuation τ sig (Elt F), after w10 V (no_index (Proc.devRef .tc main_v84))
      = Stage.denseRelu (V (Proc.devRef .tc main_v79)) (V (Proc.devRef .tc main_arg12)) (V (Proc.devRef .tc main_arg13)))
    (h_w11_v89 : ∀ V : Valuation τ sig (Elt F), after w11 V (no_index (Proc.devRef .tc main_v89))
      = Stage.denseRelu (V (Proc.devRef .tc main_v84)) (V (Proc.devRef .tc main_arg14)) (V (Proc.devRef .tc main_arg15)))
    (h_w12_v93 : ∀ V : Valuation τ sig (Elt F), after w12 V (no_index (Proc.devRef .tc main_v93))
      = Stage.denseOut (V (Proc.devRef .tc main_v89)) (V (Proc.devRef .tc main_arg16)) (V (Proc.devRef .tc main_arg17)))
    (M : Valuation τ sig (Elt F)) :
    after (w0 ++ (w1 ++ (w2 ++ (w3 ++ (w4 ++ (w5 ++ (w6 ++ (w7 ++ (w8 ++ (w9 ++ (w10 ++ (w11 ++ w12)))))))))))) M (Proc.devRef .tc main_v93)
      = Stage.out (M (Proc.devRef .tc main_arg0)) (M (Proc.devRef .tc main_arg1)) (M (Proc.devRef .tc main_arg2)) (M (Proc.devRef .tc main_arg3)) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11)) (M (Proc.devRef .tc main_arg12)) (M (Proc.devRef .tc main_arg13)) (M (Proc.devRef .tc main_arg14)) (M (Proc.devRef .tc main_arg15)) (M (Proc.devRef .tc main_arg16)) (M (Proc.devRef .tc main_arg17)) := by
  simp only [after_append']
  simp (disch := decide) only [h_w12_v93, h_w11_v89, h_w10_v84, h_w9_v79, h_w8_v63, h_w7_c10, h_w7_v62, h_w6_v59, h_w5_v53, h_w4_v39, h_w3_v23, h_w2_c3, h_w2_v22, h_w1_v19, h_w0_v13,
    k0, k1, k2, k3, k4, k5, k6, k7, k8, k9, k10, k11]
  rfl

/-- The fold of the reference's operation list at the result buffer is the network applied to the arguments' contents. -/
theorem fold_eq (M : Valuation τ sig (Elt F)) :
    after ops M (Proc.devRef .tc main_v93)
      = Stage.out (M (Proc.devRef .tc main_arg0)) (M (Proc.devRef .tc main_arg1)) (M (Proc.devRef .tc main_arg2)) (M (Proc.devRef .tc main_arg3)) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11)) (M (Proc.devRef .tc main_arg12)) (M (Proc.devRef .tc main_arg13)) (M (Proc.devRef .tc main_arg14)) (M (Proc.devRef .tc main_arg15)) (M (Proc.devRef .tc main_arg16)) (M (Proc.devRef .tc main_arg17)) :=
  compose keep_w0 keep_w1 keep_w2 keep_w3 keep_w4 keep_w5 keep_w6 keep_w7 keep_w8 keep_w9 keep_w10 keep_w11
    w0_v13 w1_v19 w2_v22 w2_c3 w3_v23 w4_v39 w5_v53 w6_v59 w7_v62 w7_c10 w8_v63 w9_v79 w10_v84 w11_v89 w12_v93 M

end Cert.ReferenceIdeal.RefRun

end
-- ==== Proof.RefSpec.lean ====
/-
  The reference's stage functions, read at the extended reals, are the specification's network with the variance taken as
  the mean of the squared deviations — index by index.

  Every stage is a function of whole arrays; here each is read at one index `(n, c)`. A host matrix product at `(n, c)` is
  the sum over the contraction coordinate of the products of the operands' entries (the contraction index set is `Fin 128`);
  a row broadcast to every node reads the row's entry at the column; the host's sum over the rows at column `c` is the sum
  over `n` of the entries `(n, c)`, from a zero initial value. The column mean divides that sum by the node count. The
  reference's variance is guarded by a comparison of the node count less the degrees of freedom with zero: with zero
  degrees of freedom the integer converts to `0`, the difference is the node count itself, which is positive, so the guard
  selects the quotient, whose numerator is the sum of the squared deviations from the column mean (that mean is formed on
  a one-row array and broadcast, the same number) and whose divisor is the node count. Normalisation, the dense layers and
  the clamps read through elementwise. Composing the stages gives the layers and then the network; the aggregation over
  the graph's edges is carried as a function of the feature matrix and never opened.
-/
import proofs.«180842_j41832981463453_1_alg».proof.Proof.RefStages
import proofs.«180842_j41832981463453_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefSpec

open Idealize.ShloMosaic Idealize.ShloMosaic.ValueIdx Cert.ReferenceIdeal Cert.ReferenceIdeal.Facts₀ Cert.Sage
open scoped BigOperators

/-! ## The two conversions are inverse to each other -/

theorem toArr2_ofArr2 {R C : ℕ} (X : (⟨2, ![R, C]⟩ : Shape).Idx → EReal) : toArr2 (ofArr2 X) = X := by
  funext j
  exact congrArg X (eq_ix2 j).symm

theorem ofArr2_toArr2 {R C : ℕ} (Y : Mat R C) : ofArr2 (toArr2 Y) = Y := rfl

theorem toArr2_apply {R C : ℕ} (Y : Mat R C) (n : Fin R) (c : Fin C) : toArr2 Y (ix2 n c) = Y n c := rfl

/-! ## The broadcasts of a row -/

/-- A `[128]` row broadcast to every node reads the row's entry at the column. -/
theorem rowB_apply (b : FVec Ideal S128 .f32) (n : Fin 100000) (c : Fin 128) :
    Stage.rowB (F := Ideal) b (ix2 n c) = b (ix1 c) := by
  unfold Stage.rowB
  rw [broadcastInDim_apply ![0, 1] bcast_S1x128_S100000x128_0_1 _ (ix2 n c) (ix2 (0 : Fin 1) c) (by
    intro a; fin_cases a
    · show (0 : ℕ) = if (1 : ℕ) = 1 then 0 else _
      simp
    · show c.val = if (128 : ℕ) = 1 then 0 else c.val
      simp)]
  exact broadcastInDim_apply ![1] bcast_S128_S1x128_1 b (ix2 (0 : Fin 1) c) (ix1 c) (by
    intro a; fin_cases a
    show c.val = if (128 : ℕ) = 1 then 0 else c.val
    simp)

/-- The `[2]` row of the last layer broadcast to every node. -/
theorem rowB2_apply (b : FVec Ideal S2 .f32) (n : Fin 100000) (c : Fin 2) :
    broadcastInDim S100000x2 ![0, 1] bcast_S1x2_S100000x2_0_1 (broadcastInDim S1x2 ![1] bcast_S2_S1x2_1 b) (ix2 n c) = b (ix1 c) := by
  rw [broadcastInDim_apply ![0, 1] bcast_S1x2_S100000x2_0_1 _ (ix2 n c) (ix2 (0 : Fin 1) c) (by
    intro a; fin_cases a
    · show (0 : ℕ) = if (1 : ℕ) = 1 then 0 else _
      simp
    · show c.val = if (2 : ℕ) = 1 then 0 else c.val
      simp)]
  exact broadcastInDim_apply ![1] bcast_S2_S1x2_1 b (ix2 (0 : Fin 1) c) (ix1 c) (by
    intro a; fin_cases a
    show c.val = if (2 : ℕ) = 1 then 0 else c.val
    simp)

/-! ## A matrix product read at an index -/

/-- The dimension numbers of the `[100000,128] × [128,128]` product and of the `[100000,128] × [128,2]` one. -/
abbrev D128 : DotDims S100000x128 S128x128 S100000x128 := dot_S100000x128_S128x128_S100000x128_1_0_0_1_n_n
abbrev D2 : DotDims S100000x128 S128x2 S100000x2 := dot_S100000x128_S128x2_S100000x2_1_0_0_1_n_n

theorem D128_rank : D128.contr.rank = 1 := rfl
theorem D128_size : D128.contr.size ⟨0, by rw [D128_rank]; exact Nat.one_pos⟩ = 128 := rfl
theorem D2_rank : D2.contr.rank = 1 := rfl
theorem D2_size : D2.contr.size ⟨0, by rw [D2_rank]; exact Nat.one_pos⟩ = 128 := rfl

theorem lhs128_0 (j : S100000x128.Idx) (k : D128.contr.Idx) : (D128.lhsIdx j k 0 : ℕ) = j 0 := by
  simp [DotDims.lhsIdx, D128, dot_S100000x128_S128x128_S100000x128_1_0_0_1_n_n]; rfl
theorem rhs128_1 (j : S100000x128.Idx) (k : D128.contr.Idx) : (D128.rhsIdx j k 1 : ℕ) = j 1 := by
  simp [DotDims.rhsIdx, D128, dot_S100000x128_S128x128_S100000x128_1_0_0_1_n_n]; rfl
theorem lhs2_0 (j : S100000x2.Idx) (k : D2.contr.Idx) : (D2.lhsIdx j k 0 : ℕ) = j 0 := by
  simp [DotDims.lhsIdx, D2, dot_S100000x128_S128x2_S100000x2_1_0_0_1_n_n]; rfl
theorem rhs2_1 (j : S100000x2.Idx) (k : D2.contr.Idx) : (D2.rhsIdx j k 1 : ℕ) = j 1 := by
  simp [DotDims.rhsIdx, D2, dot_S100000x128_S128x2_S100000x2_1_0_0_1_n_n]; rfl

/-- The left operand's index at result `(n, c)` and contraction coordinate `k` is `(n, k)`. -/
theorem lhs128_eq (n : Fin 100000) (c k : Fin 128) :
    D128.lhsIdx (ix2 n c) ((contrEquiv1 D128 128 D128_rank D128_size).symm k) = ix2 n k := by
  funext a
  match a with
  | ⟨0, _⟩ => exact Fin.ext (lhs128_0 _ _)
  | ⟨1, _⟩ =>
    refine Fin.ext ?_
    refine (D128.lhsIdx_val_of_single (cl := 1) rfl _ _).trans ?_
    exact contrEquiv1_symm_val D128 128 D128_rank D128_size k
/-- The right operand's is `(k, c)`. -/
theorem rhs128_eq (n : Fin 100000) (c k : Fin 128) :
    D128.rhsIdx (ix2 n c) ((contrEquiv1 D128 128 D128_rank D128_size).symm k) = ix2 k c := by
  funext a
  match a with
  | ⟨0, _⟩ =>
    refine Fin.ext ?_
    refine (D128.rhsIdx_val_of_single (cr := 0) rfl _ _).trans ?_
    exact contrEquiv1_symm_val D128 128 D128_rank D128_size k
  | ⟨1, _⟩ => exact Fin.ext (rhs128_1 _ _)

theorem lhs2_eq (n : Fin 100000) (c : Fin 2) (k : Fin 128) :
    D2.lhsIdx (ix2 n c) ((contrEquiv1 D2 128 D2_rank D2_size).symm k) = ix2 n k := by
  funext a
  match a with
  | ⟨0, _⟩ => exact Fin.ext (lhs2_0 _ _)
  | ⟨1, _⟩ =>
    refine Fin.ext ?_
    refine (D2.lhsIdx_val_of_single (cl := 1) rfl _ _).trans ?_
    exact contrEquiv1_symm_val D2 128 D2_rank D2_size k
theorem rhs2_eq (n : Fin 100000) (c : Fin 2) (k : Fin 128) :
    D2.rhsIdx (ix2 n c) ((contrEquiv1 D2 128 D2_rank D2_size).symm k) = ix2 k c := by
  funext a
  match a with
  | ⟨0, _⟩ =>
    refine Fin.ext ?_
    refine (D2.rhsIdx_val_of_single (cr := 0) rfl _ _).trans ?_
    exact contrEquiv1_symm_val D2 128 D2_rank D2_size k
  | ⟨1, _⟩ => exact Fin.ext (rhs2_1 _ _)

/-- The host's product of a `[100000,128]` array with a `[128,128]` one at `(n, c)`: the sum over the 128 columns. -/
theorem dot128_apply (a : FVec Ideal S100000x128 .f32) (W : FVec Ideal S128x128 .f32) (n : Fin 100000) (c : Fin 128) :
    Host.dotGeneral (F := Ideal) dot_S100000x128_S128x128_S100000x128_1_0_0_1_n_n none a W (ix2 n c)
      = ∑ k : Fin 128, a (ix2 n k) * W (ix2 k c) := by
  refine (Ideal.dotGeneral_apply D128 none .single a W (ix2 n c)).trans ?_
  rw [← Equiv.sum_comp (contrEquiv1 D128 128 D128_rank D128_size).symm]
  exact Finset.sum_congr rfl fun k _ => by rw [lhs128_eq, rhs128_eq]

/-- The same with a `[128,2]` right operand. -/
theorem dot2_apply (a : FVec Ideal S100000x128 .f32) (W : FVec Ideal S128x2 .f32) (n : Fin 100000) (c : Fin 2) :
    Host.dotGeneral (F := Ideal) dot_S100000x128_S128x2_S100000x2_1_0_0_1_n_n none a W (ix2 n c)
      = ∑ k : Fin 128, a (ix2 n k) * W (ix2 k c) := by
  refine (Ideal.dotGeneral_apply D2 none .single a W (ix2 n c)).trans ?_
  rw [← Equiv.sum_comp (contrEquiv1 D2 128 D2_rank D2_size).symm]
  exact Finset.sum_congr rfl fun k _ => by rw [lhs2_eq, rhs2_eq]

/-! ## The column sums -/

theorem red_h : S100000x128.Reduces [0] S128 := by decide

/-- Column `c` with the row `k` inserted is the index `(k, c)`. -/
theorem lift_eq (c : Fin 128) (k : Fin 100000) : red_h.lift (ix1 c) k = ix2 k c := by
  funext a
  match a with
  | ⟨0, _⟩ => rfl
  | ⟨1, _⟩ => rfl

/-- The host's sum over the rows, at column `c`. -/
theorem colSum_apply (h : FVec Ideal S100000x128 .f32) (c : Fin 128) :
    Stage.colSum (F := Ideal) h (ix1 c) = ∑ n : Fin 100000, h (ix2 n c) := by
  unfold Stage.colSum
  refine (hostReduceAdd_apply h _ reducesTo_S100000x128_S128_d0 h_S_ (ix1 c)).trans ?_
  refine (Ideal.hostReduceAdd_single reducesTo_S100000x128_S128_d0 red_h h _ (ix1 c)).trans ?_
  rw [constant_apply, Ideal.ofBits_zero_f32, zero_add]
  exact Finset.sum_congr rfl fun k _ => congrArg h (lift_eq c k)

/-! ## The column means and variances -/

/-- The reference's column mean is the specification's. -/
theorem colMean_apply (h : FVec Ideal S100000x128 .f32) (c : Fin 128) :
    Stage.colMean (F := Ideal) h (ix1 c) = Sage.mean (Ideal.ofBits .f32 0x47C35000#32) (ofArr2 h) c := by
  unfold Stage.colMean
  rw [hostDivf_apply, broadcastInDim_scalar_apply, constant_apply, colSum_apply]
  rfl

theorem ofArr1_colMean (h : FVec Ideal S100000x128 .f32) :
    ofArr1 (Stage.colMean (F := Ideal) h) = Sage.mean (Ideal.ofBits .f32 0x47C35000#32) (ofArr2 h) :=
  funext fun c => colMean_apply h c

/-- With zero degrees of freedom removed, the divisor of the variance is the node count. -/
theorem dofCount_zero :
    Stage.dofCount (F := Ideal) (constantI S_ 32 0#32) ix0 = Ideal.ofBits .f32 0x47C35000#32 := by
  unfold Stage.dofCount
  rw [subf_apply, constant_apply, sitofp_apply]
  show Ideal.ofBits .f32 0x47C35000#32 - (((0#32 : BitVec 32).toInt : ℝ) : EReal) = _
  simp

/-- The node count is above zero, so the guard of the variance holds. -/
theorem guard_one (hN : Ideal.ofBits .f32 0x47C35000#32 = ((100000 : ℝ) : EReal)) :
    Ideal.cmp .ogt (Ideal.ofBits .f32 0x47C35000#32) (Ideal.ofBits .f32 0x00000000#32) = 1#1 := by
  rw [Ideal.ofBits_zero_f32, hN]
  have h0 : (0 : EReal) < ((100000 : ℝ) : EReal) := EReal.coe_pos.mpr (by norm_num)
  simp [Ideal.cmp, h0]

/-- The mean the variance subtracts, computed on a `[1, 128]` row and broadcast to every node, is the column mean. -/
theorem devMean_apply (h : FVec Ideal S100000x128 .f32) (n : Fin 100000) (c : Fin 128) :
    broadcastInDim S100000x128 ![0, 1] bcast_S1x128_S100000x128_0_1
        (Host.divf (F := Ideal) (broadcastInDim S1x128 ![1] bcast_S128_S1x128_1 (Stage.colSum (F := Ideal) h))
          (broadcastInDim S1x128 ![] bcast_S_S1x128 (constant (F := Ideal) S_ .f32 0x47C35000#32))) (ix2 n c)
      = Sage.mean (Ideal.ofBits .f32 0x47C35000#32) (ofArr2 h) c := by
  rw [broadcastInDim_apply ![0, 1] bcast_S1x128_S100000x128_0_1 _ (ix2 n c) (ix2 (0 : Fin 1) c) (by
    intro a; fin_cases a
    · show (0 : ℕ) = if (1 : ℕ) = 1 then 0 else _
      simp
    · show c.val = if (128 : ℕ) = 1 then 0 else c.val
      simp)]
  rw [hostDivf_apply, broadcastInDim_scalar_apply, constant_apply,
    broadcastInDim_apply ![1] bcast_S128_S1x128_1 _ (ix2 (0 : Fin 1) c) (ix1 c) (by
      intro a; fin_cases a
      show c.val = if (128 : ℕ) = 1 then 0 else c.val
      simp), colSum_apply]
  rfl

/-- The reference's column variance, at zero degrees of freedom, is the mean of the squared deviations. -/
theorem colVar_apply (hN : Ideal.ofBits .f32 0x47C35000#32 = ((100000 : ℝ) : EReal))
    (h : FVec Ideal S100000x128 .f32) (c : Fin 128) :
    Stage.colVar (F := Ideal) h (constantI S_ 32 0#32) (ix1 c)
      = Sage.varR (Ideal.ofBits .f32 0x47C35000#32) (ofArr2 h) c := by
  unfold Stage.colVar
  rw [select_apply, broadcastInDim_scalar_apply, cmpf_apply, dofCount_zero, constant_apply, Ideal.cmpf_def, guard_one hN,
    select_one, hostDivf_apply, broadcastInDim_scalar_apply, dofCount_zero, colSum_apply]
  unfold Sage.varR
  refine congrArg (fun s : EReal => Ideal.div s (Ideal.ofBits .f32 0x47C35000#32)) ?_
  refine Finset.sum_congr rfl fun n _ => ?_
  rw [mulf_apply, subf_apply, devMean_apply]
  rfl

theorem ofArr1_colVar (hN : Ideal.ofBits .f32 0x47C35000#32 = ((100000 : ℝ) : EReal)) (h : FVec Ideal S100000x128 .f32) :
    ofArr1 (Stage.colVar (F := Ideal) h (constantI S_ 32 0#32)) = Sage.varR (Ideal.ofBits .f32 0x47C35000#32) (ofArr2 h) :=
  funext fun c => colVar_apply hN h c

/-! ## The stages as functions of matrices -/

/-- The SAGE combination. -/
theorem lin_eq (a x : FVec Ideal S100000x128 .f32) (Wl : FVec Ideal S128x128 .f32) (bl : FVec Ideal S128 .f32)
    (Wr : FVec Ideal S128x128 .f32) :
    Stage.lin (F := Ideal) a x Wl bl Wr = toArr2 (Sage.lin (ofArr2 a) (ofArr2 x) (ofArr2 Wl) (ofArr1 bl) (ofArr2 Wr)) := by
  funext i
  obtain ⟨n, c, rfl⟩ : ∃ (n : Fin 100000) (c : Fin 128), i = ix2 n c := ⟨i 0, i 1, eq_ix2 i⟩
  unfold Stage.lin
  rw [addf_apply, addf_apply, dot128_apply, dot128_apply, rowB_apply]
  rfl

/-- Normalise, scale, shift, clamp. -/
theorem bnrelu_eq (h : FVec Ideal S100000x128 .f32) (mu v g b : FVec Ideal S128 .f32) :
    Stage.bnrelu (F := Ideal) h mu v g b
      = toArr2 (Sage.bnrelu (Ideal.ofBits .f32 0x3727C5AC#32) (Ideal.ofBits .f32 0x00000000#32) (ofArr2 h) (ofArr1 mu) (ofArr1 v)
          (ofArr1 g) (ofArr1 b)) := by
  funext i
  obtain ⟨n, c, rfl⟩ : ∃ (n : Fin 100000) (c : Fin 128), i = ix2 n c := ⟨i 0, i 1, eq_ix2 i⟩
  unfold Stage.bnrelu
  rw [maximumf_apply, addf_apply, mulf_apply, mulf_apply, subf_apply, rowB_apply, rowB_apply, rowB_apply, rowB_apply,
    broadcastInDim_scalar_apply, constant_apply]
  rfl

/-- A dense layer clamped at zero. -/
theorem denseRelu_eq (x : FVec Ideal S100000x128 .f32) (W : FVec Ideal S128x128 .f32) (b : FVec Ideal S128 .f32) :
    Stage.denseRelu (F := Ideal) x W b
      = toArr2 (Sage.denseRelu (Ideal.ofBits .f32 0x00000000#32) (ofArr2 x) (ofArr2 W) (ofArr1 b)) := by
  funext i
  obtain ⟨n, c, rfl⟩ : ∃ (n : Fin 100000) (c : Fin 128), i = ix2 n c := ⟨i 0, i 1, eq_ix2 i⟩
  unfold Stage.denseRelu
  rw [maximumf_apply, addf_apply, dot128_apply, rowB_apply, broadcastInDim_scalar_apply, constant_apply]
  rfl

/-- The last dense layer. -/
theorem denseOut_eq (x : FVec Ideal S100000x128 .f32) (W : FVec Ideal S128x2 .f32) (b : FVec Ideal S2 .f32) :
    Stage.denseOut (F := Ideal) x W b = toArr2 (Sage.dense (ofArr2 x) (ofArr2 W) (ofArr1 b)) := by
  funext i
  obtain ⟨n, c, rfl⟩ : ∃ (n : Fin 100000) (c : Fin 2), i = ix2 n c := ⟨i 0, i 1, eq_ix2 i⟩
  unfold Stage.denseOut
  rw [addf_apply, dot2_apply, rowB2_apply]
  rfl

/-! ## The layers and the network -/

/-- The aggregation as a function of a matrix. -/
def aggM (si di : IVec S600000x1 32) : Mat 100000 128 → Mat 100000 128 :=
  fun Y => ofArr2 (Stage.agg (F := Ideal) si di (toArr2 Y))

theorem aggM_ofArr2 (si di : IVec S600000x1 32) (x : FVec Ideal S100000x128 .f32) :
    aggM si di (ofArr2 x) = ofArr2 (Stage.agg (F := Ideal) si di x) := by
  unfold aggM
  rw [toArr2_ofArr2]

/-- One layer of the reference is one layer of the specification with the variance `varR`. -/
theorem layer_eq (hN : Ideal.ofBits .f32 0x47C35000#32 = ((100000 : ℝ) : EReal)) (si di : IVec S600000x1 32)
    (x : FVec Ideal S100000x128 .f32) (Wl : FVec Ideal S128x128 .f32) (bl : FVec Ideal S128 .f32) (Wr : FVec Ideal S128x128 .f32)
    (g b : FVec Ideal S128 .f32) :
    Stage.layer (F := Ideal) si di (constantI S_ 32 0#32) x Wl bl Wr g b
      = toArr2 (Sage.layer varR (Ideal.ofBits .f32 0x47C35000#32) (Ideal.ofBits .f32 0x3727C5AC#32) (Ideal.ofBits .f32 0x00000000#32)
          (aggM si di) (ofArr2 x) (ofArr2 Wl) (ofArr1 bl) (ofArr2 Wr) (ofArr1 g) (ofArr1 b)) := by
  unfold Stage.layer Sage.layer
  rw [bnrelu_eq, ofArr1_colMean, ofArr1_colVar hN, lin_eq, ofArr2_toArr2, aggM_ofArr2]

/-- THE REFERENCE'S NETWORK IS THE SPECIFICATION'S, with the variance as the mean of the squared deviations. -/
theorem out_eq (hN : Ideal.ofBits .f32 0x47C35000#32 = ((100000 : ℝ) : EReal))
    (x : FVec Ideal S100000x128 .f32) (e : IVec S2x600000 32) (Wl0 : FVec Ideal S128x128 .f32) (bl0 : FVec Ideal S128 .f32)
    (Wr0 : FVec Ideal S128x128 .f32) (Wl1 : FVec Ideal S128x128 .f32) (bl1 : FVec Ideal S128 .f32) (Wr1 : FVec Ideal S128x128 .f32)
    (g0 be0 g1 be1 : FVec Ideal S128 .f32) (W1 : FVec Ideal S128x128 .f32) (b1 : FVec Ideal S128 .f32)
    (W2 : FVec Ideal S128x128 .f32) (b2 : FVec Ideal S128 .f32) (W3 : FVec Ideal S128x2 .f32) (b3 : FVec Ideal S2 .f32) :
    Stage.out (F := Ideal) x e Wl0 bl0 Wr0 Wl1 bl1 Wr1 g0 be0 g1 be1 W1 b1 W2 b2 W3 b3
      = toArr2 (net varR (Ideal.ofBits .f32 0x47C35000#32) (Ideal.ofBits .f32 0x3727C5AC#32) (Ideal.ofBits .f32 0x00000000#32)
          (aggM (Stage.srcIdx e) (Stage.dstIdx e)) (ofArr2 x) (ofArr2 Wl0) (ofArr1 bl0) (ofArr2 Wr0) (ofArr2 Wl1) (ofArr1 bl1)
          (ofArr2 Wr1) (ofArr1 g0) (ofArr1 be0) (ofArr1 g1) (ofArr1 be1) (ofArr2 W1) (ofArr1 b1) (ofArr2 W2) (ofArr1 b2)
          (ofArr2 W3) (ofArr1 b3)) := by
  unfold Stage.out Sage.net Sage.mlp
  rw [denseOut_eq, denseRelu_eq, denseRelu_eq, layer_eq hN, ofArr2_toArr2, layer_eq hN, ofArr2_toArr2, ofArr2_toArr2,
    ofArr2_toArr2]

end Cert.ReferenceIdeal.RefSpec
end
-- ==== Proof.Consts.lean ====
/-
  The three float constants of the network, as the extended reals their bit patterns denote.

  A 32-bit pattern with sign bit 0, exponent field `E` (neither 0 nor 255) and significand field `T` denotes the real
  `(2^23 + T) · 2^(E − 127 − 23)`.
  * `0x47C35000`: `E = 143`, `T = 0x435000 = 4411392`, so `(8388608 + 4411392) · 2^(−7) = 12800000 / 128 = 100000`:
    the number of rows, the divisor of the column means.
  * `0x3727C5AC`: `E = 110`, `T = 0x27C5AC = 2606508`, so `10995116 · 2^(−40)`, a positive real (the float nearest to
    `10^(−5)`): the stabiliser added to the variance. Only its being a positive real is used.
  * `0x00000000` denotes `0`: the clamp.
-/
import Idealize.ShloMosaic.PureOps.Ideal
import Idealize.ShloMosaic.PureOps.Ideal.Laws

noncomputable section

namespace Cert.Sage

open Idealize.ShloMosaic

/-- The divisor denotes the real `100000`. -/
theorem cN_val : Ideal.ofBits .f32 0x47C35000#32 = ((100000 : ℝ) : EReal) := by
  simp [Ideal.ofBits, Ideal.ieee, -EReal.coe_mul]; norm_num

/-- The stabiliser denotes a positive real, `10995116 · 2^(−40)`. -/
theorem eps_val : ∃ e : ℝ, 0 < e ∧ Ideal.ofBits .f32 0x3727C5AC#32 = ((e : ℝ) : EReal) := by
  refine ⟨(10995116 : ℝ) * (2 : ℝ) ^ (-40 : ℤ), by positivity, ?_⟩
  simp [Ideal.ofBits, Ideal.ieee, -EReal.coe_mul]

/-- The clamp denotes `0`. -/
theorem zero_val : Ideal.ofBits .f32 0x00000000#32 = (0 : EReal) := Ideal.ofBits_zero_f32

end Cert.Sage

end
-- ==== Proof.Algebra.lean ====
/-
  The two variance formulas give the same network on finite data.

  On a column `h` of `N` real numbers with sum `S`, sum of squares `Q` and mean `μ = S / N`,
  `Σ (h n − μ)² = Q − 2 μ S + N μ² = Q − N μ²`, so the mean of the squared deviations is `Q / N − μ²`: the two
  variances agree wherever every entry is a real number and the divisor is the number of rows. Everything the network
  feeds into a variance is real: a combination `A·Wl + bl + X·Wr` of real matrices is real; its column means are real;
  its variance (as a mean of squares) is a real `≥ 0`, so adding the positive stabiliser gives a positive real whose
  reciprocal square root is real; hence the normalised, scaled, shifted and clamped layer output is real, and the
  second layer's combination is real as well. The perceptron head is the same function on both sides.
-/
import Idealize.ShloMosaic.PureOps.Ideal
import proofs.«180842_j41832981463453_1_alg».proof.Proof.Spec

noncomputable section

namespace Cert.Sage

open Idealize.ShloMosaic

/-! ### Reals inside the extended reals -/

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inclusion commutes with clamping at zero. -/
theorem coe_max_zero (x : ℝ) : max ((x : ℝ) : EReal) 0 = ((max x 0 : ℝ) : EReal) := by
  rw [← EReal.coe_zero]; exact (EReal.coe_strictMono.monotone.map_max).symm

/-- A finite matrix is the image of a real matrix. -/
theorem MatFin.exists_real {R C : ℕ} {H : Mat R C} (hH : MatFin H) :
    ∃ h : Fin R → Fin C → ℝ, H = fun n c => ((h n c : ℝ) : EReal) := by
  choose h hh using hH
  exact ⟨h, funext fun n => funext fun c => hh n c⟩

/-! ### The variance identity -/

/-- On the reals: the mean of the squares less the square of the mean is the mean of the squared deviations. -/
theorem real_var_identity {R : ℕ} (hR : (R : ℝ) ≠ 0) (f : Fin R → ℝ) :
    (∑ n, f n * f n) * (1 / (R : ℝ)) - (∑ n, f n) * (1 / (R : ℝ)) * ((∑ n, f n) * (1 / (R : ℝ)))
      = (∑ n, (f n - (∑ n, f n) * (1 / (R : ℝ))) * (f n - (∑ n, f n) * (1 / (R : ℝ)))) * (1 / (R : ℝ)) := by
  have key : ∀ μ : ℝ, ∑ n, (f n - μ) * (f n - μ) = (∑ n, f n * f n) - 2 * μ * (∑ n, f n) + R * (μ * μ) := by
    intro μ
    have hexp : ∀ n, (f n - μ) * (f n - μ) = f n * f n - 2 * μ * f n + μ * μ := fun n => by ring
    simp only [hexp, Finset.sum_add_distrib, Finset.sum_sub_distrib, ← Finset.mul_sum, Finset.sum_const,
      Finset.card_univ, Fintype.card_fin, nsmul_eq_mul]
    ring
  rw [key]
  field_simp
  ring

/-- The two variances of a finite matrix agree when the divisor is the number of rows. -/
theorem varK_eq_varR {R C : ℕ} (hR : R ≠ 0) {cN : EReal} (hN : cN = ((R : ℝ) : EReal)) {H : Mat R C} (hH : MatFin H) :
    varK cN H = varR cN H := by
  obtain ⟨h, rfl⟩ := hH.exists_real
  subst hN
  have hR' : (R : ℝ) ≠ 0 := by exact_mod_cast hR
  funext c
  simp only [varK, varR, mean, colsum, colsumsq, Ideal.div_coe hR']
  simp only [← EReal.coe_mul, ← coe_sum, ← EReal.coe_sub]
  rw [EReal.coe_eq_coe_iff]
  exact real_var_identity hR' (fun n => h n c)

/-! ### Finiteness through one layer -/

/-- A product of finite matrices is finite. -/
theorem matFin_dot {R K C : ℕ} {A : Mat R K} {W : Mat K C} (hA : MatFin A) (hW : MatFin W) : MatFin (dot A W) := by
  obtain ⟨a, rfl⟩ := hA.exists_real
  obtain ⟨w, rfl⟩ := hW.exists_real
  intro n c
  exact ⟨∑ k, a n k * w k c, by simp only [dot, ← EReal.coe_mul, ← coe_sum]⟩

/-- The combination `A·Wl + bl + X·Wr` of finite data is finite. -/
theorem matFin_lin {R K C : ℕ} {A X : Mat R K} {Wl : Mat K C} {bl : Fin C → EReal} {Wr : Mat K C}
    (hA : MatFin A) (hX : MatFin X) (hWl : MatFin Wl) (hbl : RowFin bl) (hWr : MatFin Wr) :
    MatFin (lin A X Wl bl Wr) := by
  intro n c
  obtain ⟨p, hp⟩ := matFin_dot hA hWl n c
  obtain ⟨q, hq⟩ := matFin_dot hX hWr n c
  obtain ⟨b, hb⟩ := hbl c
  exact ⟨p + b + q, by simp only [lin, hp, hq, hb, EReal.coe_add]⟩

/-- The column means of a finite matrix are finite. -/
theorem rowFin_mean {R C : ℕ} (hR : R ≠ 0) {cN : EReal} (hN : cN = ((R : ℝ) : EReal)) {H : Mat R C} (hH : MatFin H) :
    RowFin (mean cN H) := by
  obtain ⟨h, rfl⟩ := hH.exists_real
  subst hN
  have hR' : (R : ℝ) ≠ 0 := by exact_mod_cast hR
  intro c
  refine ⟨(∑ n, h n c) * (1 / (R : ℝ)), ?_⟩
  simp only [mean, colsum, Ideal.div_coe hR']
  simp only [← EReal.coe_mul, ← coe_sum]

/-- The variance of a finite matrix, as a mean of squares, is a real `≥ 0`. -/
theorem varR_nonneg {R C : ℕ} (hR : R ≠ 0) {cN : EReal} (hN : cN = ((R : ℝ) : EReal)) {H : Mat R C} (hH : MatFin H)
    (c : Fin C) : ∃ r : ℝ, 0 ≤ r ∧ varR cN H c = ((r : ℝ) : EReal) := by
  obtain ⟨h, rfl⟩ := hH.exists_real
  subst hN
  have hR' : (R : ℝ) ≠ 0 := by exact_mod_cast hR
  refine ⟨(∑ n, (h n c - (∑ n, h n c) * (1 / (R : ℝ))) * (h n c - (∑ n, h n c) * (1 / (R : ℝ)))) * (1 / (R : ℝ)),
    ?_, ?_⟩
  · exact mul_nonneg (Finset.sum_nonneg fun n _ => mul_self_nonneg _) (by positivity)
  · simp only [varR, mean, colsum, Ideal.div_coe hR']
    simp only [← EReal.coe_mul, ← coe_sum, ← EReal.coe_sub]

/-- Normalising finite data by finite means and a real variance `≥ 0` plus a positive stabiliser, scaling, shifting
    and clamping at `0` gives finite data. -/
theorem matFin_bnrelu {R C : ℕ} {eps zero : EReal} (heps : ∃ e : ℝ, 0 < e ∧ eps = ((e : ℝ) : EReal)) (hz : zero = 0)
    {H : Mat R C} {mu v g b : Fin C → EReal} (hH : MatFin H) (hmu : RowFin mu)
    (hv : ∀ c, ∃ r : ℝ, 0 ≤ r ∧ v c = ((r : ℝ) : EReal)) (hg : RowFin g) (hb : RowFin b) :
    MatFin (bnrelu eps zero H mu v g b) := by
  obtain ⟨e, he, rfl⟩ := heps
  subst hz
  intro n c
  obtain ⟨x, hx⟩ := hH n c
  obtain ⟨m, hm⟩ := hmu c
  obtain ⟨r, hr, hvr⟩ := hv c
  obtain ⟨γ, hγ⟩ := hg c
  obtain ⟨β, hβ⟩ := hb c
  have hpos : 0 < r + e := add_pos_of_nonneg_of_pos hr he
  refine ⟨max ((x - m) * (Real.sqrt (r + e))⁻¹ * γ + β) 0, ?_⟩
  simp only [bnrelu, hx, hm, hvr, hγ, hβ]
  rw [← EReal.coe_add r e, Ideal.rsqrt_coe, if_neg (not_lt.mpr hpos.le), if_neg hpos.ne', ← EReal.coe_sub,
    ← EReal.coe_mul, ← EReal.coe_mul, ← EReal.coe_add, coe_max_zero]

/-- One layer (with the variance as a mean of squares) maps finite data to finite data. -/
theorem matFin_layer {R K : ℕ} (hR : R ≠ 0) {cN eps zero : EReal} (hN : cN = ((R : ℝ) : EReal))
    (heps : ∃ e : ℝ, 0 < e ∧ eps = ((e : ℝ) : EReal)) (hz : zero = 0)
    {A : Mat R K → Mat R K} (hA : ∀ Y, MatFin Y → MatFin (A Y))
    {X : Mat R K} {Wl : Mat K K} {bl : Fin K → EReal} {Wr : Mat K K} {g b : Fin K → EReal}
    (hX : MatFin X) (hWl : MatFin Wl) (hbl : RowFin bl) (hWr : MatFin Wr) (hg : RowFin g) (hb : RowFin b) :
    MatFin (layer varR cN eps zero A X Wl bl Wr g b) := by
  have hL := matFin_lin (hA X hX) hX hWl hbl hWr
  exact matFin_bnrelu heps hz hL (rowFin_mean hR hN hL) (varR_nonneg hR hN hL) hg hb

/-- One layer is the same with either variance when its combination is finite. -/
theorem layer_var_eq {R K : ℕ} (hR : R ≠ 0) {cN : EReal} (hN : cN = ((R : ℝ) : EReal)) (eps zero : EReal)
    (A : Mat R K → Mat R K) (X : Mat R K) (Wl : Mat K K) (bl : Fin K → EReal) (Wr : Mat K K) (g b : Fin K → EReal)
    (hL : MatFin (lin (A X) X Wl bl Wr)) :
    layer varK cN eps zero A X Wl bl Wr g b = layer varR cN eps zero A X Wl bl Wr g b := by
  unfold layer
  rw [varK_eq_varR hR hN hL]

/-! ### The network -/

/-- The network is the same with either variance: both layers' combinations are finite, the divisor is the number of
    rows, the stabiliser is positive and the clamp is at zero. -/
theorem net_var_eq (cN eps zero : EReal) (hN : cN = ((100000 : ℝ) : EReal))
    (heps : ∃ e : ℝ, 0 < e ∧ eps = ((e : ℝ) : EReal)) (hz : zero = 0)
    (A : Mat NN DD → Mat NN DD) (hA : ∀ Y, MatFin Y → MatFin (A Y))
    (X : Mat NN DD) (Wl0 : Mat DD DD) (bl0 : Fin DD → EReal) (Wr0 : Mat DD DD) (Wl1 : Mat DD DD) (bl1 : Fin DD → EReal)
    (Wr1 : Mat DD DD) (g0 be0 g1 be1 : Fin DD → EReal) (W1 : Mat DD DD) (b1 : Fin DD → EReal) (W2 : Mat DD DD)
    (b2 : Fin DD → EReal) (W3 : Mat DD OO) (b3 : Fin OO → EReal)
    (hX : MatFin X) (hWl0 : MatFin Wl0) (hbl0 : RowFin bl0) (hWr0 : MatFin Wr0) (hg0 : RowFin g0) (hbe0 : RowFin be0)
    (hWl1 : MatFin Wl1) (hbl1 : RowFin bl1) (hWr1 : MatFin Wr1) :
    net varK cN eps zero A X Wl0 bl0 Wr0 Wl1 bl1 Wr1 g0 be0 g1 be1 W1 b1 W2 b2 W3 b3
      = net varR cN eps zero A X Wl0 bl0 Wr0 Wl1 bl1 Wr1 g0 be0 g1 be1 W1 b1 W2 b2 W3 b3 := by
  have hR : NN ≠ 0 := Nat.succ_ne_zero _
  have hN' : cN = (((NN : ℕ) : ℝ) : EReal) := by rw [hN]; simp only [NN, Nat.cast_ofNat]
  have hL0 := matFin_lin (hA X hX) hX hWl0 hbl0 hWr0
  have hY := matFin_layer hR hN' heps hz hA hX hWl0 hbl0 hWr0 hg0 hbe0
  have hL1 := matFin_lin (hA _ hY) hY hWl1 hbl1 hWr1
  unfold net
  rw [layer_var_eq hR hN' eps zero A X Wl0 bl0 Wr0 g0 be0 hL0,
    layer_var_eq hR hN' eps zero A _ Wl1 bl1 Wr1 g1 be1 hL1]

end Cert.Sage

end
-- ==== Proof.AggFinite.lean ====
/-
  The aggregation of a finite array is finite, on the extended reals.

  At the exact instance the accumulating scatter reads, at every index, as the operand's entry plus the sum of the
  update entries whose index word lands there. The operand here is the zero array and every update entry is an entry
  of the gathered features, so each entry of the aggregation is zero plus a finite sum of real numbers: a real
  number. Which edges land on which node plays no part. The two general facts (about any scatter-add and any gather)
  are stated over arbitrary shapes, index words and arrays; the aggregation is then an instance of them.
-/
import proofs.«180842_j41832981463453_1_alg».proof.Proof.RefStages
import proofs.«180842_j41832981463453_1_alg».proof.Proof.Spec
import Idealize.ShloMosaic.PureOps.Ideal.Laws

noncomputable section

namespace Cert.ReferenceIdeal.AggFin

open Idealize.ShloMosaic Cert.ReferenceIdeal Cert.ReferenceIdeal.Facts₀ Cert.ReferenceIdeal.Stage

/-- A finite sum of real numbers, read in the extended reals, is a real number. -/
theorem sum_finite {ι : Type} (S : Finset ι) (f : ι → EReal) (hf : ∀ j, ∃ r : ℝ, f j = (r : EReal)) :
    ∃ r : ℝ, ∑ j ∈ S, f j = (r : EReal) := by
  classical
  induction S using Finset.induction_on with
  | empty => exact ⟨0, by rw [Finset.sum_empty, EReal.coe_zero]⟩
  | insert a S ha ih =>
    obtain ⟨r, hr⟩ := ih
    obtain ⟨q, hq⟩ := hf a
    exact ⟨q + r, by rw [Finset.sum_insert ha, hq, hr, EReal.coe_add]⟩

/-- A real number plus a finite sum of real numbers is a real number. -/
theorem add_sum_finite {ι : Type} (a : EReal) (ha : ∃ r : ℝ, a = (r : EReal)) (S : Finset ι) (f : ι → EReal)
    (hf : ∀ j, ∃ r : ℝ, f j = (r : EReal)) : ∃ r : ℝ, a + ∑ j ∈ S, f j = (r : EReal) := by
  obtain ⟨p, hp⟩ := ha
  obtain ⟨q, hq⟩ := sum_finite S f hf
  exact ⟨p + q, by rw [hp, hq, EReal.coe_add]⟩

/-- The exact accumulating scatter of real updates into a real operand is real at every index: the operand's entry
    plus the sum of the updates that land on it. -/
theorem hostScatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  exact add_sum_finite _ (hx i) _ _ hu

/-- The same for the host operation at the exact instance, over any shapes, index words and arrays. -/
theorem scatterAdd_finite {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) :=
  hostScatterAdd_finite d x idx upd hx hu i

/-- Every entry of a gather of a real array is real: it is an entry of the array. -/
theorem gather_finite {s si t : Shape} (d : GatherDims s si t) {w : Nat} (y : s.Idx → EReal) (idx : IVec si w)
    (hy : ∀ i, ∃ r : ℝ, y i = (r : EReal)) (j : t.Idx) : ∃ r : ℝ, Host.gather d y idx j = (r : EReal) :=
  hy (d.operandIdx j idx)

/-- Every entry of the zero array the aggregation starts from is the real number zero. -/
theorem zeroArr_apply (k : S100000x128.Idx) :
    broadcastInDim (α := Ideal .f32) S100000x128 ![] bcast_S_S100000x128 (constant (F := Ideal) S_ .f32 0x00000000#32) k = ((0 : ℝ) : EReal) := by
  unfold broadcastInDim constant
  rw [Ideal.ofBits_def, Ideal.ofBits_zero_f32, EReal.coe_zero]

/-- The aggregation of an array of real numbers is an array of real numbers. -/
theorem agg_finite (si di : IVec S600000x1 32) (y : FVec Ideal S100000x128 .f32) (hy : ∀ i, ∃ r : ℝ, y i = (r : EReal)) :
    ∀ i, ∃ r : ℝ, Stage.agg (F := Ideal) si di y i = (r : EReal) :=
  fun i => scatterAdd_finite scatter_S100000x128_S600000x1_S600000x128_1_0_0_1 _ di _ (fun k => ⟨0, zeroArr_apply k⟩)
    (gather_finite gather_S100000x128_S600000x1_S600000x128_1_0_n_n_0_1_1128 y si hy) i

/-- The same over matrices: the aggregation of a finite matrix, read entry by entry, is a finite matrix. -/
theorem aggM_finite (si di : IVec S600000x1 32) : ∀ Y : Cert.Sage.Mat 100000 128, Cert.Sage.MatFin Y →
    Cert.Sage.MatFin (fun n c => Stage.agg (F := Ideal) si di (Cert.Sage.toArr2 Y) (ValueIdx.ix2 n c)) :=
  fun Y hY n c => agg_finite si di (Cert.Sage.toArr2 Y) (fun i => hY (i 0) (i 1)) (ValueIdx.ix2 n c)

end Cert.ReferenceIdeal.AggFin

end
-- ==== Proof.PreFinite.lean ====
/-
  The precondition read back: every floating-point argument is finite.

  The precondition function tests, for each of the seventeen floating-point arguments `x`, that every entry satisfies
  `|x| < +∞`, reduces each array of test bits by `and` to a single bit, and joins the seventeen bits by `and`. On the
  extended reals `|x|` is `max x (-x)` and the pattern `0x7F800000` denotes `⊤`; `max x (-x) < ⊤` fails at `⊤` and at
  `⊥` and holds at every real number. So the function being identically one says that every entry of every
  floating-point argument is a real number. (The integer edge list is not tested.)
-/
import proofs.«180842_j41832981463453_1_alg».proof.Proof.Gen.Pre_finite_inputs
import Idealize.ShloMosaic.Lib.ReduceAll
import Idealize.ShloMosaic.PureOps.Ideal
import Idealize.ShloMosaic.Lib.ValueIdx

noncomputable section

namespace Cert.Pre_finite_inputs.Decode

open Idealize.ShloMosaic

/-- The rank-zero shape has exactly one index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` tests strictly below `+∞` is a real number: the test fails
    at `⊤` (`max ⊤ ⊥ = ⊤`) and at `⊥` (`max ⊥ ⊤ = ⊤`). -/
theorem real_of_abs_lt_top (x : EReal)
    (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- "All entries satisfy `|x| < +∞`" read back: if the reduction by `and` of the entrywise test `|x| < +∞` is one,
    every entry of `x` is a real number. -/
theorem finite_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant S_ .f32 0x7F800000#32)))
        (constantI S_ 1 1#1) hr hu ValueIdx.ix0 = 1#1) :
    ∀ i, ∃ r : ℝ, x i = (r : EReal) := by
  intro i
  have e := Host.reduce_andi_all _ _ hr hu ValueIdx.ix0 h i
  have e' : Ideal.cmp .olt (max (x i) (-(x i))) (Ideal.ofBits .f32 0x7F800000#32) = 1#1 := e
  rw [ofBits_inf] at e'
  exact real_of_abs_lt_top (x i) e'

/-- A conjunction of two single bits that is one: both are one. -/
theorem andi_ix0 (x y : IVec S_ 1) (h : andi x y ValueIdx.ix0 = 1#1) :
    x ValueIdx.ix0 = 1#1 ∧ y ValueIdx.ix0 = 1#1 :=
  IntOp.andi_eq_one.1 h

/-- Every float argument is finite: each entry is a real number. -/
structure FiniteArgs (a0 : FVec Ideal S100000x128 .f32) (a2 : FVec Ideal S128x128 .f32) (a3 : FVec Ideal S128 .f32) (a4 : FVec Ideal S128x128 .f32) (a5 : FVec Ideal S128x128 .f32) (a6 : FVec Ideal S128 .f32) (a7 : FVec Ideal S128x128 .f32) (a8 : FVec Ideal S128 .f32) (a9 : FVec Ideal S128 .f32) (a10 : FVec Ideal S128 .f32) (a11 : FVec Ideal S128 .f32) (a12 : FVec Ideal S128x128 .f32) (a13 : FVec Ideal S128 .f32) (a14 : FVec Ideal S128x128 .f32) (a15 : FVec Ideal S128 .f32) (a16 : FVec Ideal S128x2 .f32) (a17 : FVec Ideal S2 .f32) : Prop where
  h0 : ∀ i, ∃ r : ℝ, a0 i = (r : EReal)
  h2 : ∀ i, ∃ r : ℝ, a2 i = (r : EReal)
  h3 : ∀ i, ∃ r : ℝ, a3 i = (r : EReal)
  h4 : ∀ i, ∃ r : ℝ, a4 i = (r : EReal)
  h5 : ∀ i, ∃ r : ℝ, a5 i = (r : EReal)
  h6 : ∀ i, ∃ r : ℝ, a6 i = (r : EReal)
  h7 : ∀ i, ∃ r : ℝ, a7 i = (r : EReal)
  h8 : ∀ i, ∃ r : ℝ, a8 i = (r : EReal)
  h9 : ∀ i, ∃ r : ℝ, a9 i = (r : EReal)
  h10 : ∀ i, ∃ r : ℝ, a10 i = (r : EReal)
  h11 : ∀ i, ∃ r : ℝ, a11 i = (r : EReal)
  h12 : ∀ i, ∃ r : ℝ, a12 i = (r : EReal)
  h13 : ∀ i, ∃ r : ℝ, a13 i = (r : EReal)
  h14 : ∀ i, ∃ r : ℝ, a14 i = (r : EReal)
  h15 : ∀ i, ∃ r : ℝ, a15 i = (r : EReal)
  h16 : ∀ i, ∃ r : ℝ, a16 i = (r : EReal)
  h17 : ∀ i, ∃ r : ℝ, a17 i = (r : EReal)

variable [Facts]

/-- The precondition function identically one makes every floating-point argument finite. -/
theorem finite_of_pre (a0 : FVec Ideal S100000x128 .f32) (a1 : IVec S2x600000 32) (a2 : FVec Ideal S128x128 .f32) (a3 : FVec Ideal S128 .f32) (a4 : FVec Ideal S128x128 .f32) (a5 : FVec Ideal S128x128 .f32) (a6 : FVec Ideal S128 .f32) (a7 : FVec Ideal S128x128 .f32) (a8 : FVec Ideal S128 .f32) (a9 : FVec Ideal S128 .f32) (a10 : FVec Ideal S128 .f32) (a11 : FVec Ideal S128 .f32) (a12 : FVec Ideal S128x128 .f32) (a13 : FVec Ideal S128 .f32) (a14 : FVec Ideal S128x128 .f32) (a15 : FVec Ideal S128 .f32) (a16 : FVec Ideal S128x2 .f32) (a17 : FVec Ideal S2 .f32)
    (h : fn (F := Ideal) a0 a1 a2 a3 a4 a5 a6 a7 a8 a9 a10 a11 a12 a13 a14 a15 a16 a17 = (fun _ => 1#1)) :
    FiniteArgs a0 a2 a3 a4 a5 a6 a7 a8 a9 a10 a11 a12 a13 a14 a15 a16 a17 := by
  have h := congrFun h ValueIdx.ix0
  dsimp only [fn, fn_part1, fn_part2, fn_part3, fn_part4] at h
  obtain ⟨h, e17⟩ := andi_ix0 _ _ h
  obtain ⟨h, e16⟩ := andi_ix0 _ _ h
  obtain ⟨h, e15⟩ := andi_ix0 _ _ h
  obtain ⟨h, e14⟩ := andi_ix0 _ _ h
  obtain ⟨h, e13⟩ := andi_ix0 _ _ h
  obtain ⟨h, e12⟩ := andi_ix0 _ _ h
  obtain ⟨h, e11⟩ := andi_ix0 _ _ h
  obtain ⟨h, e10⟩ := andi_ix0 _ _ h
  obtain ⟨h, e9⟩ := andi_ix0 _ _ h
  obtain ⟨h, e8⟩ := andi_ix0 _ _ h
  obtain ⟨h, e7⟩ := andi_ix0 _ _ h
  obtain ⟨h, e6⟩ := andi_ix0 _ _ h
  obtain ⟨h, e5⟩ := andi_ix0 _ _ h
  obtain ⟨h, e4⟩ := andi_ix0 _ _ h
  obtain ⟨h, e3⟩ := andi_ix0 _ _ h
  obtain ⟨e0, e2⟩ := andi_ix0 _ _ h
  exact ⟨finite_of_all a0 _ _ _ e0,
    finite_of_all a2 _ _ _ e2,
    finite_of_all a3 _ _ _ e3,
    finite_of_all a4 _ _ _ e4,
    finite_of_all a5 _ _ _ e5,
    finite_of_all a6 _ _ _ e6,
    finite_of_all a7 _ _ _ e7,
    finite_of_all a8 _ _ _ e8,
    finite_of_all a9 _ _ _ e9,
    finite_of_all a10 _ _ _ e10,
    finite_of_all a11 _ _ _ e11,
    finite_of_all a12 _ _ _ e12,
    finite_of_all a13 _ _ _ e13,
    finite_of_all a14 _ _ _ e14,
    finite_of_all a15 _ _ _ e15,
    finite_of_all a16 _ _ _ e16,
    finite_of_all a17 _ _ _ e17⟩

end Cert.Pre_finite_inputs.Decode
-- ==== Proof.Final.lean ====
/-
  The two idealized programs end with equal results.

  The kernel program's result array is the specification's network with the variance "mean of squares less the square
  of the mean" of the launch arrays; the reference's is the same network with the variance "mean of the squared
  deviations". The precondition makes every float argument finite, the aggregation of a finite matrix is finite, and
  on finite data the two variances are one number, column by column and layer by layer.
-/
import proofs.«180842_j41832981463453_1_alg».proof.Defs
import proofs.«180842_j41832981463453_1_alg».proof.Proof.KernelRun
import proofs.«180842_j41832981463453_1_alg».proof.Proof.KernelValue
import proofs.«180842_j41832981463453_1_alg».proof.Proof.RefRun
import proofs.«180842_j41832981463453_1_alg».proof.Proof.RefKeep
import proofs.«180842_j41832981463453_1_alg».proof.Proof.RefFold
import proofs.«180842_j41832981463453_1_alg».proof.Proof.RefSpec
import proofs.«180842_j41832981463453_1_alg».proof.Proof.Consts
import proofs.«180842_j41832981463453_1_alg».proof.Proof.Algebra
import proofs.«180842_j41832981463453_1_alg».proof.Proof.AggFinite
import proofs.«180842_j41832981463453_1_alg».proof.Proof.PreFinite
import proofs.«180842_j41832981463453_1_alg».proof.Proof.Gen.KernelIdeal
import proofs.«180842_j41832981463453_1_alg».proof.Proof.Gen.ReferenceIdeal
import proofs.«180842_j41832981463453_1_alg».proof.Proof.Gen.Pre_finite_inputs

noncomputable section

namespace Cert.Proof.Final

open Idealize.ShloMosaic Idealize.ShloMosaic.TcCoe Idealize.SL.Sem Idealize.ShloMosaic.ValueIdx Cert.Sage

/-- A finite two-axis array is a finite matrix; a finite one-axis array is a finite row. -/
theorem matFin_ofArr2 {R C : ℕ} (X : (⟨2, ![R, C]⟩ : Shape).Idx → EReal) (h : ∀ i, ∃ r : ℝ, X i = (r : EReal)) : MatFin (ofArr2 X) :=
  fun n c => h (ix2 n c)
theorem rowFin_ofArr1 {C : ℕ} (b : (⟨1, ![C]⟩ : Shape).Idx → EReal) (h : ∀ i, ∃ r : ℝ, b i = (r : EReal)) : RowFin (ofArr1 b) :=
  fun c => h (ix1 c)

section
variable (m : (ℓ : Loc Cert.KernelIdeal.nD Cert.KernelIdeal.τ Cert.KernelIdeal.sig) → Buf (Elt Ideal) ℓ) (c : Dev Cert.KernelIdeal.nD)

/-- The kernel program's aggregation of a finite matrix is finite. -/
theorem aggK_finite : ∀ Y, MatFin Y → MatFin (Cert.KernelIdeal.KValue.aggK m c Y) :=
  fun Y hY => Cert.ReferenceIdeal.AggFin.aggM_finite _ _ Y hY

/-- On finite launch arrays the kernel program's function is the network with the reference's variance. -/
theorem G_eq_netR
    (fa : Cert.Pre_finite_inputs.Decode.FiniteArgs (Cert.KernelIdeal.KValue.arg m c Cert.KernelIdeal.main_arg0) (Cert.KernelIdeal.KValue.arg m c Cert.KernelIdeal.main_arg2) (Cert.KernelIdeal.KValue.arg m c Cert.KernelIdeal.main_arg3) (Cert.KernelIdeal.KValue.arg m c Cert.KernelIdeal.main_arg4) (Cert.KernelIdeal.KValue.arg m c Cert.KernelIdeal.main_arg5) (Cert.KernelIdeal.KValue.arg m c Cert.KernelIdeal.main_arg6) (Cert.KernelIdeal.KValue.arg m c Cert.KernelIdeal.main_arg7) (Cert.KernelIdeal.KValue.arg m c Cert.KernelIdeal.main_arg8) (Cert.KernelIdeal.KValue.arg m c Cert.KernelIdeal.main_arg9) (Cert.KernelIdeal.KValue.arg m c Cert.KernelIdeal.main_arg10) (Cert.KernelIdeal.KValue.arg m c Cert.KernelIdeal.main_arg11) (Cert.KernelIdeal.KValue.arg m c Cert.KernelIdeal.main_arg12) (Cert.KernelIdeal.KValue.arg m c Cert.KernelIdeal.main_arg13) (Cert.KernelIdeal.KValue.arg m c Cert.KernelIdeal.main_arg14) (Cert.KernelIdeal.KValue.arg m c Cert.KernelIdeal.main_arg15) (Cert.KernelIdeal.KValue.arg m c Cert.KernelIdeal.main_arg16) (Cert.KernelIdeal.KValue.arg m c Cert.KernelIdeal.main_arg17)) :
    Cert.KernelIdeal.KValue.G m c
      = toArr2 (net varR Cert.KernelIdeal.Glue.cN Cert.KernelIdeal.Glue.eps Cert.KernelIdeal.Glue.zero (Cert.KernelIdeal.KValue.aggK m c) (ofArr2 (Cert.KernelIdeal.KValue.arg m c Cert.KernelIdeal.main_arg0)) (ofArr2 (Cert.KernelIdeal.KValue.arg m c Cert.KernelIdeal.main_arg2)) (ofArr1 (Cert.KernelIdeal.KValue.arg m c Cert.KernelIdeal.main_arg3)) (ofArr2 (Cert.KernelIdeal.KValue.arg m c Cert.KernelIdeal.main_arg4)) (ofArr2 (Cert.KernelIdeal.KValue.arg m c Cert.KernelIdeal.main_arg5)) (ofArr1 (Cert.KernelIdeal.KValue.arg m c Cert.KernelIdeal.main_arg6)) (ofArr2 (Cert.KernelIdeal.KValue.arg m c Cert.KernelIdeal.main_arg7)) (ofArr1 (Cert.KernelIdeal.KValue.arg m c Cert.KernelIdeal.main_arg8)) (ofArr1 (Cert.KernelIdeal.KValue.arg m c Cert.KernelIdeal.main_arg9)) (ofArr1 (Cert.KernelIdeal.KValue.arg m c Cert.KernelIdeal.main_arg10)) (ofArr1 (Cert.KernelIdeal.KValue.arg m c Cert.KernelIdeal.main_arg11)) (ofArr2 (Cert.KernelIdeal.KValue.arg m c Cert.KernelIdeal.main_arg12)) (ofArr1 (Cert.KernelIdeal.KValue.arg m c Cert.KernelIdeal.main_arg13)) (ofArr2 (Cert.KernelIdeal.KValue.arg m c Cert.KernelIdeal.main_arg14)) (ofArr1 (Cert.KernelIdeal.KValue.arg m c Cert.KernelIdeal.main_arg15)) (ofArr2 (Cert.KernelIdeal.KValue.arg m c Cert.KernelIdeal.main_arg16)) (ofArr1 (Cert.KernelIdeal.KValue.arg m c Cert.KernelIdeal.main_arg17))) := by
  rw [Cert.KernelIdeal.KValue.G_eq_net]
  exact congrArg toArr2 (net_var_eq _ _ _ cN_val eps_val zero_val (Cert.KernelIdeal.KValue.aggK m c) (aggK_finite m c) _ _ _ _ _ _ _ _ _ _ _ _ _ _ _ _ _
    (matFin_ofArr2 _ fa.h0) (matFin_ofArr2 _ fa.h2) (rowFin_ofArr1 _ fa.h3) (matFin_ofArr2 _ fa.h4) (rowFin_ofArr1 _ fa.h8) (rowFin_ofArr1 _ fa.h9)
    (matFin_ofArr2 _ fa.h5) (rowFin_ofArr1 _ fa.h6) (matFin_ofArr2 _ fa.h7))

/-- The reference's stage functions of the kernel program's launch arrays are the same network. -/
theorem stage_eq_netR :
    Cert.ReferenceIdeal.Stage.out (F := Ideal) (Cert.KernelIdeal.KValue.arg m c Cert.KernelIdeal.main_arg0) (Cert.KernelIdeal.KValue.arg m c Cert.KernelIdeal.main_arg1) (Cert.KernelIdeal.KValue.arg m c Cert.KernelIdeal.main_arg2) (Cert.KernelIdeal.KValue.arg m c Cert.KernelIdeal.main_arg3) (Cert.KernelIdeal.KValue.arg m c Cert.KernelIdeal.main_arg4) (Cert.KernelIdeal.KValue.arg m c Cert.KernelIdeal.main_arg5) (Cert.KernelIdeal.KValue.arg m c Cert.KernelIdeal.main_arg6) (Cert.KernelIdeal.KValue.arg m c Cert.KernelIdeal.main_arg7) (Cert.KernelIdeal.KValue.arg m c Cert.KernelIdeal.main_arg8) (Cert.KernelIdeal.KValue.arg m c Cert.KernelIdeal.main_arg9) (Cert.KernelIdeal.KValue.arg m c Cert.KernelIdeal.main_arg10) (Cert.KernelIdeal.KValue.arg m c Cert.KernelIdeal.main_arg11) (Cert.KernelIdeal.KValue.arg m c Cert.KernelIdeal.main_arg12) (Cert.KernelIdeal.KValue.arg m c Cert.KernelIdeal.main_arg13) (Cert.KernelIdeal.KValue.arg m c Cert.KernelIdeal.main_arg14) (Cert.KernelIdeal.KValue.arg m c Cert.KernelIdeal.main_arg15) (Cert.KernelIdeal.KValue.arg m c Cert.KernelIdeal.main_arg16) (Cert.KernelIdeal.KValue.arg m c Cert.KernelIdeal.main_arg17)
      = toArr2 (net varR Cert.KernelIdeal.Glue.cN Cert.KernelIdeal.Glue.eps Cert.KernelIdeal.Glue.zero (Cert.KernelIdeal.KValue.aggK m c) (ofArr2 (Cert.KernelIdeal.KValue.arg m c Cert.KernelIdeal.main_arg0)) (ofArr2 (Cert.KernelIdeal.KValue.arg m c Cert.KernelIdeal.main_arg2)) (ofArr1 (Cert.KernelIdeal.KValue.arg m c Cert.KernelIdeal.main_arg3)) (ofArr2 (Cert.KernelIdeal.KValue.arg m c Cert.KernelIdeal.main_arg4)) (ofArr2 (Cert.KernelIdeal.KValue.arg m c Cert.KernelIdeal.main_arg5)) (ofArr1 (Cert.KernelIdeal.KValue.arg m c Cert.KernelIdeal.main_arg6)) (ofArr2 (Cert.KernelIdeal.KValue.arg m c Cert.KernelIdeal.main_arg7)) (ofArr1 (Cert.KernelIdeal.KValue.arg m c Cert.KernelIdeal.main_arg8)) (ofArr1 (Cert.KernelIdeal.KValue.arg m c Cert.KernelIdeal.main_arg9)) (ofArr1 (Cert.KernelIdeal.KValue.arg m c Cert.KernelIdeal.main_arg10)) (ofArr1 (Cert.KernelIdeal.KValue.arg m c Cert.KernelIdeal.main_arg11)) (ofArr2 (Cert.KernelIdeal.KValue.arg m c Cert.KernelIdeal.main_arg12)) (ofArr1 (Cert.KernelIdeal.KValue.arg m c Cert.KernelIdeal.main_arg13)) (ofArr2 (Cert.KernelIdeal.KValue.arg m c Cert.KernelIdeal.main_arg14)) (ofArr1 (Cert.KernelIdeal.KValue.arg m c Cert.KernelIdeal.main_arg15)) (ofArr2 (Cert.KernelIdeal.KValue.arg m c Cert.KernelIdeal.main_arg16)) (ofArr1 (Cert.KernelIdeal.KValue.arg m c Cert.KernelIdeal.main_arg17))) :=
  Cert.ReferenceIdeal.RefSpec.out_eq cN_val _ _ _ _ _ _ _ _ _ _ _ _ _ _ _ _ _ _
end

theorem algebraic : Cert.algebraic_KernelIdeal_ReferenceIdeal := by
  intro m ρ m' ρ' hpre hagree
  refine ⟨fun c => Cert.KernelIdeal.KValue.G m c, ?_, ?_⟩
  · exact (θ_run Cert.KernelIdeal.defs _ _).mono (fun r h c => ⟨(h c).1.trans (Cert.KernelIdeal.KValue.value m ρ c), (h c).2⟩)
      (Cert.KernelIdeal.KRun.run_val (F := Ideal) m ρ)
  · refine (θ_run Cert.ReferenceIdeal.defs _ _).mono (fun r h c => ?_) (Cert.ReferenceIdeal.RefRun.run_raw (F := Ideal) m' ρ')
    obtain ⟨e0, e1, e2, e3, e4, e5, e6, e7, e8, e9, e10, e11, e12, e13, e14, e15, e16, e17⟩ := hagree c
    have fa := Cert.Pre_finite_inputs.Decode.finite_of_pre _ _ _ _ _ _ _ _ _ _ _ _ _ _ _ _ _ _ (hpre c)
    refine ⟨?_, (h c Cert.ReferenceIdeal.main_arg0).trans (Cert.ReferenceIdeal.RefRun.keep_ops _ _ (by decide)),
      (h c Cert.ReferenceIdeal.main_arg1).trans (Cert.ReferenceIdeal.RefRun.keep_ops _ _ (by decide)),
      (h c Cert.ReferenceIdeal.main_arg2).trans (Cert.ReferenceIdeal.RefRun.keep_ops _ _ (by decide)),
      (h c Cert.ReferenceIdeal.main_arg3).trans (Cert.ReferenceIdeal.RefRun.keep_ops _ _ (by decide)),
      (h c Cert.ReferenceIdeal.main_arg4).trans (Cert.ReferenceIdeal.RefRun.keep_ops _ _ (by decide)),
      (h c Cert.ReferenceIdeal.main_arg5).trans (Cert.ReferenceIdeal.RefRun.keep_ops _ _ (by decide)),
      (h c Cert.ReferenceIdeal.main_arg6).trans (Cert.ReferenceIdeal.RefRun.keep_ops _ _ (by decide)),
      (h c Cert.ReferenceIdeal.main_arg7).trans (Cert.ReferenceIdeal.RefRun.keep_ops _ _ (by decide)),
      (h c Cert.ReferenceIdeal.main_arg8).trans (Cert.ReferenceIdeal.RefRun.keep_ops _ _ (by decide)),
      (h c Cert.ReferenceIdeal.main_arg9).trans (Cert.ReferenceIdeal.RefRun.keep_ops _ _ (by decide)),
      (h c Cert.ReferenceIdeal.main_arg10).trans (Cert.ReferenceIdeal.RefRun.keep_ops _ _ (by decide)),
      (h c Cert.ReferenceIdeal.main_arg11).trans (Cert.ReferenceIdeal.RefRun.keep_ops _ _ (by decide)),
      (h c Cert.ReferenceIdeal.main_arg12).trans (Cert.ReferenceIdeal.RefRun.keep_ops _ _ (by decide)),
      (h c Cert.ReferenceIdeal.main_arg13).trans (Cert.ReferenceIdeal.RefRun.keep_ops _ _ (by decide)),
      (h c Cert.ReferenceIdeal.main_arg14).trans (Cert.ReferenceIdeal.RefRun.keep_ops _ _ (by decide)),
      (h c Cert.ReferenceIdeal.main_arg15).trans (Cert.ReferenceIdeal.RefRun.keep_ops _ _ (by decide)),
      (h c Cert.ReferenceIdeal.main_arg16).trans (Cert.ReferenceIdeal.RefRun.keep_ops _ _ (by decide)),
      (h c Cert.ReferenceIdeal.main_arg17).trans (Cert.ReferenceIdeal.RefRun.keep_ops _ _ (by decide))⟩
    show _ = Cert.KernelIdeal.KValue.G m c
    rw [h c Cert.ReferenceIdeal.main_v93, Cert.ReferenceIdeal.RefRun.fold_eq, G_eq_netR m c fa, ← stage_eq_netR m c]
    unfold Cert.KernelIdeal.KValue.arg
    rw [← e0, ← e1, ← e2, ← e3, ← e4, ← e5, ← e6, ← e7, ← e8, ← e9, ← e10, ← e11, ← e12, ← e13, ← e14, ← e15, ← e16, ← e17]

end Cert.Proof.Final

end
-- ==== Proof.lean ====
/- The proof of `Cert.Claim` for a two-layer GraphSAGE network with batch normalisation and a three-layer perceptron head,
   computed by five pipelined kernels among host operations, against its plain reference.

   Frames: each kernel program's frame certificate over its five regions (Proof/Frames.lean); the reference's run, an
   operation list of 158 host operations, none of which writes an argument (Proof/RefRun.lean, Proof/RefFrame.lean).
   The idealization rewrote nothing, so `preserves` is `True`. Equal results on the extended reals (Proof/Final.lean): the kernel
   program's result array is read back through its five regions to the network of Proof/Spec.lean with the variance "mean of
   squares less the square of the mean" (Proof/KernelValue.lean over the regions' values Proof/LinValue0/2, BnValue1/3,
   MlpValue4 and the fold Proof/KernelFold.lean); the reference's result is the same network with the variance "mean of the
   squared deviations" (Proof/RefFold.lean, Proof/RefSpec.lean); the precondition makes the float arguments finite
   (Proof/PreFinite.lean), the edge aggregation keeps a matrix finite (Proof/AggFinite.lean), and on finite data the two
   variances are one number (Proof/Algebra.lean). -/
import proofs.«180842_j41832981463453_1_alg».proof.Defs
import proofs.«180842_j41832981463453_1_alg».proof.Proof.Frames
import proofs.«180842_j41832981463453_1_alg».proof.Proof.RefFrame
import proofs.«180842_j41832981463453_1_alg».proof.Proof.Final
import proofs.«180842_j41832981463453_1_alg».proof.Proof.Gen.Kernel
import proofs.«180842_j41832981463453_1_alg».proof.Proof.Gen.KernelIdeal
import proofs.«180842_j41832981463453_1_alg».proof.Proof.Gen.ReferenceIdeal
import proofs.«180842_j41832981463453_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal,
    fun m ρ _ => Cert.ReferenceIdeal.RefRun.frame_post m ρ,
    trivial, Final.algebraic⟩

end Cert.Proof

end
